-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S4 : Shape := ⟨1, ![4]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S4 : S_.BroadcastsInDim S4 (![] : Fin 0 → Fin S4.rank)
  reducesTo_S4_S_d0 : S4.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S10 .f32) (main_v98 : IVec S_ 1) (main_v101 : IVec S256x10 1) (main_c_39 : IVec S_ 1) : IVec S_ 1 :=
  let main_v102 : IVec S_ 1 := (fun x v => Host.reduce IntOp.andi x v reducesTo_S256x10_S_d0_1 h_S_) main_v101 main_c_39
  let main_v103 : IVec S_ 1 := andi main_v98 main_v102
  let main_v104 : FVec F S10 .f32 := Host.absf main_arg23
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  main_v108

def fn_part5 {F : FTy → Type} [FloatOps F] (main_arg20 : FVec F S256x256 .f32) (main_arg21 : FVec F S256 .f32) (main_arg22 : FVec F S256x10 .f32) (main_arg23 : FVec F S10 .f32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_v89 : FVec F S256x256 .f32 := Host.absf main_arg20
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x10 .f32 := Host.absf main_arg22
  let main_cst_38 : FVec F S_ .f32 := constant S_ .f32 0x7F800000#32
  let main_v100 : FVec F S256x10 .f32 := broadcastInDim S256x10 ![] bcast_S_S256x10 main_cst_38
  let main_v101 : IVec S256x10 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S3x256 .f32) (main_arg17 : FVec F S3x256 .f32) (main_arg18 : FVec F S3x256 .f32) (main_arg19 : FVec F S4 .f32) (main_arg20 : FVec F S256x256 .f32) (main_arg21 : FVec F S256 .f32) (main_arg22 : FVec F S256x10 .f32) (main_arg23 : FVec F S10 .f32) (main_v63 : IVec S_ 1) (main_v67 : IVec S_ 1) : IVec S_ 1 :=
  let main_v68 : IVec S_ 1 := andi main_v63 main_v67
  let main_v69 : FVec F S3x256 .f32 := Host.absf main_arg16
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S3x256 .f32 := Host.absf main_arg17
  let main_cst_28 : FVec F S_ .f32 := constant S_ .f32 0x7F800000#32
  let main_v75 : FVec F S3x256 .f32 := broadcastInDim S3x256 ![] bcast_S_S3x256 main_cst_28
  let main_v76 : IVec S3x256 1 := cmpf .olt main_v74 main_v75
  let main_c_29 : IVec S_ 1 := constantI S_ 1 1#1
  let main_v77 : IVec S_ 1 := (fun x v => Host.reduce IntOp.andi x v reducesTo_S3x256_S_d0_1 h_S_) main_v76 main_c_29
  let main_v78 : IVec S_ 1 := andi main_v73 main_v77
  let main_v79 : FVec F S3x256 .f32 := Host.absf main_arg18
  let main_cst_30 : FVec F S_ .f32 := constant S_ .f32 0x7F800000#32
  let main_v80 : FVec F S3x256 .f32 := broadcastInDim S3x256 ![] bcast_S_S3x256 main_cst_30
  let main_v81 : IVec S3x256 1 := cmpf .olt main_v79 main_v80
  let main_c_31 : IVec S_ 1 := constantI S_ 1 1#1
  let main_v82 : IVec S_ 1 := (fun x v => Host.reduce IntOp.andi x v reducesTo_S3x256_S_d0_1 h_S_) main_v81 main_c_31
  let main_v83 : IVec S_ 1 := andi main_v78 main_v82
  let main_v84 : FVec F S4 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S3x256x256 .f32) (main_arg14 : FVec F S3x256 .f32) (main_arg15 : FVec F S3x256 .f32) (main_arg16 : FVec F S3x256 .f32) (main_arg17 : FVec F S3x256 .f32) (main_arg18 : FVec F S3x256 .f32) (main_arg19 : FVec F S4 .f32) (main_arg20 : FVec F S256x256 .f32) (main_arg21 : FVec F S256 .f32) (main_arg22 : FVec F S256x10 .f32) (main_arg23 : FVec F S10 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256x256 .f32 := Host.absf main_arg13
  let main_cst_20 : FVec F S_ .f32 := constant S_ .f32 0x7F800000#32
  let main_v55 : FVec F S3x256x256 .f32 := broadcastInDim S3x256x256 ![] bcast_S_S3x256x256 main_cst_20
  let main_v56 : IVec S3x256x256 1 := cmpf .olt main_v54 main_v55
  let main_c_21 : IVec S_ 1 := constantI S_ 1 1#1
  let main_v57 : IVec S_ 1 := (fun x v => Host.reduce IntOp.andi x v reducesTo_S3x256x256_S_d0_1_2 h_S_) main_v56 main_c_21
  let main_v58 : IVec S_ 1 := andi main_v53 main_v57
  let main_v59 : FVec F S3x256 .f32 := Host.absf main_arg14
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S256 .f32) (main_arg10 : FVec F S256 .f32) (main_arg11 : FVec F S3x256x256 .f32) (main_arg12 : FVec F S3x256 .f32) (main_arg13 : FVec F S3x256x256 .f32) (main_arg14 : FVec F S3x256 .f32) (main_arg15 : FVec F S3x256 .f32) (main_arg16 : FVec F S3x256 .f32) (main_arg17 : FVec F S3x256 .f32) (main_arg18 : FVec F S3x256 .f32) (main_arg19 : FVec F S4 .f32) (main_arg20 : FVec F S256x256 .f32) (main_arg21 : FVec F S256 .f32) (main_arg22 : FVec F S256x10 .f32) (main_arg23 : FVec F S10 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S3x256x256 .f32 := Host.absf main_arg11
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg12
  let main_cst_18 : FVec F S_ .f32 := constant S_ .f32 0x7F800000#32
  let main_v50 : FVec F S3x256 .f32 := broadcastInDim S3x256 ![] bcast_S_S3x256 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S256 .f32) (main_arg7 : FVec F S256 .f32) (main_arg8 : FVec F S256 .f32) (main_arg9 : FVec F S256 .f32) (main_arg10 : FVec F S256 .f32) (main_arg11 : FVec F S3x256x256 .f32) (main_arg12 : FVec F S3x256 .f32) (main_arg13 : FVec F S3x256x256 .f32) (main_arg14 : FVec F S3x256 .f32) (main_arg15 : FVec F S3x256 .f32) (main_arg16 : FVec F S3x256 .f32) (main_arg17 : FVec F S3x256 .f32) (main_arg18 : FVec F S3x256 .f32) (main_arg19 : FVec F S4 .f32) (main_arg20 : FVec F S256x256 .f32) (main_arg21 : FVec F S256 .f32) (main_arg22 : FVec F S256x10 .f32) (main_arg23 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256 .f32) (main_arg8 : FVec F S256 .f32) (main_arg9 : FVec F S256 .f32) (main_arg10 : FVec F S256 .f32) (main_arg11 : FVec F S3x256x256 .f32) (main_arg12 : FVec F S3x256 .f32) (main_arg13 : FVec F S3x256x256 .f32) (main_arg14 : FVec F S3x256 .f32) (main_arg15 : FVec F S3x256 .f32) (main_arg16 : FVec F S3x256 .f32) (main_arg17 : FVec F S3x256 .f32) (main_arg18 : FVec F S3x256 .f32) (main_arg19 : FVec F S4 .f32) (main_arg20 : FVec F S256x256 .f32) (main_arg21 : FVec F S256 .f32) (main_arg22 : FVec F S256x10 .f32) (main_arg23 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S4 : Shape := ⟨1, ![4]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S1x256x256 : Shape := ⟨3, ![1, 256, 256]⟩
abbrev S800000x256 : Shape := ⟨2, ![800000, 256]⟩
abbrev S50000x1 : Shape := ⟨2, ![50000, 1]⟩
abbrev S256x1 : Shape := ⟨2, ![256, 1]⟩
abbrev S1x10 : Shape := ⟨2, ![1, 10]⟩

abbrev nBuf : Space → Nat
  | .hbm => 203
  | .vmem => 54
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S3x256x256, .f32⟩
  | 12 => ⟨S3x256, .f32⟩
  | 13 => ⟨S3x256x256, .f32⟩
  | 14 => ⟨S3x256, .f32⟩
  | 15 => ⟨S3x256, .f32⟩
  | 16 => ⟨S3x256, .f32⟩
  | 17 => ⟨S3x256, .f32⟩
  | 18 => ⟨S3x256, .f32⟩
  | 19 => ⟨S4, .f32⟩
  | 20 => ⟨S256x256, .f32⟩
  | 21 => ⟨S256, .f32⟩
  | 22 => ⟨S256x10, .f32⟩
  | 23 => ⟨S10, .f32⟩
  | 24 => ⟨S1x800000, .i32⟩
  | 25 => ⟨S800000, .i32⟩
  | 26 => ⟨S1x800000, .i32⟩
  | 27 => ⟨S800000, .i32⟩
  | 28 => ⟨S1, .f32⟩
  | 29 => ⟨S_, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S_, .f32⟩
  | 45 => ⟨S50000x128, .f32⟩
  | 46 => ⟨S50000x128, .f32⟩
  | 47 => ⟨S50000x128, .f32⟩
  | 48 => ⟨S1x256, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S50000x256, .f32⟩
  | 55 => ⟨S1, .f32⟩
  | 56 => ⟨S_, .f32⟩
  | 57 => ⟨S1x256x256, .f32⟩
  | 58 => ⟨S256x256, .f32⟩
  | 59 => ⟨S1x256, .f32⟩
  | 60 => ⟨S256, .f32⟩
  | 61 => ⟨S1x256x256, .f32⟩
  | 62 => ⟨S256x256, .f32⟩
  | 63 => ⟨S1x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S256, .f32⟩
  | 71 => ⟨S1x256, .f32⟩
  | 72 => ⟨S256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S50000x256, .f32⟩
  | 84 => ⟨S800000x1, .i32⟩
  | 85 => ⟨S50000x256, .f32⟩
  | 86 => ⟨S_, .f32⟩
  | 87 => ⟨S_, .f32⟩
  | 88 => ⟨S50000x256, .f32⟩
  | 89 => ⟨S50000x256, .f32⟩
  | 90 => ⟨S50000x256, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S1x256, .f32⟩
  | 97 => ⟨S50000x256, .f32⟩
  | 98 => ⟨S1, .f32⟩
  | 99 => ⟨S_, .f32⟩
  | 100 => ⟨S1x256x256, .f32⟩
  | 101 => ⟨S256x256, .f32⟩
  | 102 => ⟨S1x256, .f32⟩
  | 103 => ⟨S256, .f32⟩
  | 104 => ⟨S1x256x256, .f32⟩
  | 105 => ⟨S256x256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x256, .f32⟩
  | 115 => ⟨S256, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x256, .f32⟩
  | 125 => ⟨S_, .f32⟩
  | 126 => ⟨S50000x256, .f32⟩
  | 127 => ⟨S800000x1, .i32⟩
  | _ => ⟨S50000x128, .f32⟩

abbrev hbmTy0_1 (i : Nat) : BufTy := match i % 128 with
  | 0 => ⟨S50000x256, .f32⟩
  | 1 => ⟨S_, .f32⟩
  | 2 => ⟨S_, .f32⟩
  | 3 => ⟨S50000x256, .f32⟩
  | 4 => ⟨S50000x256, .f32⟩
  | 5 => ⟨S50000x256, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S50000x256, .f32⟩
  | 13 => ⟨S1, .f32⟩
  | 14 => ⟨S_, .f32⟩
  | 15 => ⟨S1x256x256, .f32⟩
  | 16 => ⟨S256x256, .f32⟩
  | 17 => ⟨S1x256, .f32⟩
  | 18 => ⟨S256, .f32⟩
  | 19 => ⟨S1x256x256, .f32⟩
  | 20 => ⟨S256x256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S256, .f32⟩
  | 29 => ⟨S1x256, .f32⟩
  | 30 => ⟨S256, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S_, .f32⟩
  | 41 => ⟨S50000x256, .f32⟩
  | 42 => ⟨S800000x1, .i32⟩
  | 43 => ⟨S50000x256, .f32⟩
  | 44 => ⟨S_, .f32⟩
  | 45 => ⟨S_, .f32⟩
  | 46 => ⟨S50000x256, .f32⟩
  | 47 => ⟨S50000x256, .f32⟩
  | 48 => ⟨S50000x256, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S1x256, .f32⟩
  | 55 => ⟨S50000x256, .f32⟩
  | 56 => ⟨S_, .f32⟩
  | 57 => ⟨S256x256, .f32⟩
  | 58 => ⟨S50000x1, .i32⟩
  | 59 => ⟨S256x256, .f32⟩
  | 60 => ⟨S_, .f32⟩
  | 61 => ⟨S50000, .f32⟩
  | 62 => ⟨S_, .f32⟩
  | 63 => ⟨S256, .f32⟩
  | 64 => ⟨S50000x1, .i32⟩
  | 65 => ⟨S256, .f32⟩
  | 66 => ⟨S_, .f32⟩
  | 67 => ⟨S256, .f32⟩
  | 68 => ⟨S256, .f32⟩
  | 69 => ⟨S256x1, .f32⟩
  | 70 => ⟨S256x256, .f32⟩
  | 71 => ⟨S256x256, .f32⟩
  | 72 => ⟨S1x256, .f32⟩
  | 73 => ⟨S1x10, .f32⟩
  | 74 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S256x256, .f32⟩
  | .local _ .vmem, ⟨50, _⟩ => ⟨S1x256, .f32⟩
  | .local _ .vmem, ⟨51, _⟩ => ⟨S256x10, .f32⟩
  | .local _ .vmem, ⟨52, _⟩ => ⟨S1x10, .f32⟩
  | .local _ .vmem, ⟨53, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_2 : Ref sig .tc := ⟨.hbm, 73, rfl⟩
abbrev main_v45 : Ref sig .tc := ⟨.hbm, 74, rfl⟩
abbrev main_v46 : Ref sig .tc := ⟨.hbm, 75, rfl⟩
abbrev main_c_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_6 : Ref sig .tc := ⟨.hbm, 116, rfl⟩
abbrev main_v84 : Ref sig .tc := ⟨.hbm, 117, rfl⟩
abbrev main_v85 : Ref sig .tc := ⟨.hbm, 118, rfl⟩
abbrev main_c_7 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_8 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_9 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_c_10 : Ref sig .tc := ⟨.hbm, 159, rfl⟩
abbrev main_v123 : Ref sig .tc := ⟨.hbm, 160, rfl⟩
abbrev main_v124 : Ref sig .tc := ⟨.hbm, 161, rfl⟩
abbrev main_c_11 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_12 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_13 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_14 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_15 : Ref sig .tc := ⟨.hbm, 188, rfl⟩
abbrev main_v147 : Ref sig .tc := ⟨.hbm, 189, rfl⟩
abbrev main_cst_16 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_17 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4_S1_0 : S4.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  slices_S4_S1_1 : S4.Slices ![1] S1
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000x256 : S_.BroadcastsInDim S50000x256 (![] : Fin 0 → Fin S50000x256.rank)
  shapeCasts_S2000x256_S2000x256 : S2000x256.ShapeCasts S2000x256
  shapeCasts_S256x256_S256x256 : S256x256.ShapeCasts S256x256
  slices_S4_S1_2 : S4.Slices ![2] S1
  slices_S3x256x256_S1x256x256_1_0_0 : S3x256x256.Slices ![1, 0, 0] S1x256x256
  slices_S3x256_S1x256_1_0 : S3x256.Slices ![1, 0] S1x256
  slices_S4_S1_3 : S4.Slices ![3] S1
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  shapeCasts_S10_S1x10 : S10.ShapeCasts S1x10
  broadcasts_S1x256_S256x256 : S1x256.Broadcasts S256x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S50000x256.size a
  hwx2_9 : ∀ i : grid2.Coords, EltTy.bits .f32 = 32 ∨ (Rect.block (s := S50000x256) S2000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S50000x256.size a
  hwx3_9 : ∀ i : grid3.Coords, EltTy.bits .f32 = 32 ∨ (Rect.block (s := S50000x256) S2000x256.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S256x256.size a
  hwx4_0 : ∀ i : grid4.Coords, EltTy.bits .f32 = 32 ∨ (Rect.block (s := S256x256) S256x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x10.size a ≤ S256x10.size a
  hwx4_5 : ∀ i : grid4.Coords, EltTy.bits .f32 = 32 ∨ (Rect.block (s := S256x10) S256x10.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v97) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v100) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v101) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v102) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v103) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v104) S2000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v136) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v108) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v137) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v112) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v138) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v139) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v140) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v141) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v142) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v143) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v155) S256x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg20) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v156) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg22) S256x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v157) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v158) S256x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S4 : Shape := ⟨1, ![4]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩
abbrev S50000x1 : Shape := ⟨2, ![50000, 1]⟩
abbrev S256x1 : Shape := ⟨2, ![256, 1]⟩
abbrev S1x10 : Shape := ⟨2, ![1, 10]⟩

abbrev nBuf : Space → Nat
  | .hbm => 318
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S3x256x256, .f32⟩
  | 12 => ⟨S3x256, .f32⟩
  | 13 => ⟨S3x256x256, .f32⟩
  | 14 => ⟨S3x256, .f32⟩
  | 15 => ⟨S3x256, .f32⟩
  | 16 => ⟨S3x256, .f32⟩
  | 17 => ⟨S3x256, .f32⟩
  | 18 => ⟨S3x256, .f32⟩
  | 19 => ⟨S4, .f32⟩
  | 20 => ⟨S256x256, .f32⟩
  | 21 => ⟨S256, .f32⟩
  | 22 => ⟨S256x10, .f32⟩
  | 23 => ⟨S10, .f32⟩
  | 24 => ⟨S1x800000, .i32⟩
  | 25 => ⟨S800000, .i32⟩
  | 26 => ⟨S1x800000, .i32⟩
  | 27 => ⟨S800000, .i32⟩
  | 28 => ⟨S1, .f32⟩
  | 29 => ⟨S_, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S_, .f32⟩
  | 45 => ⟨S50000x128, .f32⟩
  | 46 => ⟨S50000x128, .f32⟩
  | 47 => ⟨S50000x128, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S256, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S1, .f32⟩
  | 79 => ⟨S_, .f32⟩
  | 80 => ⟨S1x256x256, .f32⟩
  | 81 => ⟨S256x256, .f32⟩
  | 82 => ⟨S1x256, .f32⟩
  | 83 => ⟨S256, .f32⟩
  | 84 => ⟨S1x256x256, .f32⟩
  | 85 => ⟨S256x256, .f32⟩
  | 86 => ⟨S1x256, .f32⟩
  | 87 => ⟨S256, .f32⟩
  | 88 => ⟨S1x256, .f32⟩
  | 89 => ⟨S256, .f32⟩
  | 90 => ⟨S1x256, .f32⟩
  | 91 => ⟨S256, .f32⟩
  | 92 => ⟨S1x256, .f32⟩
  | 93 => ⟨S256, .f32⟩
  | 94 => ⟨S1x256, .f32⟩
  | 95 => ⟨S256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S_, .f32⟩
  | 110 => ⟨S_, .f32⟩
  | 111 => ⟨S50000x256, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1, .f32⟩
  | 17 => ⟨S_, .f32⟩
  | 18 => ⟨S1x256x256, .f32⟩
  | 19 => ⟨S256x256, .f32⟩
  | 20 => ⟨S1x256, .f32⟩
  | 21 => ⟨S256, .f32⟩
  | 22 => ⟨S1x256x256, .f32⟩
  | 23 => ⟨S256x256, .f32⟩
  | 24 => ⟨S1x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S256, .f32⟩
  | 32 => ⟨S1x256, .f32⟩
  | 33 => ⟨S256, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x256, .f32⟩
  | 43 => ⟨S_, .f32⟩
  | 44 => ⟨S50000x256, .f32⟩
  | 45 => ⟨S800000x1, .i32⟩
  | 46 => ⟨S50000x256, .f32⟩
  | 47 => ⟨S_, .f32⟩
  | 48 => ⟨S_, .f32⟩
  | 49 => ⟨S50000x256, .f32⟩
  | 50 => ⟨S50000x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S256, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S1, .f32⟩
  | 83 => ⟨S_, .f32⟩
  | 84 => ⟨S1x256x256, .f32⟩
  | 85 => ⟨S256x256, .f32⟩
  | 86 => ⟨S1x256, .f32⟩
  | 87 => ⟨S256, .f32⟩
  | 88 => ⟨S1x256x256, .f32⟩
  | 89 => ⟨S256x256, .f32⟩
  | 90 => ⟨S1x256, .f32⟩
  | 91 => ⟨S256, .f32⟩
  | 92 => ⟨S1x256, .f32⟩
  | 93 => ⟨S256, .f32⟩
  | 94 => ⟨S1x256, .f32⟩
  | 95 => ⟨S256, .f32⟩
  | 96 => ⟨S1x256, .f32⟩
  | 97 => ⟨S256, .f32⟩
  | 98 => ⟨S1x256, .f32⟩
  | 99 => ⟨S256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S_, .f32⟩
  | 114 => ⟨S_, .f32⟩
  | 115 => ⟨S50000x256, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S50000x256, .f32⟩
  | 126 => ⟨S1x256, .f32⟩
  | 127 => ⟨S50000x256, .f32⟩
  | _ => ⟨S50000x128, .f32⟩

abbrev hbmTy0_2 (i : Nat) : BufTy := match i % 128 with
  | 0 => ⟨S50000x256, .f32⟩
  | 1 => ⟨S_, .f32⟩
  | 2 => ⟨S50000x256, .f32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S256, .f32⟩
  | 9 => ⟨S256, .f32⟩
  | 10 => ⟨S256, .f32⟩
  | 11 => ⟨S1x256, .f32⟩
  | 12 => ⟨S50000x256, .f32⟩
  | 13 => ⟨S50000x256, .f32⟩
  | 14 => ⟨S1x256, .f32⟩
  | 15 => ⟨S50000x256, .f32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S256x256, .f32⟩
  | 22 => ⟨S50000x1, .i32⟩
  | 23 => ⟨S256x256, .f32⟩
  | 24 => ⟨S_, .f32⟩
  | 25 => ⟨S50000, .f32⟩
  | 26 => ⟨S_, .f32⟩
  | 27 => ⟨S256, .f32⟩
  | 28 => ⟨S50000x1, .i32⟩
  | 29 => ⟨S256, .f32⟩
  | 30 => ⟨S_, .f32⟩
  | 31 => ⟨S256, .f32⟩
  | 32 => ⟨S256, .f32⟩
  | 33 => ⟨S256x1, .f32⟩
  | 34 => ⟨S256x256, .f32⟩
  | 35 => ⟨S256x256, .f32⟩
  | 36 => ⟨S256x256, .f32⟩
  | 37 => ⟨S1x256, .f32⟩
  | 38 => ⟨S256x256, .f32⟩
  | 39 => ⟨S256x256, .f32⟩
  | 40 => ⟨S_, .f32⟩
  | 41 => ⟨S256x256, .f32⟩
  | 42 => ⟨S256x256, .f32⟩
  | 43 => ⟨S256x10, .f32⟩
  | 44 => ⟨S1x10, .f32⟩
  | 45 => ⟨S256x10, .f32⟩
  | 46 => ⟨S256x10, .f32⟩
  | 47 => ⟨S_, .f32⟩
  | 48 => ⟨S256, .f32⟩
  | 49 => ⟨S_, .f32⟩
  | 50 => ⟨S256, .f32⟩
  | 51 => ⟨S256, .f32⟩
  | 52 => ⟨S256x1, .f32⟩
  | 53 => ⟨S256x10, .f32⟩
  | 54 => ⟨S256x10, .f32⟩
  | 55 => ⟨S256x10, .f32⟩
  | 56 => ⟨S_, .f32⟩
  | 57 => ⟨S256, .f32⟩
  | 58 => ⟨S256x1, .f32⟩
  | 59 => ⟨S256x1, .f32⟩
  | 60 => ⟨S256x10, .f32⟩
  | 61 => ⟨S256x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call0_cst : Ref sig .tc := ⟨.hbm, 52, rfl⟩
abbrev main_call0_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call1_cst : Ref sig .tc := ⟨.hbm, 59, rfl⟩
abbrev main_call1_v0 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_3 : Ref sig .tc := ⟨.hbm, 96, rfl⟩
abbrev main_v63 : Ref sig .tc := ⟨.hbm, 97, rfl⟩
abbrev main_v64 : Ref sig .tc := ⟨.hbm, 98, rfl⟩
abbrev main_c_4 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_5 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_6 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call2_cst : Ref sig .tc := ⟨.hbm, 118, rfl⟩
abbrev main_call2_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call3_cst : Ref sig .tc := ⟨.hbm, 125, rfl⟩
abbrev main_call3_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_7 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_8 : Ref sig .tc := ⟨.hbm, 162, rfl⟩
abbrev main_v120 : Ref sig .tc := ⟨.hbm, 163, rfl⟩
abbrev main_v121 : Ref sig .tc := ⟨.hbm, 164, rfl⟩
abbrev main_c_9 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_10 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_11 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_call4_cst : Ref sig .tc := ⟨.hbm, 184, rfl⟩
abbrev main_call4_v0 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call5_cst : Ref sig .tc := ⟨.hbm, 191, rfl⟩
abbrev main_call5_v0 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_12 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_c_13 : Ref sig .tc := ⟨.hbm, 228, rfl⟩
abbrev main_v177 : Ref sig .tc := ⟨.hbm, 229, rfl⟩
abbrev main_v178 : Ref sig .tc := ⟨.hbm, 230, rfl⟩
abbrev main_c_14 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_15 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_16 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_call6_cst : Ref sig .tc := ⟨.hbm, 250, rfl⟩
abbrev main_call6_v0 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_call7_cst : Ref sig .tc := ⟨.hbm, 257, rfl⟩
abbrev main_call7_v0 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_cst_17 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_cst_18 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_19 : Ref sig .tc := ⟨.hbm, 280, rfl⟩
abbrev main_v219 : Ref sig .tc := ⟨.hbm, 281, rfl⟩
abbrev main_cst_20 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_cst_21 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_call8_cst : Ref sig .tc := ⟨.hbm, 296, rfl⟩
abbrev main_call8_v0 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_call9_cst : Ref sig .tc := ⟨.hbm, 303, rfl⟩
abbrev main_call9_v0 : Ref sig .tc := ⟨.hbm, 304, rfl⟩
abbrev main_call9_cst_0 : Ref sig .tc := ⟨.hbm, 305, rfl⟩
abbrev main_call9_v1 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_call9_v5 : Ref sig .tc := ⟨.hbm, 310, rfl⟩
abbrev main_call9_v6 : Ref sig .tc := ⟨.hbm, 311, rfl⟩
abbrev main_call9_cst_1 : Ref sig .tc := ⟨.hbm, 312, rfl⟩
abbrev main_call9_v7 : Ref sig .tc := ⟨.hbm, 313, rfl⟩
abbrev main_call9_v8 : Ref sig .tc := ⟨.hbm, 314, rfl⟩
abbrev main_call9_v9 : Ref sig .tc := ⟨.hbm, 315, rfl⟩
abbrev main_call9_v10 : Ref sig .tc := ⟨.hbm, 316, rfl⟩
abbrev main_v237 : Ref sig .tc := ⟨.hbm, 317, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4_S1_0 : S4.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  slices_S4_S1_1 : S4.Slices ![1] S1
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S4_S1_2 : S4.Slices ![2] S1
  slices_S3x256x256_S1x256x256_1_0_0 : S3x256x256.Slices ![1, 0, 0] S1x256x256
  slices_S3x256_S1x256_1_0 : S3x256.Slices ![1, 0] S1x256
  slices_S4_S1_3 : S4.Slices ![3] S1
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

class Facts : Prop extends Facts₀ where

variable [Facts]
-- ==== Proof.KernelRun.lean ====
/-
  The idealized kernel's run with the final contents of every buffer named.

  The program is five kernel regions among stretches of host operations. Its generated frame follows the buffer
  contents boundary by boundary — after a stretch, the stretch's operations applied to what it found; after a region,
  the region's arrays at what its write-backs leave — down to the last boundary's contents, and then keeps only the
  argument arrays. Here the same run is stated with the last boundary's contents kept whole: every weakly fair
  execution terminates, nothing faulting, with each buffer that outlives the kernels at those contents. The result
  array and the unchanged arguments are both read off it.
-/
import proofs.«149134_j49194555408764_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to a
    kernel ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Whole

end
-- ==== Proof.RefRun.lean ====
/-
  The reference's run, followed piece by piece.

  The reference is a straight line of 294 host operations. Every weakly fair execution of it terminates with each
  buffer at what the operations, applied in order to the launch contents, leave there. The line is cut into five
  consecutive pieces — one per layer, one for mean pooling and the classifier — and the contents are followed from
  piece to piece: the argument arrays and the two index vectors are written by no later operation and are carried
  through; after piece `k` the layer's output buffer holds the stage `val_…` of the launch arguments (each stage read
  off the piece's own operations applied to the previous stage), and after the last piece the result buffer holds
  the last stage. No composed term of the whole line is ever stated: in this network each layer reads the previous
  layer's output twice, so the whole term doubles per layer.
-/
import proofs.«149134_j49194555408764_1_alg».proof.Proof.Gen.ReferenceIdeal
import proofs.«149134_j49194555408764_1_alg».proof.Proof.RefRead
import Idealize.ShloMosaic.Lib.StableHlo.Run

set_option maxRecDepth 16384

noncomputable section

namespace Cert.ReferenceIdeal.Staged

open Cert.ReferenceIdeal Cert.ReferenceIdeal.Gen Cert.ReferenceIdeal.Read
open Idealize.ShloMosaic Idealize.ShloMosaic.TcCoe Idealize.SL.Sem Idealize.ShloMosaic.StableHlo

/-! ## @main's operations, in five consecutive pieces -/

section Ops
variable {F : FTy → Type} [FloatOps F]

set_option maxHeartbeats 4000000 in
/-- Piece 1 of @main's operations: the first layer. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg19 main_v4 ((extractStridedSlice S1 ![0] · slices_S4_S1_0) : (⟨S4, .f32⟩ : BufTy).Contents (Elt F) → (⟨S1, .f32⟩ : BufTy).Contents (Elt F)),
    reshape main_v4 main_v5 rfl shapeCasts_S1_S_,
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v1 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v1 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v1 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    binary main_arg0 main_v11 main_v12 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v13 (broadcastInDim S50000x128 ![] bcast_S_S50000x128 : (⟨S_, .f32⟩ : BufTy).Contents (Elt F) → (⟨S50000x128, .f32⟩ : BufTy).Contents (Elt F)),
    unary main_v3 main_v14 (broadcastInDim S800000x1 ![0] bcast_S800000_S800000x1_0 : (⟨S800000, .i32⟩ : BufTy).Contents (Elt F) → (⟨S800000x1, .i32⟩ : BufTy).Contents (Elt F)),
    ternary main_v13 main_v14 main_v12 main_v15 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    binary main_cst_1 main_v5 main_v16 (addf : (⟨S_, .f32⟩ : BufTy).Contents (Elt F) → (⟨S_, .f32⟩ : BufTy).Contents (Elt F) → (⟨S_, .f32⟩ : BufTy).Contents (Elt F)),
    unary main_v16 main_v17 (broadcastInDim S50000x128 ![] bcast_S_S50000x128 : (⟨S_, .f32⟩ : BufTy).Contents (Elt F) → (⟨S50000x128, .f32⟩ : BufTy).Contents (Elt F)),
    binary main_v17 main_arg0 main_v18 (mulf : (⟨S50000x128, .f32⟩ : BufTy).Contents (Elt F) → (⟨S50000x128, .f32⟩ : BufTy).Contents (Elt F) → (⟨S50000x128, .f32⟩ : BufTy).Contents (Elt F)),
    binary main_v18 main_v15 main_v19 (addf : (⟨S50000x128, .f32⟩ : BufTy).Contents (Elt F) → (⟨S50000x128, .f32⟩ : BufTy).Contents (Elt F) → (⟨S50000x128, .f32⟩ : BufTy).Contents (Elt F)),
    binary main_v19 main_arg3 main_v20 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v21 (broadcastInDim S1x256 ![1] bcast_S256_S1x256_1 : (⟨S256, .f32⟩ : BufTy).Contents (Elt F) → (⟨S1x256, .f32⟩ : BufTy).Contents (Elt F)),
    unary main_v21 main_v22 (broadcastInDim S50000x256 ![0, 1] bcast_S1x256_S50000x256_0_1 : (⟨S1x256, .f32⟩ : BufTy).Contents (Elt F) → (⟨S50000x256, .f32⟩ : BufTy).Contents (Elt F)),
    binary main_v20 main_v22 main_v23 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v23) (TRef.of (T := ⟨S50000x256, .f32⟩) main_call0_v0) (TRef.of (T := ⟨S50000x256, .f32⟩) main_v24) maximumf,
    binary main_v24 main_arg5 main_v25 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v26 (broadcastInDim S1x256 ![1] bcast_S256_S1x256_1 : (⟨S256, .f32⟩ : BufTy).Contents (Elt F) → (⟨S1x256, .f32⟩ : BufTy).Contents (Elt F)),
    unary main_v26 main_v27 (broadcastInDim S50000x256 ![0, 1] bcast_S1x256_S50000x256_0_1 : (⟨S1x256, .f32⟩ : BufTy).Contents (Elt F) → (⟨S50000x256, .f32⟩ : BufTy).Contents (Elt F)),
    binary main_v25 main_v27 main_v28 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v28) (TRef.of (T := ⟨S50000x256, .f32⟩) main_call1_v0) (TRef.of (T := ⟨S50000x256, .f32⟩) main_v29) maximumf,
    unary main_arg9 main_v30 (broadcastInDim S1x256 ![1] bcast_S256_S1x256_1 : (⟨S256, .f32⟩ : BufTy).Contents (Elt F) → (⟨S1x256, .f32⟩ : BufTy).Contents (Elt F)),
    unary main_v30 main_v31 (broadcastInDim S50000x256 ![0, 1] bcast_S1x256_S50000x256_0_1 : (⟨S1x256, .f32⟩ : BufTy).Contents (Elt F) → (⟨S50000x256, .f32⟩ : BufTy).Contents (Elt F)),
    binary main_v29 main_v31 main_v32 (subf : (⟨S50000x256, .f32⟩ : BufTy).Contents (Elt F) → (⟨S50000x256, .f32⟩ : BufTy).Contents (Elt F) → (⟨S50000x256, .f32⟩ : BufTy).Contents (Elt F)),
    nullary main_cst_2 (constant S_ .f32 0x3727C5AC#32),
    unary main_cst_2 main_v33 (broadcastInDim S256 ![] bcast_S_S256 : (⟨S_, .f32⟩ : BufTy).Contents (Elt F) → (⟨S256, .f32⟩ : BufTy).Contents (Elt F)),
    binary main_arg10 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v32 main_v37 main_v38 (mulf : (⟨S50000x256, .f32⟩ : BufTy).Contents (Elt F) → (⟨S50000x256, .f32⟩ : BufTy).Contents (Elt F) → (⟨S50000x256, .f32⟩ : BufTy).Contents (Elt F)),
    unary main_arg7 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (mulf : (⟨S50000x256, .f32⟩ : BufTy).Contents (Elt F) → (⟨S50000x256, .f32⟩ : BufTy).Contents (Elt F) → (⟨S50000x256, .f32⟩ : BufTy).Contents (Elt F)),
    unary main_arg8 main_v42 (broadcastInDim S1x256 ![1] bcast_S256_S1x256_1 : (⟨S256, .f32⟩ : BufTy).Contents (Elt F) → (⟨S1x256, .f32⟩ : BufTy).Contents (Elt F)),
    unary main_v42 main_v43 (broadcastInDim S50000x256 ![0, 1] bcast_S1x256_S50000x256_0_1 : (⟨S1x256, .f32⟩ : BufTy).Contents (Elt F) → (⟨S50000x256, .f32⟩ : BufTy).Contents (Elt F)),
    binary main_v41 main_v43 main_v44 (addf : (⟨S50000x256, .f32⟩ : BufTy).Contents (Elt F) → (⟨S50000x256, .f32⟩ : BufTy).Contents (Elt F) → (⟨S50000x256, .f32⟩ : BufTy).Contents (Elt F)) ]

theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

set_option maxHeartbeats 4000000 in
/-- Piece 2 of @main's operations: the second layer. -/
abbrev ops2 : List (HloOp τ sig (Elt F)) :=
  [ unary main_arg19 main_v45 ((extractStridedSlice S1 ![1] · slices_S4_S1_1) : (⟨S4, .f32⟩ : BufTy).Contents (Elt F) → (⟨S1, .f32⟩ : BufTy).Contents (Elt F)),
    reshape main_v45 main_v46 rfl shapeCasts_S1_S_,
    unary main_arg11 main_v47 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v47 main_v48 rfl shapeCasts_S1x256x256_S256x256,
    unary main_arg12 main_v49 ((extractStridedSlice S1x256 ![0, 0] · slices_S3x256_S1x256_0_0) : (⟨S3x256, .f32⟩ : BufTy).Contents (Elt F) → (⟨S1x256, .f32⟩ : BufTy).Contents (Elt F)),
    reshape main_v49 main_v50 rfl shapeCasts_S1x256_S256,
    unary main_arg13 main_v51 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v51 main_v52 rfl shapeCasts_S1x256x256_S256x256,
    unary main_arg14 main_v53 ((extractStridedSlice S1x256 ![0, 0] · slices_S3x256_S1x256_0_0) : (⟨S3x256, .f32⟩ : BufTy).Contents (Elt F) → (⟨S1x256, .f32⟩ : BufTy).Contents (Elt F)),
    reshape main_v53 main_v54 rfl shapeCasts_S1x256_S256,
    unary main_arg15 main_v55 ((extractStridedSlice S1x256 ![0, 0] · slices_S3x256_S1x256_0_0) : (⟨S3x256, .f32⟩ : BufTy).Contents (Elt F) → (⟨S1x256, .f32⟩ : BufTy).Contents (Elt F)),
    reshape main_v55 main_v56 rfl shapeCasts_S1x256_S256,
    unary main_arg16 main_v57 ((extractStridedSlice S1x256 ![0, 0] · slices_S3x256_S1x256_0_0) : (⟨S3x256, .f32⟩ : BufTy).Contents (Elt F) → (⟨S1x256, .f32⟩ : BufTy).Contents (Elt F)),
    reshape main_v57 main_v58 rfl shapeCasts_S1x256_S256,
    unary main_arg17 main_v59 ((extractStridedSlice S1x256 ![0, 0] · slices_S3x256_S1x256_0_0) : (⟨S3x256, .f32⟩ : BufTy).Contents (Elt F) → (⟨S1x256, .f32⟩ : BufTy).Contents (Elt F)),
    reshape main_v59 main_v60 rfl shapeCasts_S1x256_S256,
    unary main_arg18 main_v61 ((extractStridedSlice S1x256 ![0, 0] · slices_S3x256_S1x256_0_0) : (⟨S3x256, .f32⟩ : BufTy).Contents (Elt F) → (⟨S1x256, .f32⟩ : BufTy).Contents (Elt F)),
    reshape main_v61 main_v62 rfl shapeCasts_S1x256_S256,
    nullary main_c_3 (constantI S_ 32 0#32),
    unary main_c_3 main_v63 (broadcastInDim S800000 ![] bcast_S_S800000 : (⟨S_, .i32⟩ : BufTy).Contents (Elt F) → (⟨S800000, .i32⟩ : BufTy).Contents (Elt F)),
    binary main_v1 main_v63 main_v64 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v65 (broadcastInDim S800000 ![] bcast_S_S800000 : (⟨S_, .i32⟩ : BufTy).Contents (Elt F) → (⟨S800000, .i32⟩ : BufTy).Contents (Elt F)),
    binary main_v1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_v1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v44 main_v68 main_v69 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_5 (constant S_ .f32 0x00000000#32),
    unary main_cst_5 main_v70 (broadcastInDim S50000x256 ![] bcast_S_S50000x256 : (⟨S_, .f32⟩ : BufTy).Contents (Elt F) → (⟨S50000x256, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_6 (constant S_ .f32 0x3F800000#32),
    binary main_cst_6 main_v46 main_v73 (addf : (⟨S_, .f32⟩ : BufTy).Contents (Elt F) → (⟨S_, .f32⟩ : BufTy).Contents (Elt F) → (⟨S_, .f32⟩ : BufTy).Contents (Elt F)),
    unary main_v73 main_v74 (broadcastInDim S50000x256 ![] bcast_S_S50000x256 : (⟨S_, .f32⟩ : BufTy).Contents (Elt F) → (⟨S50000x256, .f32⟩ : BufTy).Contents (Elt F)),
    binary main_v74 main_v44 main_v75 (mulf : (⟨S50000x256, .f32⟩ : BufTy).Contents (Elt F) → (⟨S50000x256, .f32⟩ : BufTy).Contents (Elt F) → (⟨S50000x256, .f32⟩ : BufTy).Contents (Elt F)),
    binary main_v75 main_v72 main_v76 (addf : (⟨S50000x256, .f32⟩ : BufTy).Contents (Elt F) → (⟨S50000x256, .f32⟩ : BufTy).Contents (Elt F) → (⟨S50000x256, .f32⟩ : BufTy).Contents (Elt F)),
    binary main_v76 main_v48 main_v77 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v50 main_v78 (broadcastInDim S1x256 ![1] bcast_S256_S1x256_1 : (⟨S256, .f32⟩ : BufTy).Contents (Elt F) → (⟨S1x256, .f32⟩ : BufTy).Contents (Elt F)),
    unary main_v78 main_v79 (broadcastInDim S50000x256 ![0, 1] bcast_S1x256_S50000x256_0_1 : (⟨S1x256, .f32⟩ : BufTy).Contents (Elt F) → (⟨S50000x256, .f32⟩ : BufTy).Contents (Elt F)),
    binary main_v77 main_v79 main_v80 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v80) (TRef.of (T := ⟨S50000x256, .f32⟩) main_call2_v0) (TRef.of (T := ⟨S50000x256, .f32⟩) main_v81) maximumf,
    binary main_v81 main_v52 main_v82 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v54 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v82 main_v84 main_v85 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v85) (TRef.of (T := ⟨S50000x256, .f32⟩) main_call3_v0) (TRef.of (T := ⟨S50000x256, .f32⟩) main_v86) maximumf,
    unary main_v60 main_v87 (broadcastInDim S1x256 ![1] bcast_S256_S1x256_1 : (⟨S256, .f32⟩ : BufTy).Contents (Elt F) → (⟨S1x256, .f32⟩ : BufTy).Contents (Elt F)),
    unary main_v87 main_v88 (broadcastInDim S50000x256 ![0, 1] bcast_S1x256_S50000x256_0_1 : (⟨S1x256, .f32⟩ : BufTy).Contents (Elt F) → (⟨S50000x256, .f32⟩ : BufTy).Contents (Elt F)),
    binary main_v86 main_v88 main_v89 (subf : (⟨S50000x256, .f32⟩ : BufTy).Contents (Elt F) → (⟨S50000x256, .f32⟩ : BufTy).Contents (Elt F) → (⟨S50000x256, .f32⟩ : BufTy).Contents (Elt F)),
    nullary main_cst_7 (constant S_ .f32 0x3727C5AC#32),
    unary main_cst_7 main_v90 (broadcastInDim S256 ![] bcast_S_S256 : (⟨S_, .f32⟩ : BufTy).Contents (Elt F) → (⟨S256, .f32⟩ : BufTy).Contents (Elt F)),
    binary main_v62 main_v90 main_v91 (addf : (⟨S256, .f32⟩ : BufTy).Contents (Elt F) → (⟨S256, .f32⟩ : BufTy).Contents (Elt F) → (⟨S256, .f32⟩ : BufTy).Contents (Elt F)),
    unary main_v91 main_v92 (Host.rsqrt : (⟨S256, .f32⟩ : BufTy).Contents (Elt F) → (⟨S256, .f32⟩ : BufTy).Contents (Elt F)),
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v89 main_v94 main_v95 (mulf : (⟨S50000x256, .f32⟩ : BufTy).Contents (Elt F) → (⟨S50000x256, .f32⟩ : BufTy).Contents (Elt F) → (⟨S50000x256, .f32⟩ : BufTy).Contents (Elt F)),
    unary main_v56 main_v96 (broadcastInDim S1x256 ![1] bcast_S256_S1x256_1 : (⟨S256, .f32⟩ : BufTy).Contents (Elt F) → (⟨S1x256, .f32⟩ : BufTy).Contents (Elt F)),
    unary main_v96 main_v97 (broadcastInDim S50000x256 ![0, 1] bcast_S1x256_S50000x256_0_1 : (⟨S1x256, .f32⟩ : BufTy).Contents (Elt F) → (⟨S50000x256, .f32⟩ : BufTy).Contents (Elt F)),
    binary main_v95 main_v97 main_v98 (mulf : (⟨S50000x256, .f32⟩ : BufTy).Contents (Elt F) → (⟨S50000x256, .f32⟩ : BufTy).Contents (Elt F) → (⟨S50000x256, .f32⟩ : BufTy).Contents (Elt F)),
    unary main_v58 main_v99 (broadcastInDim S1x256 ![1] bcast_S256_S1x256_1 : (⟨S256, .f32⟩ : BufTy).Contents (Elt F) → (⟨S1x256, .f32⟩ : BufTy).Contents (Elt F)),
    unary main_v99 main_v100 (broadcastInDim S50000x256 ![0, 1] bcast_S1x256_S50000x256_0_1 : (⟨S1x256, .f32⟩ : BufTy).Contents (Elt F) → (⟨S50000x256, .f32⟩ : BufTy).Contents (Elt F)),
    binary main_v98 main_v100 main_v101 (addf : (⟨S50000x256, .f32⟩ : BufTy).Contents (Elt F) → (⟨S50000x256, .f32⟩ : BufTy).Contents (Elt F) → (⟨S50000x256, .f32⟩ : BufTy).Contents (Elt F)) ]

theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

set_option maxHeartbeats 4000000 in
/-- Piece 3 of @main's operations: the third layer. -/
abbrev ops3 : List (HloOp τ sig (Elt F)) :=
  [ unary main_arg19 main_v102 ((extractStridedSlice S1 ![2] · slices_S4_S1_2) : (⟨S4, .f32⟩ : BufTy).Contents (Elt F) → (⟨S1, .f32⟩ : BufTy).Contents (Elt F)),
    reshape main_v102 main_v103 rfl shapeCasts_S1_S_,
    unary main_arg11 main_v104 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v104 main_v105 rfl shapeCasts_S1x256x256_S256x256,
    unary main_arg12 main_v106 ((extractStridedSlice S1x256 ![1, 0] · slices_S3x256_S1x256_1_0) : (⟨S3x256, .f32⟩ : BufTy).Contents (Elt F) → (⟨S1x256, .f32⟩ : BufTy).Contents (Elt F)),
    reshape main_v106 main_v107 rfl shapeCasts_S1x256_S256,
    unary main_arg13 main_v108 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v108 main_v109 rfl shapeCasts_S1x256x256_S256x256,
    unary main_arg14 main_v110 ((extractStridedSlice S1x256 ![1, 0] · slices_S3x256_S1x256_1_0) : (⟨S3x256, .f32⟩ : BufTy).Contents (Elt F) → (⟨S1x256, .f32⟩ : BufTy).Contents (Elt F)),
    reshape main_v110 main_v111 rfl shapeCasts_S1x256_S256,
    unary main_arg15 main_v112 ((extractStridedSlice S1x256 ![1, 0] · slices_S3x256_S1x256_1_0) : (⟨S3x256, .f32⟩ : BufTy).Contents (Elt F) → (⟨S1x256, .f32⟩ : BufTy).Contents (Elt F)),
    reshape main_v112 main_v113 rfl shapeCasts_S1x256_S256,
    unary main_arg16 main_v114 ((extractStridedSlice S1x256 ![1, 0] · slices_S3x256_S1x256_1_0) : (⟨S3x256, .f32⟩ : BufTy).Contents (Elt F) → (⟨S1x256, .f32⟩ : BufTy).Contents (Elt F)),
    reshape main_v114 main_v115 rfl shapeCasts_S1x256_S256,
    unary main_arg17 main_v116 ((extractStridedSlice S1x256 ![1, 0] · slices_S3x256_S1x256_1_0) : (⟨S3x256, .f32⟩ : BufTy).Contents (Elt F) → (⟨S1x256, .f32⟩ : BufTy).Contents (Elt F)),
    reshape main_v116 main_v117 rfl shapeCasts_S1x256_S256,
    unary main_arg18 main_v118 ((extractStridedSlice S1x256 ![1, 0] · slices_S3x256_S1x256_1_0) : (⟨S3x256, .f32⟩ : BufTy).Contents (Elt F) → (⟨S1x256, .f32⟩ : BufTy).Contents (Elt F)),
    reshape main_v118 main_v119 rfl shapeCasts_S1x256_S256,
    nullary main_c_8 (constantI S_ 32 0#32),
    unary main_c_8 main_v120 (broadcastInDim S800000 ![] bcast_S_S800000 : (⟨S_, .i32⟩ : BufTy).Contents (Elt F) → (⟨S800000, .i32⟩ : BufTy).Contents (Elt F)),
    binary main_v1 main_v120 main_v121 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v122 (broadcastInDim S800000 ![] bcast_S_S800000 : (⟨S_, .i32⟩ : BufTy).Contents (Elt F) → (⟨S800000, .i32⟩ : BufTy).Contents (Elt F)),
    binary main_v1 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v101 main_v125 main_v126 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v127 (broadcastInDim S50000x256 ![] bcast_S_S50000x256 : (⟨S_, .f32⟩ : BufTy).Contents (Elt F) → (⟨S50000x256, .f32⟩ : BufTy).Contents (Elt F)),
    unary main_v3 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_11 (constant S_ .f32 0x3F800000#32),
    binary main_cst_11 main_v103 main_v130 (addf : (⟨S_, .f32⟩ : BufTy).Contents (Elt F) → (⟨S_, .f32⟩ : BufTy).Contents (Elt F) → (⟨S_, .f32⟩ : BufTy).Contents (Elt F)),
    unary main_v130 main_v131 (broadcastInDim S50000x256 ![] bcast_S_S50000x256 : (⟨S_, .f32⟩ : BufTy).Contents (Elt F) → (⟨S50000x256, .f32⟩ : BufTy).Contents (Elt F)),
    binary main_v131 main_v101 main_v132 (mulf : (⟨S50000x256, .f32⟩ : BufTy).Contents (Elt F) → (⟨S50000x256, .f32⟩ : BufTy).Contents (Elt F) → (⟨S50000x256, .f32⟩ : BufTy).Contents (Elt F)),
    binary main_v132 main_v129 main_v133 (addf : (⟨S50000x256, .f32⟩ : BufTy).Contents (Elt F) → (⟨S50000x256, .f32⟩ : BufTy).Contents (Elt F) → (⟨S50000x256, .f32⟩ : BufTy).Contents (Elt F)),
    binary main_v133 main_v105 main_v134 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v107 main_v135 (broadcastInDim S1x256 ![1] bcast_S256_S1x256_1 : (⟨S256, .f32⟩ : BufTy).Contents (Elt F) → (⟨S1x256, .f32⟩ : BufTy).Contents (Elt F)),
    unary main_v135 main_v136 (broadcastInDim S50000x256 ![0, 1] bcast_S1x256_S50000x256_0_1 : (⟨S1x256, .f32⟩ : BufTy).Contents (Elt F) → (⟨S50000x256, .f32⟩ : BufTy).Contents (Elt F)),
    binary main_v134 main_v136 main_v137 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v137) (TRef.of (T := ⟨S50000x256, .f32⟩) main_call4_v0) (TRef.of (T := ⟨S50000x256, .f32⟩) main_v138) maximumf,
    binary main_v138 main_v109 main_v139 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v111 main_v140 (broadcastInDim S1x256 ![1] bcast_S256_S1x256_1 : (⟨S256, .f32⟩ : BufTy).Contents (Elt F) → (⟨S1x256, .f32⟩ : BufTy).Contents (Elt F)),
    unary main_v140 main_v141 (broadcastInDim S50000x256 ![0, 1] bcast_S1x256_S50000x256_0_1 : (⟨S1x256, .f32⟩ : BufTy).Contents (Elt F) → (⟨S50000x256, .f32⟩ : BufTy).Contents (Elt F)),
    binary main_v139 main_v141 main_v142 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v142) (TRef.of (T := ⟨S50000x256, .f32⟩) main_call5_v0) (TRef.of (T := ⟨S50000x256, .f32⟩) main_v143) maximumf,
    unary main_v117 main_v144 (broadcastInDim S1x256 ![1] bcast_S256_S1x256_1 : (⟨S256, .f32⟩ : BufTy).Contents (Elt F) → (⟨S1x256, .f32⟩ : BufTy).Contents (Elt F)),
    unary main_v144 main_v145 (broadcastInDim S50000x256 ![0, 1] bcast_S1x256_S50000x256_0_1 : (⟨S1x256, .f32⟩ : BufTy).Contents (Elt F) → (⟨S50000x256, .f32⟩ : BufTy).Contents (Elt F)),
    binary main_v143 main_v145 main_v146 (subf : (⟨S50000x256, .f32⟩ : BufTy).Contents (Elt F) → (⟨S50000x256, .f32⟩ : BufTy).Contents (Elt F) → (⟨S50000x256, .f32⟩ : BufTy).Contents (Elt F)),
    nullary main_cst_12 (constant S_ .f32 0x3727C5AC#32),
    unary main_cst_12 main_v147 (broadcastInDim S256 ![] bcast_S_S256 : (⟨S_, .f32⟩ : BufTy).Contents (Elt F) → (⟨S256, .f32⟩ : BufTy).Contents (Elt F)),
    binary main_v119 main_v147 main_v148 (addf : (⟨S256, .f32⟩ : BufTy).Contents (Elt F) → (⟨S256, .f32⟩ : BufTy).Contents (Elt F) → (⟨S256, .f32⟩ : BufTy).Contents (Elt F)),
    unary main_v148 main_v149 (Host.rsqrt : (⟨S256, .f32⟩ : BufTy).Contents (Elt F) → (⟨S256, .f32⟩ : BufTy).Contents (Elt F)),
    unary main_v149 main_v150 (broadcastInDim S1x256 ![1] bcast_S256_S1x256_1 : (⟨S256, .f32⟩ : BufTy).Contents (Elt F) → (⟨S1x256, .f32⟩ : BufTy).Contents (Elt F)),
    unary main_v150 main_v151 (broadcastInDim S50000x256 ![0, 1] bcast_S1x256_S50000x256_0_1 : (⟨S1x256, .f32⟩ : BufTy).Contents (Elt F) → (⟨S50000x256, .f32⟩ : BufTy).Contents (Elt F)),
    binary main_v146 main_v151 main_v152 (mulf : (⟨S50000x256, .f32⟩ : BufTy).Contents (Elt F) → (⟨S50000x256, .f32⟩ : BufTy).Contents (Elt F) → (⟨S50000x256, .f32⟩ : BufTy).Contents (Elt F)),
    unary main_v113 main_v153 (broadcastInDim S1x256 ![1] bcast_S256_S1x256_1 : (⟨S256, .f32⟩ : BufTy).Contents (Elt F) → (⟨S1x256, .f32⟩ : BufTy).Contents (Elt F)),
    unary main_v153 main_v154 (broadcastInDim S50000x256 ![0, 1] bcast_S1x256_S50000x256_0_1 : (⟨S1x256, .f32⟩ : BufTy).Contents (Elt F) → (⟨S50000x256, .f32⟩ : BufTy).Contents (Elt F)),
    binary main_v152 main_v154 main_v155 (mulf : (⟨S50000x256, .f32⟩ : BufTy).Contents (Elt F) → (⟨S50000x256, .f32⟩ : BufTy).Contents (Elt F) → (⟨S50000x256, .f32⟩ : BufTy).Contents (Elt F)),
    unary main_v115 main_v156 (broadcastInDim S1x256 ![1] bcast_S256_S1x256_1 : (⟨S256, .f32⟩ : BufTy).Contents (Elt F) → (⟨S1x256, .f32⟩ : BufTy).Contents (Elt F)),
    unary main_v156 main_v157 (broadcastInDim S50000x256 ![0, 1] bcast_S1x256_S50000x256_0_1 : (⟨S1x256, .f32⟩ : BufTy).Contents (Elt F) → (⟨S50000x256, .f32⟩ : BufTy).Contents (Elt F)),
    binary main_v155 main_v157 main_v158 (addf : (⟨S50000x256, .f32⟩ : BufTy).Contents (Elt F) → (⟨S50000x256, .f32⟩ : BufTy).Contents (Elt F) → (⟨S50000x256, .f32⟩ : BufTy).Contents (Elt F)) ]

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

set_option maxHeartbeats 4000000 in
/-- Piece 4 of @main's operations: the fourth layer. -/
abbrev ops4 : List (HloOp τ sig (Elt F)) :=
  [ unary main_arg19 main_v159 ((extractStridedSlice S1 ![3] · slices_S4_S1_3) : (⟨S4, .f32⟩ : BufTy).Contents (Elt F) → (⟨S1, .f32⟩ : BufTy).Contents (Elt F)),
    reshape main_v159 main_v160 rfl shapeCasts_S1_S_,
    unary main_arg11 main_v161 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v161 main_v162 rfl shapeCasts_S1x256x256_S256x256,
    unary main_arg12 main_v163 ((extractStridedSlice S1x256 ![2, 0] · slices_S3x256_S1x256_2_0) : (⟨S3x256, .f32⟩ : BufTy).Contents (Elt F) → (⟨S1x256, .f32⟩ : BufTy).Contents (Elt F)),
    reshape main_v163 main_v164 rfl shapeCasts_S1x256_S256,
    unary main_arg13 main_v165 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v165 main_v166 rfl shapeCasts_S1x256x256_S256x256,
    unary main_arg14 main_v167 ((extractStridedSlice S1x256 ![2, 0] · slices_S3x256_S1x256_2_0) : (⟨S3x256, .f32⟩ : BufTy).Contents (Elt F) → (⟨S1x256, .f32⟩ : BufTy).Contents (Elt F)),
    reshape main_v167 main_v168 rfl shapeCasts_S1x256_S256,
    unary main_arg15 main_v169 ((extractStridedSlice S1x256 ![2, 0] · slices_S3x256_S1x256_2_0) : (⟨S3x256, .f32⟩ : BufTy).Contents (Elt F) → (⟨S1x256, .f32⟩ : BufTy).Contents (Elt F)),
    reshape main_v169 main_v170 rfl shapeCasts_S1x256_S256,
    unary main_arg16 main_v171 ((extractStridedSlice S1x256 ![2, 0] · slices_S3x256_S1x256_2_0) : (⟨S3x256, .f32⟩ : BufTy).Contents (Elt F) → (⟨S1x256, .f32⟩ : BufTy).Contents (Elt F)),
    reshape main_v171 main_v172 rfl shapeCasts_S1x256_S256,
    unary main_arg17 main_v173 ((extractStridedSlice S1x256 ![2, 0] · slices_S3x256_S1x256_2_0) : (⟨S3x256, .f32⟩ : BufTy).Contents (Elt F) → (⟨S1x256, .f32⟩ : BufTy).Contents (Elt F)),
    reshape main_v173 main_v174 rfl shapeCasts_S1x256_S256,
    unary main_arg18 main_v175 ((extractStridedSlice S1x256 ![2, 0] · slices_S3x256_S1x256_2_0) : (⟨S3x256, .f32⟩ : BufTy).Contents (Elt F) → (⟨S1x256, .f32⟩ : BufTy).Contents (Elt F)),
    reshape main_v175 main_v176 rfl shapeCasts_S1x256_S256,
    nullary main_c_13 (constantI S_ 32 0#32),
    unary main_c_13 main_v177 (broadcastInDim S800000 ![] bcast_S_S800000 : (⟨S_, .i32⟩ : BufTy).Contents (Elt F) → (⟨S800000, .i32⟩ : BufTy).Contents (Elt F)),
    binary main_v1 main_v177 main_v178 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v179 (broadcastInDim S800000 ![] bcast_S_S800000 : (⟨S_, .i32⟩ : BufTy).Contents (Elt F) → (⟨S800000, .i32⟩ : BufTy).Contents (Elt F)),
    binary main_v1 main_v179 main_v180 (addi : (⟨S800000, .i32⟩ : BufTy).Contents (Elt F) → (⟨S800000, .i32⟩ : BufTy).Contents (Elt F) → (⟨S800000, .i32⟩ : BufTy).Contents (Elt F)),
    ternary main_v178 main_v180 main_v1 main_v181 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v181 main_v182 (broadcastInDim S800000x1 ![0] bcast_S800000_S800000x1_0 : (⟨S800000, .i32⟩ : BufTy).Contents (Elt F) → (⟨S800000x1, .i32⟩ : BufTy).Contents (Elt F)),
    binary main_v158 main_v182 main_v183 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_15 (constant S_ .f32 0x00000000#32),
    unary main_cst_15 main_v184 (broadcastInDim S50000x256 ![] bcast_S_S50000x256 : (⟨S_, .f32⟩ : BufTy).Contents (Elt F) → (⟨S50000x256, .f32⟩ : BufTy).Contents (Elt F)),
    unary main_v3 main_v185 (broadcastInDim S800000x1 ![0] bcast_S800000_S800000x1_0 : (⟨S800000, .i32⟩ : BufTy).Contents (Elt F) → (⟨S800000x1, .i32⟩ : BufTy).Contents (Elt F)),
    ternary main_v184 main_v185 main_v183 main_v186 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_16 (constant S_ .f32 0x3F800000#32),
    binary main_cst_16 main_v160 main_v187 (addf : (⟨S_, .f32⟩ : BufTy).Contents (Elt F) → (⟨S_, .f32⟩ : BufTy).Contents (Elt F) → (⟨S_, .f32⟩ : BufTy).Contents (Elt F)),
    unary main_v187 main_v188 (broadcastInDim S50000x256 ![] bcast_S_S50000x256 : (⟨S_, .f32⟩ : BufTy).Contents (Elt F) → (⟨S50000x256, .f32⟩ : BufTy).Contents (Elt F)),
    binary main_v188 main_v158 main_v189 (mulf : (⟨S50000x256, .f32⟩ : BufTy).Contents (Elt F) → (⟨S50000x256, .f32⟩ : BufTy).Contents (Elt F) → (⟨S50000x256, .f32⟩ : BufTy).Contents (Elt F)),
    binary main_v189 main_v186 main_v190 (addf : (⟨S50000x256, .f32⟩ : BufTy).Contents (Elt F) → (⟨S50000x256, .f32⟩ : BufTy).Contents (Elt F) → (⟨S50000x256, .f32⟩ : BufTy).Contents (Elt F)),
    binary main_v190 main_v162 main_v191 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v164 main_v192 (broadcastInDim S1x256 ![1] bcast_S256_S1x256_1 : (⟨S256, .f32⟩ : BufTy).Contents (Elt F) → (⟨S1x256, .f32⟩ : BufTy).Contents (Elt F)),
    unary main_v192 main_v193 (broadcastInDim S50000x256 ![0, 1] bcast_S1x256_S50000x256_0_1 : (⟨S1x256, .f32⟩ : BufTy).Contents (Elt F) → (⟨S50000x256, .f32⟩ : BufTy).Contents (Elt F)),
    binary main_v191 main_v193 main_v194 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v194) (TRef.of (T := ⟨S50000x256, .f32⟩) main_call6_v0) (TRef.of (T := ⟨S50000x256, .f32⟩) main_v195) maximumf,
    binary main_v195 main_v166 main_v196 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v168 main_v197 (broadcastInDim S1x256 ![1] bcast_S256_S1x256_1 : (⟨S256, .f32⟩ : BufTy).Contents (Elt F) → (⟨S1x256, .f32⟩ : BufTy).Contents (Elt F)),
    unary main_v197 main_v198 (broadcastInDim S50000x256 ![0, 1] bcast_S1x256_S50000x256_0_1 : (⟨S1x256, .f32⟩ : BufTy).Contents (Elt F) → (⟨S50000x256, .f32⟩ : BufTy).Contents (Elt F)),
    binary main_v196 main_v198 main_v199 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v199) (TRef.of (T := ⟨S50000x256, .f32⟩) main_call7_v0) (TRef.of (T := ⟨S50000x256, .f32⟩) main_v200) maximumf,
    unary main_v174 main_v201 (broadcastInDim S1x256 ![1] bcast_S256_S1x256_1 : (⟨S256, .f32⟩ : BufTy).Contents (Elt F) → (⟨S1x256, .f32⟩ : BufTy).Contents (Elt F)),
    unary main_v201 main_v202 (broadcastInDim S50000x256 ![0, 1] bcast_S1x256_S50000x256_0_1 : (⟨S1x256, .f32⟩ : BufTy).Contents (Elt F) → (⟨S50000x256, .f32⟩ : BufTy).Contents (Elt F)),
    binary main_v200 main_v202 main_v203 (subf : (⟨S50000x256, .f32⟩ : BufTy).Contents (Elt F) → (⟨S50000x256, .f32⟩ : BufTy).Contents (Elt F) → (⟨S50000x256, .f32⟩ : BufTy).Contents (Elt F)),
    nullary main_cst_17 (constant S_ .f32 0x3727C5AC#32),
    unary main_cst_17 main_v204 (broadcastInDim S256 ![] bcast_S_S256 : (⟨S_, .f32⟩ : BufTy).Contents (Elt F) → (⟨S256, .f32⟩ : BufTy).Contents (Elt F)),
    binary main_v176 main_v204 main_v205 (addf : (⟨S256, .f32⟩ : BufTy).Contents (Elt F) → (⟨S256, .f32⟩ : BufTy).Contents (Elt F) → (⟨S256, .f32⟩ : BufTy).Contents (Elt F)),
    unary main_v205 main_v206 (Host.rsqrt : (⟨S256, .f32⟩ : BufTy).Contents (Elt F) → (⟨S256, .f32⟩ : BufTy).Contents (Elt F)),
    unary main_v206 main_v207 (broadcastInDim S1x256 ![1] bcast_S256_S1x256_1 : (⟨S256, .f32⟩ : BufTy).Contents (Elt F) → (⟨S1x256, .f32⟩ : BufTy).Contents (Elt F)),
    unary main_v207 main_v208 (broadcastInDim S50000x256 ![0, 1] bcast_S1x256_S50000x256_0_1 : (⟨S1x256, .f32⟩ : BufTy).Contents (Elt F) → (⟨S50000x256, .f32⟩ : BufTy).Contents (Elt F)),
    binary main_v203 main_v208 main_v209 (mulf : (⟨S50000x256, .f32⟩ : BufTy).Contents (Elt F) → (⟨S50000x256, .f32⟩ : BufTy).Contents (Elt F) → (⟨S50000x256, .f32⟩ : BufTy).Contents (Elt F)),
    unary main_v170 main_v210 (broadcastInDim S1x256 ![1] bcast_S256_S1x256_1 : (⟨S256, .f32⟩ : BufTy).Contents (Elt F) → (⟨S1x256, .f32⟩ : BufTy).Contents (Elt F)),
    unary main_v210 main_v211 (broadcastInDim S50000x256 ![0, 1] bcast_S1x256_S50000x256_0_1 : (⟨S1x256, .f32⟩ : BufTy).Contents (Elt F) → (⟨S50000x256, .f32⟩ : BufTy).Contents (Elt F)),
    binary main_v209 main_v211 main_v212 (mulf : (⟨S50000x256, .f32⟩ : BufTy).Contents (Elt F) → (⟨S50000x256, .f32⟩ : BufTy).Contents (Elt F) → (⟨S50000x256, .f32⟩ : BufTy).Contents (Elt F)),
    unary main_v172 main_v213 (broadcastInDim S1x256 ![1] bcast_S256_S1x256_1 : (⟨S256, .f32⟩ : BufTy).Contents (Elt F) → (⟨S1x256, .f32⟩ : BufTy).Contents (Elt F)),
    unary main_v213 main_v214 (broadcastInDim S50000x256 ![0, 1] bcast_S1x256_S50000x256_0_1 : (⟨S1x256, .f32⟩ : BufTy).Contents (Elt F) → (⟨S50000x256, .f32⟩ : BufTy).Contents (Elt F)),
    binary main_v212 main_v214 main_v215 (addf : (⟨S50000x256, .f32⟩ : BufTy).Contents (Elt F) → (⟨S50000x256, .f32⟩ : BufTy).Contents (Elt F) → (⟨S50000x256, .f32⟩ : BufTy).Contents (Elt F)) ]

theorem ops4_sub : (ops4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

set_option maxHeartbeats 4000000 in
/-- Piece 5 of @main's operations: mean pooling and the classifier. -/
abbrev ops5 : List (HloOp τ sig (Elt F)) :=
  [ nullary main_cst_18 (constant S_ .f32 0x00000000#32),
    unary main_cst_18 main_v216 (broadcastInDim S256x256 ![] bcast_S_S256x256 : (⟨S_, .f32⟩ : BufTy).Contents (Elt F) → (⟨S256x256, .f32⟩ : BufTy).Contents (Elt F)),
    unary main_arg2 main_v217 (broadcastInDim S50000x1 ![0] bcast_S50000_S50000x1_0 : (⟨S50000, .i32⟩ : BufTy).Contents (Elt F) → (⟨S50000x1, .i32⟩ : BufTy).Contents (Elt F)),
    ternary main_v216 main_v217 main_v215 main_v218 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    nullary main_cst_19 (constant S_ .f32 0x3F800000#32),
    unary main_cst_19 main_v219 (broadcastInDim S50000 ![] bcast_S_S50000 : (⟨S_, .f32⟩ : BufTy).Contents (Elt F) → (⟨S50000, .f32⟩ : BufTy).Contents (Elt F)),
    nullary main_cst_20 (constant S_ .f32 0x00000000#32),
    unary main_cst_20 main_v220 (broadcastInDim S256 ![] bcast_S_S256 : (⟨S_, .f32⟩ : BufTy).Contents (Elt F) → (⟨S256, .f32⟩ : BufTy).Contents (Elt F)),
    unary main_arg2 main_v221 (broadcastInDim S50000x1 ![0] bcast_S50000_S50000x1_0 : (⟨S50000, .i32⟩ : BufTy).Contents (Elt F) → (⟨S50000x1, .i32⟩ : BufTy).Contents (Elt F)),
    ternary main_v220 main_v221 main_v219 main_v222 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_21 (constant S_ .f32 0x3F800000#32),
    unary main_cst_21 main_v223 (broadcastInDim S256 ![] bcast_S_S256 : (⟨S_, .f32⟩ : BufTy).Contents (Elt F) → (⟨S256, .f32⟩ : BufTy).Contents (Elt F)),
    binary main_v222 main_v223 main_v224 (maximumf : (⟨S256, .f32⟩ : BufTy).Contents (Elt F) → (⟨S256, .f32⟩ : BufTy).Contents (Elt F) → (⟨S256, .f32⟩ : BufTy).Contents (Elt F)),
    unary main_v224 main_v225 (broadcastInDim S256x1 ![0] bcast_S256_S256x1_0 : (⟨S256, .f32⟩ : BufTy).Contents (Elt F) → (⟨S256x1, .f32⟩ : BufTy).Contents (Elt F)),
    unary main_v225 main_v226 (broadcastInDim S256x256 ![0, 1] bcast_S256x1_S256x256_0_1 : (⟨S256x1, .f32⟩ : BufTy).Contents (Elt F) → (⟨S256x256, .f32⟩ : BufTy).Contents (Elt F)),
    binary main_v218 main_v226 main_v227 (Host.divf : (⟨S256x256, .f32⟩ : BufTy).Contents (Elt F) → (⟨S256x256, .f32⟩ : BufTy).Contents (Elt F) → (⟨S256x256, .f32⟩ : BufTy).Contents (Elt F)),
    binary main_v227 main_arg20 main_v228 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg21 main_v229 (broadcastInDim S1x256 ![1] bcast_S256_S1x256_1 : (⟨S256, .f32⟩ : BufTy).Contents (Elt F) → (⟨S1x256, .f32⟩ : BufTy).Contents (Elt F)),
    unary main_v229 main_v230 (broadcastInDim S256x256 ![0, 1] bcast_S1x256_S256x256_0_1 : (⟨S1x256, .f32⟩ : BufTy).Contents (Elt F) → (⟨S256x256, .f32⟩ : BufTy).Contents (Elt F)),
    binary main_v228 main_v230 main_v231 (addf : (⟨S256x256, .f32⟩ : BufTy).Contents (Elt F) → (⟨S256x256, .f32⟩ : BufTy).Contents (Elt F) → (⟨S256x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S256x256, .f32⟩) main_call8_v0) (broadcastInDim S256x256 ![] bcast_S_S256x256),
    TRef.binary (TRef.of (T := ⟨S256x256, .f32⟩) main_v231) (TRef.of (T := ⟨S256x256, .f32⟩) main_call8_v0) (TRef.of (T := ⟨S256x256, .f32⟩) main_v232) maximumf,
    binary main_v232 main_arg22 main_v233 ((fun l r => Host.dotGeneral dot_S256x256_S256x10_S256x10_1_0_0_1_n_n none l r) : (⟨S256x256, .f32⟩ : BufTy).Contents (Elt F) → (⟨S256x10, .f32⟩ : BufTy).Contents (Elt F) → (⟨S256x10, .f32⟩ : BufTy).Contents (Elt F)),
    unary main_arg23 main_v234 (broadcastInDim S1x10 ![1] bcast_S10_S1x10_1 : (⟨S10, .f32⟩ : BufTy).Contents (Elt F) → (⟨S1x10, .f32⟩ : BufTy).Contents (Elt F)),
    unary main_v234 main_v235 (broadcastInDim S256x10 ![0, 1] bcast_S1x10_S256x10_0_1 : (⟨S1x10, .f32⟩ : BufTy).Contents (Elt F) → (⟨S256x10, .f32⟩ : BufTy).Contents (Elt F)),
    binary main_v233 main_v235 main_v236 (addf : (⟨S256x10, .f32⟩ : BufTy).Contents (Elt F) → (⟨S256x10, .f32⟩ : BufTy).Contents (Elt F) → (⟨S256x10, .f32⟩ : BufTy).Contents (Elt F)),
    TRef.nullary (TRef.of (T := ⟨S_, .f32⟩) main_call9_cst) (constant S_ .f32 0xFF800000#32),
    TRef.binary (TRef.of (T := ⟨S256x10, .f32⟩) main_v236) (TRef.of (T := ⟨S_, .f32⟩) main_call9_cst) (TRef.of (T := ⟨S256, .f32⟩) main_call9_v0) (fun x v => Host.reduce FloatOps.maximumf x v reducesTo_S256x10_S256_d1 h_S_),
    TRef.nullary (TRef.of (T := ⟨S_, .f32⟩) main_call9_cst_0) (constant S_ .f32 0xFF800000#32),
    TRef.unary (TRef.of (T := ⟨S_, .f32⟩) main_call9_cst_0) (TRef.of (T := ⟨S256, .f32⟩) main_call9_v1) (broadcastInDim S256 ![] bcast_S_S256),
    TRef.binary (TRef.of (T := ⟨S256, .f32⟩) main_call9_v1) (TRef.of (T := ⟨S256, .f32⟩) main_call9_v0) (TRef.of (T := ⟨S256, .f32⟩) main_call9_v2) maximumf,
    TRef.unary (TRef.of (T := ⟨S256, .f32⟩) main_call9_v2) (TRef.of (T := ⟨S256x1, .f32⟩) main_call9_v3) (broadcastInDim S256x1 ![0] bcast_S256_S256x1_0),
    TRef.unary (TRef.of (T := ⟨S256x1, .f32⟩) main_call9_v3) (TRef.of (T := ⟨S256x10, .f32⟩) main_call9_v4) (broadcastInDim S256x10 ![0, 1] bcast_S256x1_S256x10_0_1),
    TRef.binary (TRef.of (T := ⟨S256x10, .f32⟩) main_v236) (TRef.of (T := ⟨S256x10, .f32⟩) main_call9_v4) (TRef.of (T := ⟨S256x10, .f32⟩) main_call9_v5) subf,
    TRef.unary (TRef.of (T := ⟨S256x10, .f32⟩) main_call9_v5) (TRef.of (T := ⟨S256x10, .f32⟩) main_call9_v6) Host.exp,
    TRef.nullary (TRef.of (T := ⟨S_, .f32⟩) main_call9_cst_1) (constant S_ .f32 0x00000000#32),
    TRef.binary (TRef.of (T := ⟨S256x10, .f32⟩) main_call9_v6) (TRef.of (T := ⟨S_, .f32⟩) main_call9_cst_1) (TRef.of (T := ⟨S256, .f32⟩) main_call9_v7) (fun x v => Host.reduceAdd x v reducesTo_S256x10_S256_d1 h_S_),
    TRef.unary (TRef.of (T := ⟨S256, .f32⟩) main_call9_v7) (TRef.of (T := ⟨S256x1, .f32⟩) main_call9_v8) (broadcastInDim S256x1 ![0] bcast_S256_S256x1_0),
    TRef.unary (TRef.of (T := ⟨S256x1, .f32⟩) main_call9_v8) (TRef.of (T := ⟨S256x1, .f32⟩) main_call9_v9) Host.log,
    TRef.unary (TRef.of (T := ⟨S256x1, .f32⟩) main_call9_v9) (TRef.of (T := ⟨S256x10, .f32⟩) main_call9_v10) (broadcastInDim S256x10 ![0, 1] bcast_S256x1_S256x10_0_1),
    TRef.binary (TRef.of (T := ⟨S256x10, .f32⟩) main_call9_v5) (TRef.of (T := ⟨S256x10, .f32⟩) main_call9_v10) (TRef.of (T := ⟨S256x10, .f32⟩) main_v237) subf ]

theorem ops5_sub : (ops5 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

/-- @main's 294 operations, in order. -/
abbrev ops : List (HloOp τ sig (Elt F)) := ops1 ++ (ops2 ++ (ops3 ++ (ops4 ++ ops5)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {a b : List α} (ha : a.Forall p) (hb : b.Forall p) : (a ++ b).Forall p :=
  List.forall_iff_forall_mem.mpr fun x hx => (List.mem_append.mp hx).elim (List.forall_iff_forall_mem.mp ha x) (List.forall_iff_forall_mem.mp hb x)

theorem ops_sub : (ops : List (HloOp τ sig (Elt F))).Forall fun op => op.bufs ⊆ tcRefs τ sig :=
  forall_append ops1_sub (forall_append ops2_sub (forall_append ops3_sub (forall_append ops4_sub ops5_sub)))

theorem ops_fresh : ∀ op ∈ (ops : List (HloOp τ sig (Elt F))), op.fresh = ∅ := fun op h =>
  (List.mem_append.mp h).elim (ops1_fresh op) fun h => (List.mem_append.mp h).elim (ops2_fresh op) fun h =>
    (List.mem_append.mp h).elim (ops3_fresh op) fun h => (List.mem_append.mp h).elim (ops4_fresh op) (ops5_fresh op)

/-- Applying a concatenation of operation lists is applying the first, then the second. -/
theorem after_append (a b : List (HloOp τ sig (Elt F))) (V : Valuation τ sig (Elt F)) : after (a ++ b) V = after b (after a V) := by
  induction a generalizing V with
  | nil => rfl
  | cons op a ih => exact ih _

/-- Every weakly fair execution terminates with every buffer at what the operations leave there. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Ops

/-! ## The contents after each piece, on the extended reals -/

variable (m : (ℓ : Loc nD τ sig) → Buf (Elt Ideal) ℓ) (c : Dev nD)

def Y1 : Valuation τ sig (Elt Ideal) := after ops1 (launchContents m c)
def Y2 : Valuation τ sig (Elt Ideal) := after ops2 (Y1 m c)
def Y3 : Valuation τ sig (Elt Ideal) := after ops3 (Y2 m c)
def Y4 : Valuation τ sig (Elt Ideal) := after ops4 (Y3 m c)
def Y5 : Valuation τ sig (Elt Ideal) := after ops5 (Y4 m c)

theorem after_ops : after ops (launchContents m c) = Y5 m c := by
  show after (ops1 ++ (ops2 ++ (ops3 ++ (ops4 ++ ops5)))) (launchContents m c) = _
  rw [after_append, after_append, after_append, after_append]
  rfl

/-! ### After piece 1 -/
theorem Y1_main_arg0 : Y1 m c (Proc.devRef .tc main_arg0) = m ((c.tc : Thread nD τ).loc main_arg0) := by
  show after ops1 (launchContents m c) (Proc.devRef .tc main_arg0) = _
  after_results_simp <;> rfl
theorem Y1_main_arg1 : Y1 m c (Proc.devRef .tc main_arg1) = m ((c.tc : Thread nD τ).loc main_arg1) := by
  show after ops1 (launchContents m c) (Proc.devRef .tc main_arg1) = _
  after_results_simp <;> rfl
theorem Y1_main_arg2 : Y1 m c (Proc.devRef .tc main_arg2) = m ((c.tc : Thread nD τ).loc main_arg2) := by
  show after ops1 (launchContents m c) (Proc.devRef .tc main_arg2) = _
  after_results_simp <;> rfl
theorem Y1_main_arg3 : Y1 m c (Proc.devRef .tc main_arg3) = m ((c.tc : Thread nD τ).loc main_arg3) := by
  show after ops1 (launchContents m c) (Proc.devRef .tc main_arg3) = _
  after_results_simp <;> rfl
theorem Y1_main_arg4 : Y1 m c (Proc.devRef .tc main_arg4) = m ((c.tc : Thread nD τ).loc main_arg4) := by
  show after ops1 (launchContents m c) (Proc.devRef .tc main_arg4) = _
  after_results_simp <;> rfl
theorem Y1_main_arg5 : Y1 m c (Proc.devRef .tc main_arg5) = m ((c.tc : Thread nD τ).loc main_arg5) := by
  show after ops1 (launchContents m c) (Proc.devRef .tc main_arg5) = _
  after_results_simp <;> rfl
theorem Y1_main_arg6 : Y1 m c (Proc.devRef .tc main_arg6) = m ((c.tc : Thread nD τ).loc main_arg6) := by
  show after ops1 (launchContents m c) (Proc.devRef .tc main_arg6) = _
  after_results_simp <;> rfl
theorem Y1_main_arg7 : Y1 m c (Proc.devRef .tc main_arg7) = m ((c.tc : Thread nD τ).loc main_arg7) := by
  show after ops1 (launchContents m c) (Proc.devRef .tc main_arg7) = _
  after_results_simp <;> rfl
theorem Y1_main_arg8 : Y1 m c (Proc.devRef .tc main_arg8) = m ((c.tc : Thread nD τ).loc main_arg8) := by
  show after ops1 (launchContents m c) (Proc.devRef .tc main_arg8) = _
  after_results_simp <;> rfl
theorem Y1_main_arg9 : Y1 m c (Proc.devRef .tc main_arg9) = m ((c.tc : Thread nD τ).loc main_arg9) := by
  show after ops1 (launchContents m c) (Proc.devRef .tc main_arg9) = _
  after_results_simp <;> rfl
theorem Y1_main_arg10 : Y1 m c (Proc.devRef .tc main_arg10) = m ((c.tc : Thread nD τ).loc main_arg10) := by
  show after ops1 (launchContents m c) (Proc.devRef .tc main_arg10) = _
  after_results_simp <;> rfl
theorem Y1_main_arg11 : Y1 m c (Proc.devRef .tc main_arg11) = m ((c.tc : Thread nD τ).loc main_arg11) := by
  show after ops1 (launchContents m c) (Proc.devRef .tc main_arg11) = _
  after_results_simp <;> rfl
theorem Y1_main_arg12 : Y1 m c (Proc.devRef .tc main_arg12) = m ((c.tc : Thread nD τ).loc main_arg12) := by
  show after ops1 (launchContents m c) (Proc.devRef .tc main_arg12) = _
  after_results_simp <;> rfl
theorem Y1_main_arg13 : Y1 m c (Proc.devRef .tc main_arg13) = m ((c.tc : Thread nD τ).loc main_arg13) := by
  show after ops1 (launchContents m c) (Proc.devRef .tc main_arg13) = _
  after_results_simp <;> rfl
theorem Y1_main_arg14 : Y1 m c (Proc.devRef .tc main_arg14) = m ((c.tc : Thread nD τ).loc main_arg14) := by
  show after ops1 (launchContents m c) (Proc.devRef .tc main_arg14) = _
  after_results_simp <;> rfl
theorem Y1_main_arg15 : Y1 m c (Proc.devRef .tc main_arg15) = m ((c.tc : Thread nD τ).loc main_arg15) := by
  show after ops1 (launchContents m c) (Proc.devRef .tc main_arg15) = _
  after_results_simp <;> rfl
theorem Y1_main_arg16 : Y1 m c (Proc.devRef .tc main_arg16) = m ((c.tc : Thread nD τ).loc main_arg16) := by
  show after ops1 (launchContents m c) (Proc.devRef .tc main_arg16) = _
  after_results_simp <;> rfl
theorem Y1_main_arg17 : Y1 m c (Proc.devRef .tc main_arg17) = m ((c.tc : Thread nD τ).loc main_arg17) := by
  show after ops1 (launchContents m c) (Proc.devRef .tc main_arg17) = _
  after_results_simp <;> rfl
theorem Y1_main_arg18 : Y1 m c (Proc.devRef .tc main_arg18) = m ((c.tc : Thread nD τ).loc main_arg18) := by
  show after ops1 (launchContents m c) (Proc.devRef .tc main_arg18) = _
  after_results_simp <;> rfl
theorem Y1_main_arg19 : Y1 m c (Proc.devRef .tc main_arg19) = m ((c.tc : Thread nD τ).loc main_arg19) := by
  show after ops1 (launchContents m c) (Proc.devRef .tc main_arg19) = _
  after_results_simp <;> rfl
theorem Y1_main_arg20 : Y1 m c (Proc.devRef .tc main_arg20) = m ((c.tc : Thread nD τ).loc main_arg20) := by
  show after ops1 (launchContents m c) (Proc.devRef .tc main_arg20) = _
  after_results_simp <;> rfl
theorem Y1_main_arg21 : Y1 m c (Proc.devRef .tc main_arg21) = m ((c.tc : Thread nD τ).loc main_arg21) := by
  show after ops1 (launchContents m c) (Proc.devRef .tc main_arg21) = _
  after_results_simp <;> rfl
theorem Y1_main_arg22 : Y1 m c (Proc.devRef .tc main_arg22) = m ((c.tc : Thread nD τ).loc main_arg22) := by
  show after ops1 (launchContents m c) (Proc.devRef .tc main_arg22) = _
  after_results_simp <;> rfl
theorem Y1_main_arg23 : Y1 m c (Proc.devRef .tc main_arg23) = m ((c.tc : Thread nD τ).loc main_arg23) := by
  show after ops1 (launchContents m c) (Proc.devRef .tc main_arg23) = _
  after_results_simp <;> rfl
theorem Y1_main_v1 : Y1 m c (Proc.devRef .tc main_v1) = (val_main_v1 (F := Ideal) (m ((c.tc : Thread nD τ).loc main_arg1))) := by
  show after ops1 (launchContents m c) (Proc.devRef .tc main_v1) = _
  after_results_simp <;> rfl
theorem Y1_main_v3 : Y1 m c (Proc.devRef .tc main_v3) = (val_main_v3 (F := Ideal) (m ((c.tc : Thread nD τ).loc main_arg1))) := by
  show after ops1 (launchContents m c) (Proc.devRef .tc main_v3) = _
  after_results_simp <;> rfl
/-- The layer-1 features after piece 1: the stage `val_main_v44` of the launch arguments. -/
theorem Y1_main_v44 : Y1 m c (Proc.devRef .tc main_v44) = (val_main_v44 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19))) := by
  show after ops1 (launchContents m c) (Proc.devRef .tc main_v44) = _
  after_results_simp
  all_goals rfl

/-! ### After piece 2 -/
theorem Y2_main_arg0 : Y2 m c (Proc.devRef .tc main_arg0) = m ((c.tc : Thread nD τ).loc main_arg0) := by
  show after ops2 (Y1 m c) (Proc.devRef .tc main_arg0) = _
  after_results_simp
  exact Y1_main_arg0 m c
theorem Y2_main_arg1 : Y2 m c (Proc.devRef .tc main_arg1) = m ((c.tc : Thread nD τ).loc main_arg1) := by
  show after ops2 (Y1 m c) (Proc.devRef .tc main_arg1) = _
  after_results_simp
  exact Y1_main_arg1 m c
theorem Y2_main_arg2 : Y2 m c (Proc.devRef .tc main_arg2) = m ((c.tc : Thread nD τ).loc main_arg2) := by
  show after ops2 (Y1 m c) (Proc.devRef .tc main_arg2) = _
  after_results_simp
  exact Y1_main_arg2 m c
theorem Y2_main_arg3 : Y2 m c (Proc.devRef .tc main_arg3) = m ((c.tc : Thread nD τ).loc main_arg3) := by
  show after ops2 (Y1 m c) (Proc.devRef .tc main_arg3) = _
  after_results_simp
  exact Y1_main_arg3 m c
theorem Y2_main_arg4 : Y2 m c (Proc.devRef .tc main_arg4) = m ((c.tc : Thread nD τ).loc main_arg4) := by
  show after ops2 (Y1 m c) (Proc.devRef .tc main_arg4) = _
  after_results_simp
  exact Y1_main_arg4 m c
theorem Y2_main_arg5 : Y2 m c (Proc.devRef .tc main_arg5) = m ((c.tc : Thread nD τ).loc main_arg5) := by
  show after ops2 (Y1 m c) (Proc.devRef .tc main_arg5) = _
  after_results_simp
  exact Y1_main_arg5 m c
theorem Y2_main_arg6 : Y2 m c (Proc.devRef .tc main_arg6) = m ((c.tc : Thread nD τ).loc main_arg6) := by
  show after ops2 (Y1 m c) (Proc.devRef .tc main_arg6) = _
  after_results_simp
  exact Y1_main_arg6 m c
theorem Y2_main_arg7 : Y2 m c (Proc.devRef .tc main_arg7) = m ((c.tc : Thread nD τ).loc main_arg7) := by
  show after ops2 (Y1 m c) (Proc.devRef .tc main_arg7) = _
  after_results_simp
  exact Y1_main_arg7 m c
theorem Y2_main_arg8 : Y2 m c (Proc.devRef .tc main_arg8) = m ((c.tc : Thread nD τ).loc main_arg8) := by
  show after ops2 (Y1 m c) (Proc.devRef .tc main_arg8) = _
  after_results_simp
  exact Y1_main_arg8 m c
theorem Y2_main_arg9 : Y2 m c (Proc.devRef .tc main_arg9) = m ((c.tc : Thread nD τ).loc main_arg9) := by
  show after ops2 (Y1 m c) (Proc.devRef .tc main_arg9) = _
  after_results_simp
  exact Y1_main_arg9 m c
theorem Y2_main_arg10 : Y2 m c (Proc.devRef .tc main_arg10) = m ((c.tc : Thread nD τ).loc main_arg10) := by
  show after ops2 (Y1 m c) (Proc.devRef .tc main_arg10) = _
  after_results_simp
  exact Y1_main_arg10 m c
theorem Y2_main_arg11 : Y2 m c (Proc.devRef .tc main_arg11) = m ((c.tc : Thread nD τ).loc main_arg11) := by
  show after ops2 (Y1 m c) (Proc.devRef .tc main_arg11) = _
  after_results_simp
  exact Y1_main_arg11 m c
theorem Y2_main_arg12 : Y2 m c (Proc.devRef .tc main_arg12) = m ((c.tc : Thread nD τ).loc main_arg12) := by
  show after ops2 (Y1 m c) (Proc.devRef .tc main_arg12) = _
  after_results_simp
  exact Y1_main_arg12 m c
theorem Y2_main_arg13 : Y2 m c (Proc.devRef .tc main_arg13) = m ((c.tc : Thread nD τ).loc main_arg13) := by
  show after ops2 (Y1 m c) (Proc.devRef .tc main_arg13) = _
  after_results_simp
  exact Y1_main_arg13 m c
theorem Y2_main_arg14 : Y2 m c (Proc.devRef .tc main_arg14) = m ((c.tc : Thread nD τ).loc main_arg14) := by
  show after ops2 (Y1 m c) (Proc.devRef .tc main_arg14) = _
  after_results_simp
  exact Y1_main_arg14 m c
theorem Y2_main_arg15 : Y2 m c (Proc.devRef .tc main_arg15) = m ((c.tc : Thread nD τ).loc main_arg15) := by
  show after ops2 (Y1 m c) (Proc.devRef .tc main_arg15) = _
  after_results_simp
  exact Y1_main_arg15 m c
theorem Y2_main_arg16 : Y2 m c (Proc.devRef .tc main_arg16) = m ((c.tc : Thread nD τ).loc main_arg16) := by
  show after ops2 (Y1 m c) (Proc.devRef .tc main_arg16) = _
  after_results_simp
  exact Y1_main_arg16 m c
theorem Y2_main_arg17 : Y2 m c (Proc.devRef .tc main_arg17) = m ((c.tc : Thread nD τ).loc main_arg17) := by
  show after ops2 (Y1 m c) (Proc.devRef .tc main_arg17) = _
  after_results_simp
  exact Y1_main_arg17 m c
theorem Y2_main_arg18 : Y2 m c (Proc.devRef .tc main_arg18) = m ((c.tc : Thread nD τ).loc main_arg18) := by
  show after ops2 (Y1 m c) (Proc.devRef .tc main_arg18) = _
  after_results_simp
  exact Y1_main_arg18 m c
theorem Y2_main_arg19 : Y2 m c (Proc.devRef .tc main_arg19) = m ((c.tc : Thread nD τ).loc main_arg19) := by
  show after ops2 (Y1 m c) (Proc.devRef .tc main_arg19) = _
  after_results_simp
  exact Y1_main_arg19 m c
theorem Y2_main_arg20 : Y2 m c (Proc.devRef .tc main_arg20) = m ((c.tc : Thread nD τ).loc main_arg20) := by
  show after ops2 (Y1 m c) (Proc.devRef .tc main_arg20) = _
  after_results_simp
  exact Y1_main_arg20 m c
theorem Y2_main_arg21 : Y2 m c (Proc.devRef .tc main_arg21) = m ((c.tc : Thread nD τ).loc main_arg21) := by
  show after ops2 (Y1 m c) (Proc.devRef .tc main_arg21) = _
  after_results_simp
  exact Y1_main_arg21 m c
theorem Y2_main_arg22 : Y2 m c (Proc.devRef .tc main_arg22) = m ((c.tc : Thread nD τ).loc main_arg22) := by
  show after ops2 (Y1 m c) (Proc.devRef .tc main_arg22) = _
  after_results_simp
  exact Y1_main_arg22 m c
theorem Y2_main_arg23 : Y2 m c (Proc.devRef .tc main_arg23) = m ((c.tc : Thread nD τ).loc main_arg23) := by
  show after ops2 (Y1 m c) (Proc.devRef .tc main_arg23) = _
  after_results_simp
  exact Y1_main_arg23 m c
theorem Y2_main_v1 : Y2 m c (Proc.devRef .tc main_v1) = (val_main_v1 (F := Ideal) (m ((c.tc : Thread nD τ).loc main_arg1))) := by
  show after ops2 (Y1 m c) (Proc.devRef .tc main_v1) = _
  after_results_simp
  exact Y1_main_v1 m c
theorem Y2_main_v3 : Y2 m c (Proc.devRef .tc main_v3) = (val_main_v3 (F := Ideal) (m ((c.tc : Thread nD τ).loc main_arg1))) := by
  show after ops2 (Y1 m c) (Proc.devRef .tc main_v3) = _
  after_results_simp
  exact Y1_main_v3 m c
/-- The layer-2 features after piece 2: the stage `val_main_v101` of the launch arguments. -/
theorem Y2_main_v101 : Y2 m c (Proc.devRef .tc main_v101) = (val_main_v101 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) := by
  show after ops2 (Y1 m c) (Proc.devRef .tc main_v101) = _
  after_results_simp
  simp only [Y1_main_arg0 m c, Y1_main_arg1 m c, Y1_main_arg2 m c, Y1_main_arg3 m c, Y1_main_arg4 m c, Y1_main_arg5 m c, Y1_main_arg6 m c, Y1_main_arg7 m c, Y1_main_arg8 m c, Y1_main_arg9 m c, Y1_main_arg10 m c, Y1_main_arg11 m c, Y1_main_arg12 m c, Y1_main_arg13 m c, Y1_main_arg14 m c, Y1_main_arg15 m c, Y1_main_arg16 m c, Y1_main_arg17 m c, Y1_main_arg18 m c, Y1_main_arg19 m c, Y1_main_arg20 m c, Y1_main_arg21 m c, Y1_main_arg22 m c, Y1_main_arg23 m c, Y1_main_v1 m c, Y1_main_v3 m c, Y1_main_v44 m c]
  all_goals rfl

/-! ### After piece 3 -/
theorem Y3_main_arg0 : Y3 m c (Proc.devRef .tc main_arg0) = m ((c.tc : Thread nD τ).loc main_arg0) := by
  show after ops3 (Y2 m c) (Proc.devRef .tc main_arg0) = _
  after_results_simp
  exact Y2_main_arg0 m c
theorem Y3_main_arg1 : Y3 m c (Proc.devRef .tc main_arg1) = m ((c.tc : Thread nD τ).loc main_arg1) := by
  show after ops3 (Y2 m c) (Proc.devRef .tc main_arg1) = _
  after_results_simp
  exact Y2_main_arg1 m c
theorem Y3_main_arg2 : Y3 m c (Proc.devRef .tc main_arg2) = m ((c.tc : Thread nD τ).loc main_arg2) := by
  show after ops3 (Y2 m c) (Proc.devRef .tc main_arg2) = _
  after_results_simp
  exact Y2_main_arg2 m c
theorem Y3_main_arg3 : Y3 m c (Proc.devRef .tc main_arg3) = m ((c.tc : Thread nD τ).loc main_arg3) := by
  show after ops3 (Y2 m c) (Proc.devRef .tc main_arg3) = _
  after_results_simp
  exact Y2_main_arg3 m c
theorem Y3_main_arg4 : Y3 m c (Proc.devRef .tc main_arg4) = m ((c.tc : Thread nD τ).loc main_arg4) := by
  show after ops3 (Y2 m c) (Proc.devRef .tc main_arg4) = _
  after_results_simp
  exact Y2_main_arg4 m c
theorem Y3_main_arg5 : Y3 m c (Proc.devRef .tc main_arg5) = m ((c.tc : Thread nD τ).loc main_arg5) := by
  show after ops3 (Y2 m c) (Proc.devRef .tc main_arg5) = _
  after_results_simp
  exact Y2_main_arg5 m c
theorem Y3_main_arg6 : Y3 m c (Proc.devRef .tc main_arg6) = m ((c.tc : Thread nD τ).loc main_arg6) := by
  show after ops3 (Y2 m c) (Proc.devRef .tc main_arg6) = _
  after_results_simp
  exact Y2_main_arg6 m c
theorem Y3_main_arg7 : Y3 m c (Proc.devRef .tc main_arg7) = m ((c.tc : Thread nD τ).loc main_arg7) := by
  show after ops3 (Y2 m c) (Proc.devRef .tc main_arg7) = _
  after_results_simp
  exact Y2_main_arg7 m c
theorem Y3_main_arg8 : Y3 m c (Proc.devRef .tc main_arg8) = m ((c.tc : Thread nD τ).loc main_arg8) := by
  show after ops3 (Y2 m c) (Proc.devRef .tc main_arg8) = _
  after_results_simp
  exact Y2_main_arg8 m c
theorem Y3_main_arg9 : Y3 m c (Proc.devRef .tc main_arg9) = m ((c.tc : Thread nD τ).loc main_arg9) := by
  show after ops3 (Y2 m c) (Proc.devRef .tc main_arg9) = _
  after_results_simp
  exact Y2_main_arg9 m c
theorem Y3_main_arg10 : Y3 m c (Proc.devRef .tc main_arg10) = m ((c.tc : Thread nD τ).loc main_arg10) := by
  show after ops3 (Y2 m c) (Proc.devRef .tc main_arg10) = _
  after_results_simp
  exact Y2_main_arg10 m c
theorem Y3_main_arg11 : Y3 m c (Proc.devRef .tc main_arg11) = m ((c.tc : Thread nD τ).loc main_arg11) := by
  show after ops3 (Y2 m c) (Proc.devRef .tc main_arg11) = _
  after_results_simp
  exact Y2_main_arg11 m c
theorem Y3_main_arg12 : Y3 m c (Proc.devRef .tc main_arg12) = m ((c.tc : Thread nD τ).loc main_arg12) := by
  show after ops3 (Y2 m c) (Proc.devRef .tc main_arg12) = _
  after_results_simp
  exact Y2_main_arg12 m c
theorem Y3_main_arg13 : Y3 m c (Proc.devRef .tc main_arg13) = m ((c.tc : Thread nD τ).loc main_arg13) := by
  show after ops3 (Y2 m c) (Proc.devRef .tc main_arg13) = _
  after_results_simp
  exact Y2_main_arg13 m c
theorem Y3_main_arg14 : Y3 m c (Proc.devRef .tc main_arg14) = m ((c.tc : Thread nD τ).loc main_arg14) := by
  show after ops3 (Y2 m c) (Proc.devRef .tc main_arg14) = _
  after_results_simp
  exact Y2_main_arg14 m c
theorem Y3_main_arg15 : Y3 m c (Proc.devRef .tc main_arg15) = m ((c.tc : Thread nD τ).loc main_arg15) := by
  show after ops3 (Y2 m c) (Proc.devRef .tc main_arg15) = _
  after_results_simp
  exact Y2_main_arg15 m c
theorem Y3_main_arg16 : Y3 m c (Proc.devRef .tc main_arg16) = m ((c.tc : Thread nD τ).loc main_arg16) := by
  show after ops3 (Y2 m c) (Proc.devRef .tc main_arg16) = _
  after_results_simp
  exact Y2_main_arg16 m c
theorem Y3_main_arg17 : Y3 m c (Proc.devRef .tc main_arg17) = m ((c.tc : Thread nD τ).loc main_arg17) := by
  show after ops3 (Y2 m c) (Proc.devRef .tc main_arg17) = _
  after_results_simp
  exact Y2_main_arg17 m c
theorem Y3_main_arg18 : Y3 m c (Proc.devRef .tc main_arg18) = m ((c.tc : Thread nD τ).loc main_arg18) := by
  show after ops3 (Y2 m c) (Proc.devRef .tc main_arg18) = _
  after_results_simp
  exact Y2_main_arg18 m c
theorem Y3_main_arg19 : Y3 m c (Proc.devRef .tc main_arg19) = m ((c.tc : Thread nD τ).loc main_arg19) := by
  show after ops3 (Y2 m c) (Proc.devRef .tc main_arg19) = _
  after_results_simp
  exact Y2_main_arg19 m c
theorem Y3_main_arg20 : Y3 m c (Proc.devRef .tc main_arg20) = m ((c.tc : Thread nD τ).loc main_arg20) := by
  show after ops3 (Y2 m c) (Proc.devRef .tc main_arg20) = _
  after_results_simp
  exact Y2_main_arg20 m c
theorem Y3_main_arg21 : Y3 m c (Proc.devRef .tc main_arg21) = m ((c.tc : Thread nD τ).loc main_arg21) := by
  show after ops3 (Y2 m c) (Proc.devRef .tc main_arg21) = _
  after_results_simp
  exact Y2_main_arg21 m c
theorem Y3_main_arg22 : Y3 m c (Proc.devRef .tc main_arg22) = m ((c.tc : Thread nD τ).loc main_arg22) := by
  show after ops3 (Y2 m c) (Proc.devRef .tc main_arg22) = _
  after_results_simp
  exact Y2_main_arg22 m c
theorem Y3_main_arg23 : Y3 m c (Proc.devRef .tc main_arg23) = m ((c.tc : Thread nD τ).loc main_arg23) := by
  show after ops3 (Y2 m c) (Proc.devRef .tc main_arg23) = _
  after_results_simp
  exact Y2_main_arg23 m c
theorem Y3_main_v1 : Y3 m c (Proc.devRef .tc main_v1) = (val_main_v1 (F := Ideal) (m ((c.tc : Thread nD τ).loc main_arg1))) := by
  show after ops3 (Y2 m c) (Proc.devRef .tc main_v1) = _
  after_results_simp
  exact Y2_main_v1 m c
theorem Y3_main_v3 : Y3 m c (Proc.devRef .tc main_v3) = (val_main_v3 (F := Ideal) (m ((c.tc : Thread nD τ).loc main_arg1))) := by
  show after ops3 (Y2 m c) (Proc.devRef .tc main_v3) = _
  after_results_simp
  exact Y2_main_v3 m c
/-- The layer-3 features after piece 3: the stage `val_main_v158` of the launch arguments. -/
theorem Y3_main_v158 : Y3 m c (Proc.devRef .tc main_v158) = (val_main_v158 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) := by
  show after ops3 (Y2 m c) (Proc.devRef .tc main_v158) = _
  after_results_simp
  simp only [Y2_main_arg0 m c, Y2_main_arg1 m c, Y2_main_arg2 m c, Y2_main_arg3 m c, Y2_main_arg4 m c, Y2_main_arg5 m c, Y2_main_arg6 m c, Y2_main_arg7 m c, Y2_main_arg8 m c, Y2_main_arg9 m c, Y2_main_arg10 m c, Y2_main_arg11 m c, Y2_main_arg12 m c, Y2_main_arg13 m c, Y2_main_arg14 m c, Y2_main_arg15 m c, Y2_main_arg16 m c, Y2_main_arg17 m c, Y2_main_arg18 m c, Y2_main_arg19 m c, Y2_main_arg20 m c, Y2_main_arg21 m c, Y2_main_arg22 m c, Y2_main_arg23 m c, Y2_main_v1 m c, Y2_main_v3 m c, Y2_main_v101 m c]
  all_goals rfl

/-! ### After piece 4 -/
theorem Y4_main_arg0 : Y4 m c (Proc.devRef .tc main_arg0) = m ((c.tc : Thread nD τ).loc main_arg0) := by
  show after ops4 (Y3 m c) (Proc.devRef .tc main_arg0) = _
  after_results_simp
  exact Y3_main_arg0 m c
theorem Y4_main_arg1 : Y4 m c (Proc.devRef .tc main_arg1) = m ((c.tc : Thread nD τ).loc main_arg1) := by
  show after ops4 (Y3 m c) (Proc.devRef .tc main_arg1) = _
  after_results_simp
  exact Y3_main_arg1 m c
theorem Y4_main_arg2 : Y4 m c (Proc.devRef .tc main_arg2) = m ((c.tc : Thread nD τ).loc main_arg2) := by
  show after ops4 (Y3 m c) (Proc.devRef .tc main_arg2) = _
  after_results_simp
  exact Y3_main_arg2 m c
theorem Y4_main_arg3 : Y4 m c (Proc.devRef .tc main_arg3) = m ((c.tc : Thread nD τ).loc main_arg3) := by
  show after ops4 (Y3 m c) (Proc.devRef .tc main_arg3) = _
  after_results_simp
  exact Y3_main_arg3 m c
theorem Y4_main_arg4 : Y4 m c (Proc.devRef .tc main_arg4) = m ((c.tc : Thread nD τ).loc main_arg4) := by
  show after ops4 (Y3 m c) (Proc.devRef .tc main_arg4) = _
  after_results_simp
  exact Y3_main_arg4 m c
theorem Y4_main_arg5 : Y4 m c (Proc.devRef .tc main_arg5) = m ((c.tc : Thread nD τ).loc main_arg5) := by
  show after ops4 (Y3 m c) (Proc.devRef .tc main_arg5) = _
  after_results_simp
  exact Y3_main_arg5 m c
theorem Y4_main_arg6 : Y4 m c (Proc.devRef .tc main_arg6) = m ((c.tc : Thread nD τ).loc main_arg6) := by
  show after ops4 (Y3 m c) (Proc.devRef .tc main_arg6) = _
  after_results_simp
  exact Y3_main_arg6 m c
theorem Y4_main_arg7 : Y4 m c (Proc.devRef .tc main_arg7) = m ((c.tc : Thread nD τ).loc main_arg7) := by
  show after ops4 (Y3 m c) (Proc.devRef .tc main_arg7) = _
  after_results_simp
  exact Y3_main_arg7 m c
theorem Y4_main_arg8 : Y4 m c (Proc.devRef .tc main_arg8) = m ((c.tc : Thread nD τ).loc main_arg8) := by
  show after ops4 (Y3 m c) (Proc.devRef .tc main_arg8) = _
  after_results_simp
  exact Y3_main_arg8 m c
theorem Y4_main_arg9 : Y4 m c (Proc.devRef .tc main_arg9) = m ((c.tc : Thread nD τ).loc main_arg9) := by
  show after ops4 (Y3 m c) (Proc.devRef .tc main_arg9) = _
  after_results_simp
  exact Y3_main_arg9 m c
theorem Y4_main_arg10 : Y4 m c (Proc.devRef .tc main_arg10) = m ((c.tc : Thread nD τ).loc main_arg10) := by
  show after ops4 (Y3 m c) (Proc.devRef .tc main_arg10) = _
  after_results_simp
  exact Y3_main_arg10 m c
theorem Y4_main_arg11 : Y4 m c (Proc.devRef .tc main_arg11) = m ((c.tc : Thread nD τ).loc main_arg11) := by
  show after ops4 (Y3 m c) (Proc.devRef .tc main_arg11) = _
  after_results_simp
  exact Y3_main_arg11 m c
theorem Y4_main_arg12 : Y4 m c (Proc.devRef .tc main_arg12) = m ((c.tc : Thread nD τ).loc main_arg12) := by
  show after ops4 (Y3 m c) (Proc.devRef .tc main_arg12) = _
  after_results_simp
  exact Y3_main_arg12 m c
theorem Y4_main_arg13 : Y4 m c (Proc.devRef .tc main_arg13) = m ((c.tc : Thread nD τ).loc main_arg13) := by
  show after ops4 (Y3 m c) (Proc.devRef .tc main_arg13) = _
  after_results_simp
  exact Y3_main_arg13 m c
theorem Y4_main_arg14 : Y4 m c (Proc.devRef .tc main_arg14) = m ((c.tc : Thread nD τ).loc main_arg14) := by
  show after ops4 (Y3 m c) (Proc.devRef .tc main_arg14) = _
  after_results_simp
  exact Y3_main_arg14 m c
theorem Y4_main_arg15 : Y4 m c (Proc.devRef .tc main_arg15) = m ((c.tc : Thread nD τ).loc main_arg15) := by
  show after ops4 (Y3 m c) (Proc.devRef .tc main_arg15) = _
  after_results_simp
  exact Y3_main_arg15 m c
theorem Y4_main_arg16 : Y4 m c (Proc.devRef .tc main_arg16) = m ((c.tc : Thread nD τ).loc main_arg16) := by
  show after ops4 (Y3 m c) (Proc.devRef .tc main_arg16) = _
  after_results_simp
  exact Y3_main_arg16 m c
theorem Y4_main_arg17 : Y4 m c (Proc.devRef .tc main_arg17) = m ((c.tc : Thread nD τ).loc main_arg17) := by
  show after ops4 (Y3 m c) (Proc.devRef .tc main_arg17) = _
  after_results_simp
  exact Y3_main_arg17 m c
theorem Y4_main_arg18 : Y4 m c (Proc.devRef .tc main_arg18) = m ((c.tc : Thread nD τ).loc main_arg18) := by
  show after ops4 (Y3 m c) (Proc.devRef .tc main_arg18) = _
  after_results_simp
  exact Y3_main_arg18 m c
theorem Y4_main_arg19 : Y4 m c (Proc.devRef .tc main_arg19) = m ((c.tc : Thread nD τ).loc main_arg19) := by
  show after ops4 (Y3 m c) (Proc.devRef .tc main_arg19) = _
  after_results_simp
  exact Y3_main_arg19 m c
theorem Y4_main_arg20 : Y4 m c (Proc.devRef .tc main_arg20) = m ((c.tc : Thread nD τ).loc main_arg20) := by
  show after ops4 (Y3 m c) (Proc.devRef .tc main_arg20) = _
  after_results_simp
  exact Y3_main_arg20 m c
theorem Y4_main_arg21 : Y4 m c (Proc.devRef .tc main_arg21) = m ((c.tc : Thread nD τ).loc main_arg21) := by
  show after ops4 (Y3 m c) (Proc.devRef .tc main_arg21) = _
  after_results_simp
  exact Y3_main_arg21 m c
theorem Y4_main_arg22 : Y4 m c (Proc.devRef .tc main_arg22) = m ((c.tc : Thread nD τ).loc main_arg22) := by
  show after ops4 (Y3 m c) (Proc.devRef .tc main_arg22) = _
  after_results_simp
  exact Y3_main_arg22 m c
theorem Y4_main_arg23 : Y4 m c (Proc.devRef .tc main_arg23) = m ((c.tc : Thread nD τ).loc main_arg23) := by
  show after ops4 (Y3 m c) (Proc.devRef .tc main_arg23) = _
  after_results_simp
  exact Y3_main_arg23 m c
/-- The layer-4 features after piece 4: the stage `val_main_v215` of the launch arguments. -/
theorem Y4_main_v215 : Y4 m c (Proc.devRef .tc main_v215) = (val_main_v215 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) := by
  show after ops4 (Y3 m c) (Proc.devRef .tc main_v215) = _
  after_results_simp
  simp only [Y3_main_arg0 m c, Y3_main_arg1 m c, Y3_main_arg2 m c, Y3_main_arg3 m c, Y3_main_arg4 m c, Y3_main_arg5 m c, Y3_main_arg6 m c, Y3_main_arg7 m c, Y3_main_arg8 m c, Y3_main_arg9 m c, Y3_main_arg10 m c, Y3_main_arg11 m c, Y3_main_arg12 m c, Y3_main_arg13 m c, Y3_main_arg14 m c, Y3_main_arg15 m c, Y3_main_arg16 m c, Y3_main_arg17 m c, Y3_main_arg18 m c, Y3_main_arg19 m c, Y3_main_arg20 m c, Y3_main_arg21 m c, Y3_main_arg22 m c, Y3_main_arg23 m c, Y3_main_v1 m c, Y3_main_v3 m c, Y3_main_v158 m c]
  all_goals rfl

/-! ### After piece 5 -/
theorem Y5_main_arg0 : Y5 m c (Proc.devRef .tc main_arg0) = m ((c.tc : Thread nD τ).loc main_arg0) := by
  show after ops5 (Y4 m c) (Proc.devRef .tc main_arg0) = _
  after_results_simp
  exact Y4_main_arg0 m c
theorem Y5_main_arg1 : Y5 m c (Proc.devRef .tc main_arg1) = m ((c.tc : Thread nD τ).loc main_arg1) := by
  show after ops5 (Y4 m c) (Proc.devRef .tc main_arg1) = _
  after_results_simp
  exact Y4_main_arg1 m c
theorem Y5_main_arg2 : Y5 m c (Proc.devRef .tc main_arg2) = m ((c.tc : Thread nD τ).loc main_arg2) := by
  show after ops5 (Y4 m c) (Proc.devRef .tc main_arg2) = _
  after_results_simp
  exact Y4_main_arg2 m c
theorem Y5_main_arg3 : Y5 m c (Proc.devRef .tc main_arg3) = m ((c.tc : Thread nD τ).loc main_arg3) := by
  show after ops5 (Y4 m c) (Proc.devRef .tc main_arg3) = _
  after_results_simp
  exact Y4_main_arg3 m c
theorem Y5_main_arg4 : Y5 m c (Proc.devRef .tc main_arg4) = m ((c.tc : Thread nD τ).loc main_arg4) := by
  show after ops5 (Y4 m c) (Proc.devRef .tc main_arg4) = _
  after_results_simp
  exact Y4_main_arg4 m c
theorem Y5_main_arg5 : Y5 m c (Proc.devRef .tc main_arg5) = m ((c.tc : Thread nD τ).loc main_arg5) := by
  show after ops5 (Y4 m c) (Proc.devRef .tc main_arg5) = _
  after_results_simp
  exact Y4_main_arg5 m c
theorem Y5_main_arg6 : Y5 m c (Proc.devRef .tc main_arg6) = m ((c.tc : Thread nD τ).loc main_arg6) := by
  show after ops5 (Y4 m c) (Proc.devRef .tc main_arg6) = _
  after_results_simp
  exact Y4_main_arg6 m c
theorem Y5_main_arg7 : Y5 m c (Proc.devRef .tc main_arg7) = m ((c.tc : Thread nD τ).loc main_arg7) := by
  show after ops5 (Y4 m c) (Proc.devRef .tc main_arg7) = _
  after_results_simp
  exact Y4_main_arg7 m c
theorem Y5_main_arg8 : Y5 m c (Proc.devRef .tc main_arg8) = m ((c.tc : Thread nD τ).loc main_arg8) := by
  show after ops5 (Y4 m c) (Proc.devRef .tc main_arg8) = _
  after_results_simp
  exact Y4_main_arg8 m c
theorem Y5_main_arg9 : Y5 m c (Proc.devRef .tc main_arg9) = m ((c.tc : Thread nD τ).loc main_arg9) := by
  show after ops5 (Y4 m c) (Proc.devRef .tc main_arg9) = _
  after_results_simp
  exact Y4_main_arg9 m c
theorem Y5_main_arg10 : Y5 m c (Proc.devRef .tc main_arg10) = m ((c.tc : Thread nD τ).loc main_arg10) := by
  show after ops5 (Y4 m c) (Proc.devRef .tc main_arg10) = _
  after_results_simp
  exact Y4_main_arg10 m c
theorem Y5_main_arg11 : Y5 m c (Proc.devRef .tc main_arg11) = m ((c.tc : Thread nD τ).loc main_arg11) := by
  show after ops5 (Y4 m c) (Proc.devRef .tc main_arg11) = _
  after_results_simp
  exact Y4_main_arg11 m c
theorem Y5_main_arg12 : Y5 m c (Proc.devRef .tc main_arg12) = m ((c.tc : Thread nD τ).loc main_arg12) := by
  show after ops5 (Y4 m c) (Proc.devRef .tc main_arg12) = _
  after_results_simp
  exact Y4_main_arg12 m c
theorem Y5_main_arg13 : Y5 m c (Proc.devRef .tc main_arg13) = m ((c.tc : Thread nD τ).loc main_arg13) := by
  show after ops5 (Y4 m c) (Proc.devRef .tc main_arg13) = _
  after_results_simp
  exact Y4_main_arg13 m c
theorem Y5_main_arg14 : Y5 m c (Proc.devRef .tc main_arg14) = m ((c.tc : Thread nD τ).loc main_arg14) := by
  show after ops5 (Y4 m c) (Proc.devRef .tc main_arg14) = _
  after_results_simp
  exact Y4_main_arg14 m c
theorem Y5_main_arg15 : Y5 m c (Proc.devRef .tc main_arg15) = m ((c.tc : Thread nD τ).loc main_arg15) := by
  show after ops5 (Y4 m c) (Proc.devRef .tc main_arg15) = _
  after_results_simp
  exact Y4_main_arg15 m c
theorem Y5_main_arg16 : Y5 m c (Proc.devRef .tc main_arg16) = m ((c.tc : Thread nD τ).loc main_arg16) := by
  show after ops5 (Y4 m c) (Proc.devRef .tc main_arg16) = _
  after_results_simp
  exact Y4_main_arg16 m c
theorem Y5_main_arg17 : Y5 m c (Proc.devRef .tc main_arg17) = m ((c.tc : Thread nD τ).loc main_arg17) := by
  show after ops5 (Y4 m c) (Proc.devRef .tc main_arg17) = _
  after_results_simp
  exact Y4_main_arg17 m c
theorem Y5_main_arg18 : Y5 m c (Proc.devRef .tc main_arg18) = m ((c.tc : Thread nD τ).loc main_arg18) := by
  show after ops5 (Y4 m c) (Proc.devRef .tc main_arg18) = _
  after_results_simp
  exact Y4_main_arg18 m c
theorem Y5_main_arg19 : Y5 m c (Proc.devRef .tc main_arg19) = m ((c.tc : Thread nD τ).loc main_arg19) := by
  show after ops5 (Y4 m c) (Proc.devRef .tc main_arg19) = _
  after_results_simp
  exact Y4_main_arg19 m c
theorem Y5_main_arg20 : Y5 m c (Proc.devRef .tc main_arg20) = m ((c.tc : Thread nD τ).loc main_arg20) := by
  show after ops5 (Y4 m c) (Proc.devRef .tc main_arg20) = _
  after_results_simp
  exact Y4_main_arg20 m c
theorem Y5_main_arg21 : Y5 m c (Proc.devRef .tc main_arg21) = m ((c.tc : Thread nD τ).loc main_arg21) := by
  show after ops5 (Y4 m c) (Proc.devRef .tc main_arg21) = _
  after_results_simp
  exact Y4_main_arg21 m c
theorem Y5_main_arg22 : Y5 m c (Proc.devRef .tc main_arg22) = m ((c.tc : Thread nD τ).loc main_arg22) := by
  show after ops5 (Y4 m c) (Proc.devRef .tc main_arg22) = _
  after_results_simp
  exact Y4_main_arg22 m c
theorem Y5_main_arg23 : Y5 m c (Proc.devRef .tc main_arg23) = m ((c.tc : Thread nD τ).loc main_arg23) := by
  show after ops5 (Y4 m c) (Proc.devRef .tc main_arg23) = _
  after_results_simp
  exact Y4_main_arg23 m c
/-- The result after piece 5: the stage `val_main_v237` of the launch arguments. -/
theorem Y5_main_v237 : Y5 m c (Proc.devRef .tc main_v237) = (val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) := by
  show after ops5 (Y4 m c) (Proc.devRef .tc main_v237) = _
  after_results_simp
  simp only [Y4_main_arg0 m c, Y4_main_arg1 m c, Y4_main_arg2 m c, Y4_main_arg3 m c, Y4_main_arg4 m c, Y4_main_arg5 m c, Y4_main_arg6 m c, Y4_main_arg7 m c, Y4_main_arg8 m c, Y4_main_arg9 m c, Y4_main_arg10 m c, Y4_main_arg11 m c, Y4_main_arg12 m c, Y4_main_arg13 m c, Y4_main_arg14 m c, Y4_main_arg15 m c, Y4_main_arg16 m c, Y4_main_arg17 m c, Y4_main_arg18 m c, Y4_main_arg19 m c, Y4_main_arg20 m c, Y4_main_arg21 m c, Y4_main_arg22 m c, Y4_main_arg23 m c, Y4_main_v215 m c]
  all_goals rfl

/-! ## The run -/

/-- Every weakly fair execution of the reference terminates with its result at the last stage of the launch arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v237) = (val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨(h c main_v237).trans ((congrFun (after_ops m c) _).trans (Y5_main_v237 m c)),
      (h c main_arg0).trans ((congrFun (after_ops m c) _).trans (Y5_main_arg0 m c)),
      (h c main_arg1).trans ((congrFun (after_ops m c) _).trans (Y5_main_arg1 m c)),
      (h c main_arg2).trans ((congrFun (after_ops m c) _).trans (Y5_main_arg2 m c)),
      (h c main_arg3).trans ((congrFun (after_ops m c) _).trans (Y5_main_arg3 m c)),
      (h c main_arg4).trans ((congrFun (after_ops m c) _).trans (Y5_main_arg4 m c)),
      (h c main_arg5).trans ((congrFun (after_ops m c) _).trans (Y5_main_arg5 m c)),
      (h c main_arg6).trans ((congrFun (after_ops m c) _).trans (Y5_main_arg6 m c)),
      (h c main_arg7).trans ((congrFun (after_ops m c) _).trans (Y5_main_arg7 m c)),
      (h c main_arg8).trans ((congrFun (after_ops m c) _).trans (Y5_main_arg8 m c)),
      (h c main_arg9).trans ((congrFun (after_ops m c) _).trans (Y5_main_arg9 m c)),
      (h c main_arg10).trans ((congrFun (after_ops m c) _).trans (Y5_main_arg10 m c)),
      (h c main_arg11).trans ((congrFun (after_ops m c) _).trans (Y5_main_arg11 m c)),
      (h c main_arg12).trans ((congrFun (after_ops m c) _).trans (Y5_main_arg12 m c)),
      (h c main_arg13).trans ((congrFun (after_ops m c) _).trans (Y5_main_arg13 m c)),
      (h c main_arg14).trans ((congrFun (after_ops m c) _).trans (Y5_main_arg14 m c)),
      (h c main_arg15).trans ((congrFun (after_ops m c) _).trans (Y5_main_arg15 m c)),
      (h c main_arg16).trans ((congrFun (after_ops m c) _).trans (Y5_main_arg16 m c)),
      (h c main_arg17).trans ((congrFun (after_ops m c) _).trans (Y5_main_arg17 m c)),
      (h c main_arg18).trans ((congrFun (after_ops m c) _).trans (Y5_main_arg18 m c)),
      (h c main_arg19).trans ((congrFun (after_ops m c) _).trans (Y5_main_arg19 m c)),
      (h c main_arg20).trans ((congrFun (after_ops m c) _).trans (Y5_main_arg20 m c)),
      (h c main_arg21).trans ((congrFun (after_ops m c) _).trans (Y5_main_arg21 m c)),
      (h c main_arg22).trans ((congrFun (after_ops m c) _).trans (Y5_main_arg22 m c)),
      (h c main_arg23).trans ((congrFun (after_ops m c) _).trans (Y5_main_arg23 m c))⟩)
    (run_all m ρ)

end Cert.ReferenceIdeal.Staged

end
-- ==== Proof.GinSpec.lean ====
/-
  The graph network's two dense pieces as functions of one node's (one graph's) row, on the extended reals.

  A layer sends a node's aggregated row `h` to
    `(relu (relu (h·W₀ + b₀)·W₁ + b₁) − μ) · rsqrt (σ² + ε) · γ + β`,
  column by column: `layerEntry` is column `q` of that, given the row `z = h·W₀` of first products. The
  classifier sends a graph's pooled row `x` to the logits `relu (x·V₁ + c₁)·V₂ + c₂` (`logit`) and then to
  `s − log (∑ exp s)` with `s = logit − max`, the maximum started from `−∞` (`headEntry`). Sums run over the
  columns in whatever order; the float literals `0`, `ε` and `−∞` are kept as their words.
-/
import Idealize.ShloMosaic.PureOps.Ideal.Laws
import Idealize.ShloMosaic.Lib.ValueIdx

noncomputable section

open scoped BigOperators

namespace Cert.Gin

open Idealize.ShloMosaic

/-- The float word of zero, of the batch-norm `ε`, and of `−∞`, read on the extended reals. -/
abbrev w0 : EReal := Ideal.ofBits .f32 0x00000000#32
abbrev wEps : EReal := Ideal.ofBits .f32 0x3727C5AC#32
abbrev wNegInf : EReal := Ideal.ofBits .f32 0xFF800000#32

/-- Column `q` of a layer's output row, from the row `z` of first products. -/
def layerEntry {n : ℕ} (z b0 : Fin n → EReal) (w1 : Fin n → Fin n → EReal) (b1 g be mn vr : Fin n → EReal) (q : Fin n) : EReal :=
  (max ((∑ k : Fin n, max (z k + b0 k) w0 * w1 k q) + b1 q) w0 - mn q) * Ideal.rsqrt (vr q + wEps) * g q + be q

/-- Logit `j` of a graph, from the row `z` of first products of its pooled row. -/
def logit {n c : ℕ} (z c1 : Fin n → EReal) (v2 : Fin n → Fin c → EReal) (c2 : Fin c → EReal) (j : Fin c) : EReal :=
  (∑ k : Fin n, max (z k + c1 k) w0 * v2 k j) + c2 j

/-- A row of logits shifted by its maximum (the maximum started from `−∞`, twice: as the fold's first value and as
    the operand it is then compared with). -/
def shifted {c : ℕ} (L : Fin c → EReal) (j : Fin c) : EReal :=
  L j - max wNegInf ((Finset.univ : Finset (Fin c)).fold max wNegInf L)

/-- The log-softmax of a row of logits at `j`. -/
def logSoftmax {c : ℕ} (L : Fin c → EReal) (j : Fin c) : EReal :=
  shifted L j - Ideal.log (∑ k : Fin c, Ideal.exp (shifted L k))

end Cert.Gin

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KerLayer0.lean ====
/-
  Region 0: the array a layer kernel leaves, as one function of the arrays it found.

  The kernel runs over 25 blocks of 2000 node rows; at each it reads its rows of the aggregated features, the whole of
  the two weight matrices and of the six parameter rows, and writes its rows of the output. Entry `(p, q)` of a
  block's stored value is `Cert.Gin.layerEntry` of row `p` of the block's first product. Block `t`'s row `p` is row
  `2000·t + p` of the array, every other window is its whole array, and the 25 output blocks tile the 50000 rows: so
  the output array ends, at `(r, q)`, at `layerEntry` of row `r` of the features times the first weight matrix.
-/
import proofs.«149134_j49194555408764_1_alg».proof.Proof.Gen.KernelIdeal.Frame
import proofs.«149134_j49194555408764_1_alg».proof.Proof.GinSpec
import proofs.«149134_j49194555408764_1_alg».proof.Proof.LibPlainDot
import Idealize.ShloMosaic.Lib.ValueLayout
import Idealize.ShloMosaic.Lib.Pipeline.Value

set_option maxRecDepth 16384

noncomputable section

open scoped BigOperators

namespace Cert.KernelIdeal.Layer0

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

/-! ## The stored value at an entry -/

theorem dimsA : dot_S2000x128_S128x256_S2000x256_1_0_0_1_n_n = DotDims.plain 2000 128 256 := rfl
theorem dimsB : dot_S2000x256_S256x256_S2000x256_1_0_0_1_n_n = DotDims.plain 2000 256 256 := rfl

theorem rsqrt_at {s : Shape} {φ : FTy} (x : FVec Ideal s φ) (i : s.Idx) : rsqrt x i = Ideal.rsqrt (x i) := rfl

/-- Entry `(p, q)` of what the body stores, from the blocks it loads. -/
theorem pay_entry (x0 : Vec Ideal S2000x128 .f32) (x1 : Vec Ideal S128x256 .f32) (x2 : Vec Ideal S1x256 .f32) (x3 : Vec Ideal S256x256 .f32)
    (x4 x5 x6 x7 x8 : Vec Ideal S1x256 .f32) (p : Fin 2000) (q : Fin 256) :
    k0_pay1 (F := Ideal) (k0_pay2 x0 x1 x2 x3 x4 x8 x7 x5) x6 (ix2 p q)
      = layerEntry (fun k => ∑ j : Fin 128, x0 (ix2 p j) * x1 (ix2 j k)) (fun k => x2 (ix2 (0 : Fin 1) k)) (fun k q' => x3 (ix2 k q'))
          (fun k => x4 (ix2 (0 : Fin 1) k)) (fun k => x5 (ix2 (0 : Fin 1) k)) (fun k => x6 (ix2 (0 : Fin 1) k))
          (fun k => x7 (ix2 (0 : Fin 1) k)) (fun k => x8 (ix2 (0 : Fin 1) k)) q := by
  unfold k0_pay1 k0_pay2 layerEntry
  simp only [dimsA, dimsB, shapeCast_self]
  simp only [addf_apply, mulf_apply, subf_apply, maximumf_apply, broadcast_apply, truncf_apply, rsqrt_at,
    broadcastTo_1b_ab_apply, Cert.Lib.PlainDot.matmul_zero_apply]
  rfl

/-! ## The blocks -/

theorem hz : (![0, 0] : Fin 2 → Nat) = fun _ => 0 := funext fun a => by fin_cases a <;> rfl

theorem N_lt (t : Fin cfg0.N) : t.val < 25 := lt_of_lt_of_eq t.isLt N_0

/-- The printed index maps, decided over the grid: the feature and output windows move one block of rows per point,
    every other window stays on its one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- Row `p` of block `t`. -/
def row (t : Fin cfg0.N) (p : Fin 2000) : Fin 50000 := ⟨t.val * 2000 + p.val, by have := N_lt t; have := p.isLt; omega⟩

/-- The feature window's block `t` holds rows `2000·t …` of its array. -/
theorem emb0 (t : Fin cfg0.N) (p : Fin 2000) (j : Fin 128) :
    (((cfg0.win 0).blk t).view.emb (ix2 p j) : S50000x128.Idx) = ix2 (row t p) j := by
  funext a; apply Fin.ext
  have e0 := (idx_facts t).1
  have e1 := (idx_facts t).2.1
  match a with
  | ⟨0, _⟩ => show win0_0.index t (0 : Fin 2) * 2000 + 1 * p.val = t.val * 2000 + p.val; rw [e0]; omega
  | ⟨1, _⟩ => show win0_0.index t (1 : Fin 2) * 128 + 1 * j.val = j.val; rw [e1]; omega

/-- Window 1 is one block, the whole array: a block's index is the array's. -/
theorem emb1 (t : Fin cfg0.N) (y : S128x256.Idx) : (((cfg0.win 1).blk t).view.emb y : S128x256.Idx) = y := by
  funext a; apply Fin.ext
  have e0 := (idx_facts t).2.2.1
  have e1 := (idx_facts t).2.2.2.1
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- Window 2 is one block, the whole array: a block's index is the array's. -/
theorem emb2 (t : Fin cfg0.N) (y : S1x256.Idx) : (((cfg0.win 2).blk t).view.emb y : S1x256.Idx) = y := by
  funext a; apply Fin.ext
  have e0 := (idx_facts t).2.2.2.2.1
  have e1 := (idx_facts t).2.2.2.2.2.1
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Window 3 is one block, the whole array: a block's index is the array's. -/
theorem emb3 (t : Fin cfg0.N) (y : S256x256.Idx) : (((cfg0.win 3).blk t).view.emb y : S256x256.Idx) = y := by
  funext a; apply Fin.ext
  have e0 := (idx_facts t).2.2.2.2.2.2.1
  have e1 := (idx_facts t).2.2.2.2.2.2.2.1
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- Window 4 is one block, the whole array: a block's index is the array's. -/
theorem emb4 (t : Fin cfg0.N) (y : S1x256.Idx) : (((cfg0.win 4).blk t).view.emb y : S1x256.Idx) = y := by
  funext a; apply Fin.ext
  have e0 := (idx_facts t).2.2.2.2.2.2.2.2.1
  have e1 := (idx_facts t).2.2.2.2.2.2.2.2.2.1
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Window 5 is one block, the whole array: a block's index is the array's. -/
theorem emb5 (t : Fin cfg0.N) (y : S1x256.Idx) : (((cfg0.win 5).blk t).view.emb y : S1x256.Idx) = y := by
  funext a; apply Fin.ext
  have e0 := (idx_facts t).2.2.2.2.2.2.2.2.2.2.1
  have e1 := (idx_facts t).2.2.2.2.2.2.2.2.2.2.2.1
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- Window 6 is one block, the whole array: a block's index is the array's. -/
theorem emb6 (t : Fin cfg0.N) (y : S1x256.Idx) : (((cfg0.win 6).blk t).view.emb y : S1x256.Idx) = y := by
  funext a; apply Fin.ext
  have e0 := (idx_facts t).2.2.2.2.2.2.2.2.2.2.2.2.1
  have e1 := (idx_facts t).2.2.2.2.2.2.2.2.2.2.2.2.2.1
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-- Window 7 is one block, the whole array: a block's index is the array's. -/
theorem emb7 (t : Fin cfg0.N) (y : S1x256.Idx) : (((cfg0.win 7).blk t).view.emb y : S1x256.Idx) = y := by
  funext a; apply Fin.ext
  have e0 := (idx_facts t).2.2.2.2.2.2.2.2.2.2.2.2.2.2.1
  have e1 := (idx_facts t).2.2.2.2.2.2.2.2.2.2.2.2.2.2.2.1
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-- Window 8 is one block, the whole array: a block's index is the array's. -/
theorem emb8 (t : Fin cfg0.N) (y : S1x256.Idx) : (((cfg0.win 8).blk t).view.emb y : S1x256.Idx) = y := by
  funext a; apply Fin.ext
  have e0 := (idx_facts t).2.2.2.2.2.2.2.2.2.2.2.2.2.2.2.2.1
  have e1 := (idx_facts t).2.2.2.2.2.2.2.2.2.2.2.2.2.2.2.2.2.1
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

/-- The output window's block `t` is rows `2000·t …` of its array. -/
theorem emb9 (t : Fin cfg0.N) (p : Fin 2000) (q : Fin 256) :
    (((cfg0.win 9).blk t).view.emb (ix2 p q) : S50000x256.Idx) = ix2 (row t p) q := by
  funext a; apply Fin.ext
  have e0 := (idx_facts t).2.2.2.2.2.2.2.2.2.2.2.2.2.2.2.2.2.2.1
  have e1 := (idx_facts t).2.2.2.2.2.2.2.2.2.2.2.2.2.2.2.2.2.2.2
  match a with
  | ⟨0, _⟩ => show win0_9.index t (0 : Fin 2) * 2000 + 1 * p.val = t.val * 2000 + p.val; rw [e0]; omega
  | ⟨1, _⟩ => show win0_9.index t (1 : Fin 2) * 256 + 1 * q.val = q.val; rw [e1]; omega

/-! ## The array -/

/-- Entry `(r, q)` of a layer's output, from the feature array, the two weight matrices and the six parameter rows. -/
def outOf (h : S50000x128.Idx → EReal) (w0 : S128x256.Idx → EReal) (b0 : S1x256.Idx → EReal) (w1 : S256x256.Idx → EReal)
    (b1 g be mn vr : S1x256.Idx → EReal) (r : Fin 50000) (q : Fin 256) : EReal :=
  layerEntry (fun k => ∑ j : Fin 128, h (ix2 r j) * w0 (ix2 j k)) (fun k => b0 (ix2 (0 : Fin 1) k)) (fun k q' => w1 (ix2 k q'))
    (fun k => b1 (ix2 (0 : Fin 1) k)) (fun k => g (ix2 (0 : Fin 1) k)) (fun k => be (ix2 (0 : Fin 1) k))
    (fun k => mn (ix2 (0 : Fin 1) k)) (fun k => vr (ix2 (0 : Fin 1) k)) q

section
variable (V : (c : Dev nD) → (b : Ref sig .tc) → Buf (Elt Ideal) ((c : Thread nD τ).loc b))

/-- Entry `(r, q)` of the layer's output, from the arrays the region finds. -/
def outAt (c : Dev nD) (r : Fin 50000) (q : Fin 256) : EReal :=
  outOf (V c main_v19) (V c main_arg3) (V c main_v20) (V c main_arg5) (V c main_v21) (V c main_v22) (V c main_v23) (V c main_v24) (V c main_v25) r q

/-- The layer's output array. -/
def out (c : Dev nD) : S50000x256.Idx → EReal := fun i => outAt V c (i 0) (i 1)

/-- What point `t` writes back is block `t` of `out`. -/
theorem flushed_eq (c : Dev nD) (t : Fin cfg0.N) :
    (dat0 V c).flushed 9 t = ((cfg0.win 9).blk t).view.read (Elt Ideal) (out V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x256) hz, View.ld_unit_zero (S := S1x256) hz,
    View.ld_unit_zero (S := S256x256) hz]
  funext y
  obtain ⟨p, q, rfl⟩ : ∃ (p : Fin 2000) (q : Fin 256), y = ix2 p q := ⟨y 0, y 1, eq_ix2 y⟩
  refine (pay_entry (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  have h0 : ∀ j : Fin 128, iblk0 V c 0 t (ix2 p j) = V c main_v19 (ix2 (row t p) j) := fun j => congrArg (V c main_v19) (emb0 t p j)
  have h1 : ∀ y, iblk0 V c 1 t y = V c main_arg3 y := fun y => congrArg (V c main_arg3) (emb1 t y)
  have h2 : ∀ y, iblk0 V c 2 t y = V c main_v20 y := fun y => congrArg (V c main_v20) (emb2 t y)
  have h3 : ∀ y, iblk0 V c 3 t y = V c main_arg5 y := fun y => congrArg (V c main_arg5) (emb3 t y)
  have h4 : ∀ y, iblk0 V c 4 t y = V c main_v21 y := fun y => congrArg (V c main_v21) (emb4 t y)
  have h5 : ∀ y, iblk0 V c 5 t y = V c main_v22 y := fun y => congrArg (V c main_v22) (emb5 t y)
  have h6 : ∀ y, iblk0 V c 6 t y = V c main_v23 y := fun y => congrArg (V c main_v23) (emb6 t y)
  have h7 : ∀ y, iblk0 V c 7 t y = V c main_v24 y := fun y => congrArg (V c main_v24) (emb7 t y)
  have h8 : ∀ y, iblk0 V c 8 t y = V c main_v25 y := fun y => congrArg (V c main_v25) (emb8 t y)
  have h9 : out V c (((cfg0.win 9).blk t).view.emb (ix2 p q)) = outAt V c (row t p) q := by rw [emb9]; rfl
  simp only [h0, h1, h2, h3, h4, h5, h6, h7, h8]
  exact h9.symm

/-- An index of the array is in point `t`'s block iff each coordinate is in the block's range on its axis. -/
theorem mem_blk (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v26).slice (win0_9.rect t)).set ↔ _
  rw [View.set_slice_whole, Rect.mem_set_unit]
  exact Iff.rfl

/-- Every row is in the block of the point `row / 2000`. -/
theorem cover (i : S50000x256.Idx) : ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_9 _, ?_⟩
  rw [mem_blk]
  intro a
  have e0 := (idx_facts ⟨(i 0).val / 2000, by rw [hN]; omega⟩).2.2.2.2.2.2.2.2.2.2.2.2.2.2.2.2.2.2.1
  have e1 := (idx_facts ⟨(i 0).val / 2000, by rw [hN]; omega⟩).2.2.2.2.2.2.2.2.2.2.2.2.2.2.2.2.2.2.2
  match a with
  | ⟨0, _⟩ =>
    show win0_9.index ⟨(i 0).val / 2000, _⟩ (0 : Fin 2) * 2000 ≤ (i 0).val ∧ (i 0).val < win0_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, _⟩ (1 : Fin 2) * 256 ≤ (i 1).val ∧ (i 1).val < win0_9.index ⟨(i 0).val / 2000, _⟩ (1 : Fin 2) * 256 + 256
    rw [e1]; omega

/-- The output array after the region. -/
theorem final (c : Dev nD) : (dat0 V c).arrAt 9 cfg0.N = out V c :=
  (dat0 V c).arrAt_eq_of_cover 9 (out V c) (fun t _ => flushed_eq V c t) cover

end

end Cert.KernelIdeal.Layer0

end
-- ==== Proof.KerLayer1.lean ====
/-
  Region 1: the array a layer kernel leaves, as one function of the arrays it found.

  The kernel runs over 25 blocks of 2000 node rows; at each it reads its rows of the aggregated features, the whole of
  the two weight matrices and of the six parameter rows, and writes its rows of the output. Entry `(p, q)` of a
  block's stored value is `Cert.Gin.layerEntry` of row `p` of the block's first product. Block `t`'s row `p` is row
  `2000·t + p` of the array, every other window is its whole array, and the 25 output blocks tile the 50000 rows: so
  the output array ends, at `(r, q)`, at `layerEntry` of row `r` of the features times the first weight matrix.
-/
import proofs.«149134_j49194555408764_1_alg».proof.Proof.Gen.KernelIdeal.Frame
import proofs.«149134_j49194555408764_1_alg».proof.Proof.GinSpec
import proofs.«149134_j49194555408764_1_alg».proof.Proof.LibPlainDot
import Idealize.ShloMosaic.Lib.ValueLayout
import Idealize.ShloMosaic.Lib.Pipeline.Value

set_option maxRecDepth 16384

noncomputable section

open scoped BigOperators

namespace Cert.KernelIdeal.Layer1

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

/-! ## The stored value at an entry -/

theorem dimsB : dot_S2000x256_S256x256_S2000x256_1_0_0_1_n_n = DotDims.plain 2000 256 256 := rfl

theorem rsqrt_at {s : Shape} {φ : FTy} (x : FVec Ideal s φ) (i : s.Idx) : rsqrt x i = Ideal.rsqrt (x i) := rfl

/-- Entry `(p, q)` of what the body stores, from the blocks it loads. -/
theorem pay_entry (x0 : Vec Ideal S2000x256 .f32) (x1 : Vec Ideal S256x256 .f32) (x2 : Vec Ideal S1x256 .f32) (x3 : Vec Ideal S256x256 .f32)
    (x4 x5 x6 x7 x8 : Vec Ideal S1x256 .f32) (p : Fin 2000) (q : Fin 256) :
    k1_pay1 (F := Ideal) (k1_pay2 x0 x1 x2 x3 x4 x8 x7) (k1_pay3 x5) x6 (ix2 p q)
      = layerEntry (fun k => ∑ j : Fin 256, x0 (ix2 p j) * x1 (ix2 j k)) (fun k => x2 (ix2 (0 : Fin 1) k)) (fun k q' => x3 (ix2 k q'))
          (fun k => x4 (ix2 (0 : Fin 1) k)) (fun k => x5 (ix2 (0 : Fin 1) k)) (fun k => x6 (ix2 (0 : Fin 1) k))
          (fun k => x7 (ix2 (0 : Fin 1) k)) (fun k => x8 (ix2 (0 : Fin 1) k)) q := by
  unfold k1_pay1 k1_pay2 k1_pay3 layerEntry
  simp only [dimsB, shapeCast_self]
  simp only [addf_apply, mulf_apply, subf_apply, maximumf_apply, broadcast_apply, truncf_apply, rsqrt_at,
    broadcastTo_1b_ab_apply, Cert.Lib.PlainDot.matmul_zero_apply]
  rfl

/-! ## The blocks -/

theorem hz : (![0, 0] : Fin 2 → Nat) = fun _ => 0 := funext fun a => by fin_cases a <;> rfl

theorem N_lt (t : Fin cfg1.N) : t.val < 25 := lt_of_lt_of_eq t.isLt N_1

/-- The printed index maps, decided over the grid: the feature and output windows move one block of rows per point,
    every other window stays on its one block. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- Row `p` of block `t`. -/
def row (t : Fin cfg1.N) (p : Fin 2000) : Fin 50000 := ⟨t.val * 2000 + p.val, by have := N_lt t; have := p.isLt; omega⟩

/-- The feature window's block `t` holds rows `2000·t …` of its array. -/
theorem emb0 (t : Fin cfg1.N) (p : Fin 2000) (j : Fin 256) :
    (((cfg1.win 0).blk t).view.emb (ix2 p j) : S50000x256.Idx) = ix2 (row t p) j := by
  funext a; apply Fin.ext
  have e0 := (idx_facts t).1
  have e1 := (idx_facts t).2.1
  match a with
  | ⟨0, _⟩ => show win1_0.index t (0 : Fin 2) * 2000 + 1 * p.val = t.val * 2000 + p.val; rw [e0]; omega
  | ⟨1, _⟩ => show win1_0.index t (1 : Fin 2) * 256 + 1 * j.val = j.val; rw [e1]; omega

/-- Window 1 is one block, the whole array: a block's index is the array's. -/
theorem emb1 (t : Fin cfg1.N) (y : S256x256.Idx) : (((cfg1.win 1).blk t).view.emb y : S256x256.Idx) = y := by
  funext a; apply Fin.ext
  have e0 := (idx_facts t).2.2.1
  have e1 := (idx_facts t).2.2.2.1
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- Window 2 is one block, the whole array: a block's index is the array's. -/
theorem emb2 (t : Fin cfg1.N) (y : S1x256.Idx) : (((cfg1.win 2).blk t).view.emb y : S1x256.Idx) = y := by
  funext a; apply Fin.ext
  have e0 := (idx_facts t).2.2.2.2.1
  have e1 := (idx_facts t).2.2.2.2.2.1
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- Window 3 is one block, the whole array: a block's index is the array's. -/
theorem emb3 (t : Fin cfg1.N) (y : S256x256.Idx) : (((cfg1.win 3).blk t).view.emb y : S256x256.Idx) = y := by
  funext a; apply Fin.ext
  have e0 := (idx_facts t).2.2.2.2.2.2.1
  have e1 := (idx_facts t).2.2.2.2.2.2.2.1
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- Window 4 is one block, the whole array: a block's index is the array's. -/
theorem emb4 (t : Fin cfg1.N) (y : S1x256.Idx) : (((cfg1.win 4).blk t).view.emb y : S1x256.Idx) = y := by
  funext a; apply Fin.ext
  have e0 := (idx_facts t).2.2.2.2.2.2.2.2.1
  have e1 := (idx_facts t).2.2.2.2.2.2.2.2.2.1
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- Window 5 is one block, the whole array: a block's index is the array's. -/
theorem emb5 (t : Fin cfg1.N) (y : S1x256.Idx) : (((cfg1.win 5).blk t).view.emb y : S1x256.Idx) = y := by
  funext a; apply Fin.ext
  have e0 := (idx_facts t).2.2.2.2.2.2.2.2.2.2.1
  have e1 := (idx_facts t).2.2.2.2.2.2.2.2.2.2.2.1
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- Window 6 is one block, the whole array: a block's index is the array's. -/
theorem emb6 (t : Fin cfg1.N) (y : S1x256.Idx) : (((cfg1.win 6).blk t).view.emb y : S1x256.Idx) = y := by
  funext a; apply Fin.ext
  have e0 := (idx_facts t).2.2.2.2.2.2.2.2.2.2.2.2.1
  have e1 := (idx_facts t).2.2.2.2.2.2.2.2.2.2.2.2.2.1
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-- Window 7 is one block, the whole array: a block's index is the array's. -/
theorem emb7 (t : Fin cfg1.N) (y : S1x256.Idx) : (((cfg1.win 7).blk t).view.emb y : S1x256.Idx) = y := by
  funext a; apply Fin.ext
  have e0 := (idx_facts t).2.2.2.2.2.2.2.2.2.2.2.2.2.2.1
  have e1 := (idx_facts t).2.2.2.2.2.2.2.2.2.2.2.2.2.2.2.1
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- Window 8 is one block, the whole array: a block's index is the array's. -/
theorem emb8 (t : Fin cfg1.N) (y : S1x256.Idx) : (((cfg1.win 8).blk t).view.emb y : S1x256.Idx) = y := by
  funext a; apply Fin.ext
  have e0 := (idx_facts t).2.2.2.2.2.2.2.2.2.2.2.2.2.2.2.2.1
  have e1 := (idx_facts t).2.2.2.2.2.2.2.2.2.2.2.2.2.2.2.2.2.1
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega

/-- The output window's block `t` is rows `2000·t …` of its array. -/
theorem emb9 (t : Fin cfg1.N) (p : Fin 2000) (q : Fin 256) :
    (((cfg1.win 9).blk t).view.emb (ix2 p q) : S50000x256.Idx) = ix2 (row t p) q := by
  funext a; apply Fin.ext
  have e0 := (idx_facts t).2.2.2.2.2.2.2.2.2.2.2.2.2.2.2.2.2.2.1
  have e1 := (idx_facts t).2.2.2.2.2.2.2.2.2.2.2.2.2.2.2.2.2.2.2
  match a with
  | ⟨0, _⟩ => show win1_9.index t (0 : Fin 2) * 2000 + 1 * p.val = t.val * 2000 + p.val; rw [e0]; omega
  | ⟨1, _⟩ => show win1_9.index t (1 : Fin 2) * 256 + 1 * q.val = q.val; rw [e1]; omega

/-! ## The array -/

/-- Entry `(r, q)` of a layer's output, from the feature array, the two weight matrices and the six parameter rows. -/
def outOf (h : S50000x256.Idx → EReal) (w0 : S256x256.Idx → EReal) (b0 : S1x256.Idx → EReal) (w1 : S256x256.Idx → EReal)
    (b1 g be mn vr : S1x256.Idx → EReal) (r : Fin 50000) (q : Fin 256) : EReal :=
  layerEntry (fun k => ∑ j : Fin 256, h (ix2 r j) * w0 (ix2 j k)) (fun k => b0 (ix2 (0 : Fin 1) k)) (fun k q' => w1 (ix2 k q'))
    (fun k => b1 (ix2 (0 : Fin 1) k)) (fun k => g (ix2 (0 : Fin 1) k)) (fun k => be (ix2 (0 : Fin 1) k))
    (fun k => mn (ix2 (0 : Fin 1) k)) (fun k => vr (ix2 (0 : Fin 1) k)) q

section
variable (V : (c : Dev nD) → (b : Ref sig .tc) → Buf (Elt Ideal) ((c : Thread nD τ).loc b))

/-- Entry `(r, q)` of the layer's output, from the arrays the region finds. -/
def outAt (c : Dev nD) (r : Fin 50000) (q : Fin 256) : EReal :=
  outOf (V c main_v58) (V c main_v30) (V c main_v59) (V c main_v34) (V c main_v60) (V c main_v61) (V c main_v62) (V c main_v63) (V c main_v64) r q

/-- The layer's output array. -/
def out (c : Dev nD) : S50000x256.Idx → EReal := fun i => outAt V c (i 0) (i 1)

/-- What point `t` writes back is block `t` of `out`. -/
theorem flushed_eq (c : Dev nD) (t : Fin cfg1.N) :
    (dat1 V c).flushed 9 t = ((cfg1.win 9).blk t).view.read (Elt Ideal) (out V c) := by
  show (cfg1.win 9).cut (grid1.coords t) ((dat1 V c).after 9 t) = _
  rw [after1_9]
  unfold out1_9
  rw [View.canon_unit_zero hz]
  simp only [View.ld_unit_zero (S := S2000x256) hz, View.ld_unit_zero (S := S256x256) hz, View.ld_unit_zero (S := S1x256) hz,
    View.ld_unit_zero (S := S256x256) hz]
  funext y
  obtain ⟨p, q, rfl⟩ : ∃ (p : Fin 2000) (q : Fin 256), y = ix2 p q := ⟨y 0, y 1, eq_ix2 y⟩
  refine (pay_entry (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  have h0 : ∀ j : Fin 256, iblk1 V c 0 t (ix2 p j) = V c main_v58 (ix2 (row t p) j) := fun j => congrArg (V c main_v58) (emb0 t p j)
  have h1 : ∀ y, iblk1 V c 1 t y = V c main_v30 y := fun y => congrArg (V c main_v30) (emb1 t y)
  have h2 : ∀ y, iblk1 V c 2 t y = V c main_v59 y := fun y => congrArg (V c main_v59) (emb2 t y)
  have h3 : ∀ y, iblk1 V c 3 t y = V c main_v34 y := fun y => congrArg (V c main_v34) (emb3 t y)
  have h4 : ∀ y, iblk1 V c 4 t y = V c main_v60 y := fun y => congrArg (V c main_v60) (emb4 t y)
  have h5 : ∀ y, iblk1 V c 5 t y = V c main_v61 y := fun y => congrArg (V c main_v61) (emb5 t y)
  have h6 : ∀ y, iblk1 V c 6 t y = V c main_v62 y := fun y => congrArg (V c main_v62) (emb6 t y)
  have h7 : ∀ y, iblk1 V c 7 t y = V c main_v63 y := fun y => congrArg (V c main_v63) (emb7 t y)
  have h8 : ∀ y, iblk1 V c 8 t y = V c main_v64 y := fun y => congrArg (V c main_v64) (emb8 t y)
  have h9 : out V c (((cfg1.win 9).blk t).view.emb (ix2 p q)) = outAt V c (row t p) q := by rw [emb9]; rfl
  simp only [h0, h1, h2, h3, h4, h5, h6, h7, h8]
  exact h9.symm

/-- An index of the array is in point `t`'s block iff each coordinate is in the block's range on its axis. -/
theorem mem_blk (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v65).slice (win1_9.rect t)).set ↔ _
  rw [View.set_slice_whole, Rect.mem_set_unit]
  exact Iff.rfl

/-- Every row is in the block of the point `row / 2000`. -/
theorem cover (i : S50000x256.Idx) : ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_9 _, ?_⟩
  rw [mem_blk]
  intro a
  have e0 := (idx_facts ⟨(i 0).val / 2000, by rw [hN]; omega⟩).2.2.2.2.2.2.2.2.2.2.2.2.2.2.2.2.2.2.1
  have e1 := (idx_facts ⟨(i 0).val / 2000, by rw [hN]; omega⟩).2.2.2.2.2.2.2.2.2.2.2.2.2.2.2.2.2.2.2
  match a with
  | ⟨0, _⟩ =>
    show win1_9.index ⟨(i 0).val / 2000, _⟩ (0 : Fin 2) * 2000 ≤ (i 0).val ∧ (i 0).val < win1_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, _⟩ (1 : Fin 2) * 256 ≤ (i 1).val ∧ (i 1).val < win1_9.index ⟨(i 0).val / 2000, _⟩ (1 : Fin 2) * 256 + 256
    rw [e1]; omega

/-- The output array after the region. -/
theorem final (c : Dev nD) : (dat1 V c).arrAt 9 cfg1.N = out V c :=
  (dat1 V c).arrAt_eq_of_cover 9 (out V c) (fun t _ => flushed_eq V c t) cover

end

end Cert.KernelIdeal.Layer1

end
-- ==== Proof.KerLayer2.lean ====
/-
  Region 2: the array a layer kernel leaves, as one function of the arrays it found.

  The kernel runs over 25 blocks of 2000 node rows; at each it reads its rows of the aggregated features, the whole of
  the two weight matrices and of the six parameter rows, and writes its rows of the output. Entry `(p, q)` of a
  block's stored value is `Cert.Gin.layerEntry` of row `p` of the block's first product. Block `t`'s row `p` is row
  `2000·t + p` of the array, every other window is its whole array, and the 25 output blocks tile the 50000 rows: so
  the output array ends, at `(r, q)`, at `layerEntry` of row `r` of the features times the first weight matrix.
-/
import proofs.«149134_j49194555408764_1_alg».proof.Proof.Gen.KernelIdeal.Frame
import proofs.«149134_j49194555408764_1_alg».proof.Proof.GinSpec
import proofs.«149134_j49194555408764_1_alg».proof.Proof.LibPlainDot
import Idealize.ShloMosaic.Lib.ValueLayout
import Idealize.ShloMosaic.Lib.Pipeline.Value

set_option maxRecDepth 16384

noncomputable section

open scoped BigOperators

namespace Cert.KernelIdeal.Layer2

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

/-! ## The stored value at an entry -/

theorem dimsB : dot_S2000x256_S256x256_S2000x256_1_0_0_1_n_n = DotDims.plain 2000 256 256 := rfl

theorem rsqrt_at {s : Shape} {φ : FTy} (x : FVec Ideal s φ) (i : s.Idx) : rsqrt x i = Ideal.rsqrt (x i) := rfl

/-- Entry `(p, q)` of what the body stores, from the blocks it loads. -/
theorem pay_entry (x0 : Vec Ideal S2000x256 .f32) (x1 : Vec Ideal S256x256 .f32) (x2 : Vec Ideal S1x256 .f32) (x3 : Vec Ideal S256x256 .f32)
    (x4 x5 x6 x7 x8 : Vec Ideal S1x256 .f32) (p : Fin 2000) (q : Fin 256) :
    k2_pay1 (F := Ideal) (k2_pay2 x0 x1 x2 x3 x4 x8 x7) (k2_pay3 x5) x6 (ix2 p q)
      = layerEntry (fun k => ∑ j : Fin 256, x0 (ix2 p j) * x1 (ix2 j k)) (fun k => x2 (ix2 (0 : Fin 1) k)) (fun k q' => x3 (ix2 k q'))
          (fun k => x4 (ix2 (0 : Fin 1) k)) (fun k => x5 (ix2 (0 : Fin 1) k)) (fun k => x6 (ix2 (0 : Fin 1) k))
          (fun k => x7 (ix2 (0 : Fin 1) k)) (fun k => x8 (ix2 (0 : Fin 1) k)) q := by
  unfold k2_pay1 k2_pay2 k2_pay3 layerEntry
  simp only [dimsB, shapeCast_self]
  simp only [addf_apply, mulf_apply, subf_apply, maximumf_apply, broadcast_apply, truncf_apply, rsqrt_at,
    broadcastTo_1b_ab_apply, Cert.Lib.PlainDot.matmul_zero_apply]
  rfl

/-! ## The blocks -/

theorem hz : (![0, 0] : Fin 2 → Nat) = fun _ => 0 := funext fun a => by fin_cases a <;> rfl

theorem N_lt (t : Fin cfg2.N) : t.val < 25 := lt_of_lt_of_eq t.isLt N_2

/-- The printed index maps, decided over the grid: the feature and output windows move one block of rows per point,
    every other window stays on its one block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- Row `p` of block `t`. -/
def row (t : Fin cfg2.N) (p : Fin 2000) : Fin 50000 := ⟨t.val * 2000 + p.val, by have := N_lt t; have := p.isLt; omega⟩

/-- The feature window's block `t` holds rows `2000·t …` of its array. -/
theorem emb0 (t : Fin cfg2.N) (p : Fin 2000) (j : Fin 256) :
    (((cfg2.win 0).blk t).view.emb (ix2 p j) : S50000x256.Idx) = ix2 (row t p) j := by
  funext a; apply Fin.ext
  have e0 := (idx_facts t).1
  have e1 := (idx_facts t).2.1
  match a with
  | ⟨0, _⟩ => show win2_0.index t (0 : Fin 2) * 2000 + 1 * p.val = t.val * 2000 + p.val; rw [e0]; omega
  | ⟨1, _⟩ => show win2_0.index t (1 : Fin 2) * 256 + 1 * j.val = j.val; rw [e1]; omega

/-- Window 1 is one block, the whole array: a block's index is the array's. -/
theorem emb1 (t : Fin cfg2.N) (y : S256x256.Idx) : (((cfg2.win 1).blk t).view.emb y : S256x256.Idx) = y := by
  funext a; apply Fin.ext
  have e0 := (idx_facts t).2.2.1
  have e1 := (idx_facts t).2.2.2.1
  match a with
  | ⟨0, _⟩ => show win2_1.index t (0 : Fin 2) * 256 + 1 * (y 0).val = (y 0).val; rw [e0]; omega
  | ⟨1, _⟩ => show win2_1.index t (1 : Fin 2) * 256 + 1 * (y 1).val = (y 1).val; rw [e1]; omega

/-- Window 2 is one block, the whole array: a block's index is the array's. -/
theorem emb2 (t : Fin cfg2.N) (y : S1x256.Idx) : (((cfg2.win 2).blk t).view.emb y : S1x256.Idx) = y := by
  funext a; apply Fin.ext
  have e0 := (idx_facts t).2.2.2.2.1
  have e1 := (idx_facts t).2.2.2.2.2.1
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- Window 3 is one block, the whole array: a block's index is the array's. -/
theorem emb3 (t : Fin cfg2.N) (y : S256x256.Idx) : (((cfg2.win 3).blk t).view.emb y : S256x256.Idx) = y := by
  funext a; apply Fin.ext
  have e0 := (idx_facts t).2.2.2.2.2.2.1
  have e1 := (idx_facts t).2.2.2.2.2.2.2.1
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Window 4 is one block, the whole array: a block's index is the array's. -/
theorem emb4 (t : Fin cfg2.N) (y : S1x256.Idx) : (((cfg2.win 4).blk t).view.emb y : S1x256.Idx) = y := by
  funext a; apply Fin.ext
  have e0 := (idx_facts t).2.2.2.2.2.2.2.2.1
  have e1 := (idx_facts t).2.2.2.2.2.2.2.2.2.1
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- Window 5 is one block, the whole array: a block's index is the array's. -/
theorem emb5 (t : Fin cfg2.N) (y : S1x256.Idx) : (((cfg2.win 5).blk t).view.emb y : S1x256.Idx) = y := by
  funext a; apply Fin.ext
  have e0 := (idx_facts t).2.2.2.2.2.2.2.2.2.2.1
  have e1 := (idx_facts t).2.2.2.2.2.2.2.2.2.2.2.1
  match a with
  | ⟨0, _⟩ => show win2_5.index t (0 : Fin 2) * 1 + 1 * (y 0).val = (y 0).val; rw [e0]; omega
  | ⟨1, _⟩ => show win2_5.index t (1 : Fin 2) * 256 + 1 * (y 1).val = (y 1).val; rw [e1]; omega

/-- Window 6 is one block, the whole array: a block's index is the array's. -/
theorem emb6 (t : Fin cfg2.N) (y : S1x256.Idx) : (((cfg2.win 6).blk t).view.emb y : S1x256.Idx) = y := by
  funext a; apply Fin.ext
  have e0 := (idx_facts t).2.2.2.2.2.2.2.2.2.2.2.2.1
  have e1 := (idx_facts t).2.2.2.2.2.2.2.2.2.2.2.2.2.1
  match a with
  | ⟨0, _⟩ => show win2_6.index t (0 : Fin 2) * 1 + 1 * (y 0).val = (y 0).val; rw [e0]; omega
  | ⟨1, _⟩ => show win2_6.index t (1 : Fin 2) * 256 + 1 * (y 1).val = (y 1).val; rw [e1]; omega

/-- Window 7 is one block, the whole array: a block's index is the array's. -/
theorem emb7 (t : Fin cfg2.N) (y : S1x256.Idx) : (((cfg2.win 7).blk t).view.emb y : S1x256.Idx) = y := by
  funext a; apply Fin.ext
  have e0 := (idx_facts t).2.2.2.2.2.2.2.2.2.2.2.2.2.2.1
  have e1 := (idx_facts t).2.2.2.2.2.2.2.2.2.2.2.2.2.2.2.1
  match a with
  | ⟨0, _⟩ => show win2_7.index t (0 : Fin 2) * 1 + 1 * (y 0).val = (y 0).val; rw [e0]; omega
  | ⟨1, _⟩ => show win2_7.index t (1 : Fin 2) * 256 + 1 * (y 1).val = (y 1).val; rw [e1]; omega

/-- Window 8 is one block, the whole array: a block's index is the array's. -/
theorem emb8 (t : Fin cfg2.N) (y : S1x256.Idx) : (((cfg2.win 8).blk t).view.emb y : S1x256.Idx) = y := by
  funext a; apply Fin.ext
  have e0 := (idx_facts t).2.2.2.2.2.2.2.2.2.2.2.2.2.2.2.2.1
  have e1 := (idx_facts t).2.2.2.2.2.2.2.2.2.2.2.2.2.2.2.2.2.1
  match a with
  | ⟨0, _⟩ => show win2_8.index t (0 : Fin 2) * 1 + 1 * (y 0).val = (y 0).val; rw [e0]; omega
  | ⟨1, _⟩ => show win2_8.index t (1 : Fin 2) * 256 + 1 * (y 1).val = (y 1).val; rw [e1]; omega

/-- The output window's block `t` is rows `2000·t …` of its array. -/
theorem emb9 (t : Fin cfg2.N) (p : Fin 2000) (q : Fin 256) :
    (((cfg2.win 9).blk t).view.emb (ix2 p q) : S50000x256.Idx) = ix2 (row t p) q := by
  funext a; apply Fin.ext
  have e0 := (idx_facts t).2.2.2.2.2.2.2.2.2.2.2.2.2.2.2.2.2.2.1
  have e1 := (idx_facts t).2.2.2.2.2.2.2.2.2.2.2.2.2.2.2.2.2.2.2
  match a with
  | ⟨0, _⟩ => show win2_9.index t (0 : Fin 2) * 2000 + 1 * p.val = t.val * 2000 + p.val; rw [e0]; omega
  | ⟨1, _⟩ => show win2_9.index t (1 : Fin 2) * 256 + 1 * q.val = q.val; rw [e1]; omega

/-! ## The array -/

/-- Entry `(r, q)` of a layer's output, from the feature array, the two weight matrices and the six parameter rows. -/
def outOf (h : S50000x256.Idx → EReal) (w0 : S256x256.Idx → EReal) (b0 : S1x256.Idx → EReal) (w1 : S256x256.Idx → EReal)
    (b1 g be mn vr : S1x256.Idx → EReal) (r : Fin 50000) (q : Fin 256) : EReal :=
  layerEntry (fun k => ∑ j : Fin 256, h (ix2 r j) * w0 (ix2 j k)) (fun k => b0 (ix2 (0 : Fin 1) k)) (fun k q' => w1 (ix2 k q'))
    (fun k => b1 (ix2 (0 : Fin 1) k)) (fun k => g (ix2 (0 : Fin 1) k)) (fun k => be (ix2 (0 : Fin 1) k))
    (fun k => mn (ix2 (0 : Fin 1) k)) (fun k => vr (ix2 (0 : Fin 1) k)) q

section
variable (V : (c : Dev nD) → (b : Ref sig .tc) → Buf (Elt Ideal) ((c : Thread nD τ).loc b))

/-- Entry `(r, q)` of the layer's output, from the arrays the region finds. -/
def outAt (c : Dev nD) (r : Fin 50000) (q : Fin 256) : EReal :=
  outOf (V c main_v97) (V c main_v69) (V c main_v98) (V c main_v73) (V c main_v99) (V c main_v100) (V c main_v101) (V c main_v102) (V c main_v103) r q

/-- The layer's output array. -/
def out (c : Dev nD) : S50000x256.Idx → EReal := fun i => outAt V c (i 0) (i 1)

/-- What point `t` writes back is block `t` of `out`. -/
theorem flushed_eq (c : Dev nD) (t : Fin cfg2.N) :
    (dat2 V c).flushed 9 t = ((cfg2.win 9).blk t).view.read (Elt Ideal) (out V c) := by
  show (cfg2.win 9).cut (grid2.coords t) ((dat2 V c).after 9 t) = _
  rw [after2_9]
  unfold out2_9
  rw [View.canon_unit_zero hz]
  simp only [View.ld_unit_zero (S := S2000x256) hz, View.ld_unit_zero (S := S256x256) hz, View.ld_unit_zero (S := S1x256) hz,
    View.ld_unit_zero (S := S256x256) hz]
  funext y
  obtain ⟨p, q, rfl⟩ : ∃ (p : Fin 2000) (q : Fin 256), y = ix2 p q := ⟨y 0, y 1, eq_ix2 y⟩
  refine (pay_entry (iblk2 V c 0 t) (iblk2 V c 1 t) (iblk2 V c 2 t) (iblk2 V c 3 t) (iblk2 V c 4 t) (iblk2 V c 5 t)
    (iblk2 V c 6 t) (iblk2 V c 7 t) (iblk2 V c 8 t) p q).trans ?_
  have h0 : ∀ j : Fin 256, iblk2 V c 0 t (ix2 p j) = V c main_v97 (ix2 (row t p) j) := fun j => congrArg (V c main_v97) (emb0 t p j)
  have h1 : ∀ y, iblk2 V c 1 t y = V c main_v69 y := fun y => congrArg (V c main_v69) (emb1 t y)
  have h2 : ∀ y, iblk2 V c 2 t y = V c main_v98 y := fun y => congrArg (V c main_v98) (emb2 t y)
  have h3 : ∀ y, iblk2 V c 3 t y = V c main_v73 y := fun y => congrArg (V c main_v73) (emb3 t y)
  have h4 : ∀ y, iblk2 V c 4 t y = V c main_v99 y := fun y => congrArg (V c main_v99) (emb4 t y)
  have h5 : ∀ y, iblk2 V c 5 t y = V c main_v100 y := fun y => congrArg (V c main_v100) (emb5 t y)
  have h6 : ∀ y, iblk2 V c 6 t y = V c main_v101 y := fun y => congrArg (V c main_v101) (emb6 t y)
  have h7 : ∀ y, iblk2 V c 7 t y = V c main_v102 y := fun y => congrArg (V c main_v102) (emb7 t y)
  have h8 : ∀ y, iblk2 V c 8 t y = V c main_v103 y := fun y => congrArg (V c main_v103) (emb8 t y)
  have h9 : out V c (((cfg2.win 9).blk t).view.emb (ix2 p q)) = outAt V c (row t p) q := by rw [emb9]; rfl
  simp only [h0, h1, h2, h3, h4, h5, h6, h7, h8]
  exact h9.symm

/-- An index of the array is in point `t`'s block iff each coordinate is in the block's range on its axis. -/
theorem mem_blk (t : Fin cfg2.N) (i : S50000x256.Idx) :
    i ∈ ((cfg2.win 9).blk t).view.set ↔ ∀ a : Fin 2, win2_9.index t a * S2000x256.size a ≤ (i a).val ∧ (i a).val < win2_9.index t a * S2000x256.size a + S2000x256.size a := by
  show i ∈ ((View.whole main_v104).slice (win2_9.rect t)).set ↔ _
  rw [View.set_slice_whole, Rect.mem_set_unit]
  exact Iff.rfl

/-- Every row is in the block of the point `row / 2000`. -/
theorem cover (i : S50000x256.Idx) : ∃ t : Fin cfg2.N, (cfg2.win 9).flush t = true ∧ i ∈ ((cfg2.win 9).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_9 _, ?_⟩
  rw [mem_blk]
  intro a
  have e0 := (idx_facts ⟨(i 0).val / 2000, by rw [hN]; omega⟩).2.2.2.2.2.2.2.2.2.2.2.2.2.2.2.2.2.2.1
  have e1 := (idx_facts ⟨(i 0).val / 2000, by rw [hN]; omega⟩).2.2.2.2.2.2.2.2.2.2.2.2.2.2.2.2.2.2.2
  match a with
  | ⟨0, _⟩ =>
    show win2_9.index ⟨(i 0).val / 2000, _⟩ (0 : Fin 2) * 2000 ≤ (i 0).val ∧ (i 0).val < win2_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_9.index ⟨(i 0).val / 2000, _⟩ (1 : Fin 2) * 256 ≤ (i 1).val ∧ (i 1).val < win2_9.index ⟨(i 0).val / 2000, _⟩ (1 : Fin 2) * 256 + 256
    rw [e1]; omega

/-- The output array after the region. -/
theorem final (c : Dev nD) : (dat2 V c).arrAt 9 cfg2.N = out V c :=
  (dat2 V c).arrAt_eq_of_cover 9 (out V c) (fun t _ => flushed_eq V c t) cover

end

end Cert.KernelIdeal.Layer2

end
-- ==== Proof.KerLayer3.lean ====
/-
  Region 3: the array a layer kernel leaves, as one function of the arrays it found.

  The kernel runs over 25 blocks of 2000 node rows; at each it reads its rows of the aggregated features, the whole of
  the two weight matrices and of the six parameter rows, and writes its rows of the output. Entry `(p, q)` of a
  block's stored value is `Cert.Gin.layerEntry` of row `p` of the block's first product. Block `t`'s row `p` is row
  `2000·t + p` of the array, every other window is its whole array, and the 25 output blocks tile the 50000 rows: so
  the output array ends, at `(r, q)`, at `layerEntry` of row `r` of the features times the first weight matrix.
-/
import proofs.«149134_j49194555408764_1_alg».proof.Proof.Gen.KernelIdeal.Frame
import proofs.«149134_j49194555408764_1_alg».proof.Proof.GinSpec
import proofs.«149134_j49194555408764_1_alg».proof.Proof.LibPlainDot
import Idealize.ShloMosaic.Lib.ValueLayout
import Idealize.ShloMosaic.Lib.Pipeline.Value

set_option maxRecDepth 16384

noncomputable section

open scoped BigOperators

namespace Cert.KernelIdeal.Layer3

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

/-! ## The stored value at an entry -/

theorem dimsB : dot_S2000x256_S256x256_S2000x256_1_0_0_1_n_n = DotDims.plain 2000 256 256 := rfl

theorem rsqrt_at {s : Shape} {φ : FTy} (x : FVec Ideal s φ) (i : s.Idx) : rsqrt x i = Ideal.rsqrt (x i) := rfl

/-- Entry `(p, q)` of what the body stores, from the blocks it loads. -/
theorem pay_entry (x0 : Vec Ideal S2000x256 .f32) (x1 : Vec Ideal S256x256 .f32) (x2 : Vec Ideal S1x256 .f32) (x3 : Vec Ideal S256x256 .f32)
    (x4 x5 x6 x7 x8 : Vec Ideal S1x256 .f32) (p : Fin 2000) (q : Fin 256) :
    k3_pay1 (F := Ideal) (k3_pay2 x0 x1 x2 x3 x4 x8 x7) (k3_pay3 x5) x6 (ix2 p q)
      = layerEntry (fun k => ∑ j : Fin 256, x0 (ix2 p j) * x1 (ix2 j k)) (fun k => x2 (ix2 (0 : Fin 1) k)) (fun k q' => x3 (ix2 k q'))
          (fun k => x4 (ix2 (0 : Fin 1) k)) (fun k => x5 (ix2 (0 : Fin 1) k)) (fun k => x6 (ix2 (0 : Fin 1) k))
          (fun k => x7 (ix2 (0 : Fin 1) k)) (fun k => x8 (ix2 (0 : Fin 1) k)) q := by
  unfold k3_pay1 k3_pay2 k3_pay3 layerEntry
  simp only [dimsB, shapeCast_self]
  simp only [addf_apply, mulf_apply, subf_apply, maximumf_apply, broadcast_apply, truncf_apply, rsqrt_at,
    broadcastTo_1b_ab_apply, Cert.Lib.PlainDot.matmul_zero_apply]
  rfl

/-! ## The blocks -/

theorem hz : (![0, 0] : Fin 2 → Nat) = fun _ => 0 := funext fun a => by fin_cases a <;> rfl

theorem N_lt (t : Fin cfg3.N) : t.val < 25 := lt_of_lt_of_eq t.isLt N_3

/-- The printed index maps, decided over the grid: the feature and output windows move one block of rows per point,
    every other window stays on its one block. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

/-- Row `p` of block `t`. -/
def row (t : Fin cfg3.N) (p : Fin 2000) : Fin 50000 := ⟨t.val * 2000 + p.val, by have := N_lt t; have := p.isLt; omega⟩

/-- The feature window's block `t` holds rows `2000·t …` of its array. -/
theorem emb0 (t : Fin cfg3.N) (p : Fin 2000) (j : Fin 256) :
    (((cfg3.win 0).blk t).view.emb (ix2 p j) : S50000x256.Idx) = ix2 (row t p) j := by
  funext a; apply Fin.ext
  have e0 := (idx_facts t).1
  have e1 := (idx_facts t).2.1
  match a with
  | ⟨0, _⟩ => show win3_0.index t (0 : Fin 2) * 2000 + 1 * p.val = t.val * 2000 + p.val; rw [e0]; omega
  | ⟨1, _⟩ => show win3_0.index t (1 : Fin 2) * 256 + 1 * j.val = j.val; rw [e1]; omega

/-- Window 1 is one block, the whole array: a block's index is the array's. -/
theorem emb1 (t : Fin cfg3.N) (y : S256x256.Idx) : (((cfg3.win 1).blk t).view.emb y : S256x256.Idx) = y := by
  funext a; apply Fin.ext
  have e0 := (idx_facts t).2.2.1
  have e1 := (idx_facts t).2.2.2.1
  match a with
  | ⟨0, _⟩ => show win3_1.index t (0 : Fin 2) * 256 + 1 * (y 0).val = (y 0).val; rw [e0]; omega
  | ⟨1, _⟩ => show win3_1.index t (1 : Fin 2) * 256 + 1 * (y 1).val = (y 1).val; rw [e1]; omega

/-- Window 2 is one block, the whole array: a block's index is the array's. -/
theorem emb2 (t : Fin cfg3.N) (y : S1x256.Idx) : (((cfg3.win 2).blk t).view.emb y : S1x256.Idx) = y := by
  funext a; apply Fin.ext
  have e0 := (idx_facts t).2.2.2.2.1
  have e1 := (idx_facts t).2.2.2.2.2.1
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

/-- Window 3 is one block, the whole array: a block's index is the array's. -/
theorem emb3 (t : Fin cfg3.N) (y : S256x256.Idx) : (((cfg3.win 3).blk t).view.emb y : S256x256.Idx) = y := by
  funext a; apply Fin.ext
  have e0 := (idx_facts t).2.2.2.2.2.2.1
  have e1 := (idx_facts t).2.2.2.2.2.2.2.1
  match a with
  | ⟨0, _⟩ => show win3_3.index t (0 : Fin 2) * 256 + 1 * (y 0).val = (y 0).val; rw [e0]; omega
  | ⟨1, _⟩ => show win3_3.index t (1 : Fin 2) * 256 + 1 * (y 1).val = (y 1).val; rw [e1]; omega

/-- Window 4 is one block, the whole array: a block's index is the array's. -/
theorem emb4 (t : Fin cfg3.N) (y : S1x256.Idx) : (((cfg3.win 4).blk t).view.emb y : S1x256.Idx) = y := by
  funext a; apply Fin.ext
  have e0 := (idx_facts t).2.2.2.2.2.2.2.2.1
  have e1 := (idx_facts t).2.2.2.2.2.2.2.2.2.1
  match a with
  | ⟨0, _⟩ => show win3_4.index t (0 : Fin 2) * 1 + 1 * (y 0).val = (y 0).val; rw [e0]; omega
  | ⟨1, _⟩ => show win3_4.index t (1 : Fin 2) * 256 + 1 * (y 1).val = (y 1).val; rw [e1]; omega

/-- Window 5 is one block, the whole array: a block's index is the array's. -/
theorem emb5 (t : Fin cfg3.N) (y : S1x256.Idx) : (((cfg3.win 5).blk t).view.emb y : S1x256.Idx) = y := by
  funext a; apply Fin.ext
  have e0 := (idx_facts t).2.2.2.2.2.2.2.2.2.2.1
  have e1 := (idx_facts t).2.2.2.2.2.2.2.2.2.2.2.1
  match a with
  | ⟨0, _⟩ => show win3_5.index t (0 : Fin 2) * 1 + 1 * (y 0).val = (y 0).val; rw [e0]; omega
  | ⟨1, _⟩ => show win3_5.index t (1 : Fin 2) * 256 + 1 * (y 1).val = (y 1).val; rw [e1]; omega

/-- Window 6 is one block, the whole array: a block's index is the array's. -/
theorem emb6 (t : Fin cfg3.N) (y : S1x256.Idx) : (((cfg3.win 6).blk t).view.emb y : S1x256.Idx) = y := by
  funext a; apply Fin.ext
  have e0 := (idx_facts t).2.2.2.2.2.2.2.2.2.2.2.2.1
  have e1 := (idx_facts t).2.2.2.2.2.2.2.2.2.2.2.2.2.1
  match a with
  | ⟨0, _⟩ => show win3_6.index t (0 : Fin 2) * 1 + 1 * (y 0).val = (y 0).val; rw [e0]; omega
  | ⟨1, _⟩ => show win3_6.index t (1 : Fin 2) * 256 + 1 * (y 1).val = (y 1).val; rw [e1]; omega

/-- Window 7 is one block, the whole array: a block's index is the array's. -/
theorem emb7 (t : Fin cfg3.N) (y : S1x256.Idx) : (((cfg3.win 7).blk t).view.emb y : S1x256.Idx) = y := by
  funext a; apply Fin.ext
  have e0 := (idx_facts t).2.2.2.2.2.2.2.2.2.2.2.2.2.2.1
  have e1 := (idx_facts t).2.2.2.2.2.2.2.2.2.2.2.2.2.2.2.1
  match a with
  | ⟨0, _⟩ => show win3_7.index t (0 : Fin 2) * 1 + 1 * (y 0).val = (y 0).val; rw [e0]; omega
  | ⟨1, _⟩ => show win3_7.index t (1 : Fin 2) * 256 + 1 * (y 1).val = (y 1).val; rw [e1]; omega

/-- Window 8 is one block, the whole array: a block's index is the array's. -/
theorem emb8 (t : Fin cfg3.N) (y : S1x256.Idx) : (((cfg3.win 8).blk t).view.emb y : S1x256.Idx) = y := by
  funext a; apply Fin.ext
  have e0 := (idx_facts t).2.2.2.2.2.2.2.2.2.2.2.2.2.2.2.2.1
  have e1 := (idx_facts t).2.2.2.2.2.2.2.2.2.2.2.2.2.2.2.2.2.1
  match a with
  | ⟨0, _⟩ => show win3_8.index t (0 : Fin 2) * 1 + 1 * (y 0).val = (y 0).val; rw [e0]; omega
  | ⟨1, _⟩ => show win3_8.index t (1 : Fin 2) * 256 + 1 * (y 1).val = (y 1).val; rw [e1]; omega

/-- The output window's block `t` is rows `2000·t …` of its array. -/
theorem emb9 (t : Fin cfg3.N) (p : Fin 2000) (q : Fin 256) :
    (((cfg3.win 9).blk t).view.emb (ix2 p q) : S50000x256.Idx) = ix2 (row t p) q := by
  funext a; apply Fin.ext
  have e0 := (idx_facts t).2.2.2.2.2.2.2.2.2.2.2.2.2.2.2.2.2.2.1
  have e1 := (idx_facts t).2.2.2.2.2.2.2.2.2.2.2.2.2.2.2.2.2.2.2
  match a with
  | ⟨0, _⟩ => show win3_9.index t (0 : Fin 2) * 2000 + 1 * p.val = t.val * 2000 + p.val; rw [e0]; omega
  | ⟨1, _⟩ => show win3_9.index t (1 : Fin 2) * 256 + 1 * q.val = q.val; rw [e1]; omega

/-! ## The array -/

/-- Entry `(r, q)` of a layer's output, from the feature array, the two weight matrices and the six parameter rows. -/
def outOf (h : S50000x256.Idx → EReal) (w0 : S256x256.Idx → EReal) (b0 : S1x256.Idx → EReal) (w1 : S256x256.Idx → EReal)
    (b1 g be mn vr : S1x256.Idx → EReal) (r : Fin 50000) (q : Fin 256) : EReal :=
  layerEntry (fun k => ∑ j : Fin 256, h (ix2 r j) * w0 (ix2 j k)) (fun k => b0 (ix2 (0 : Fin 1) k)) (fun k q' => w1 (ix2 k q'))
    (fun k => b1 (ix2 (0 : Fin 1) k)) (fun k => g (ix2 (0 : Fin 1) k)) (fun k => be (ix2 (0 : Fin 1) k))
    (fun k => mn (ix2 (0 : Fin 1) k)) (fun k => vr (ix2 (0 : Fin 1) k)) q

section
variable (V : (c : Dev nD) → (b : Ref sig .tc) → Buf (Elt Ideal) ((c : Thread nD τ).loc b))

/-- Entry `(r, q)` of the layer's output, from the arrays the region finds. -/
def outAt (c : Dev nD) (r : Fin 50000) (q : Fin 256) : EReal :=
  outOf (V c main_v136) (V c main_v108) (V c main_v137) (V c main_v112) (V c main_v138) (V c main_v139) (V c main_v140) (V c main_v141) (V c main_v142) r q

/-- The layer's output array. -/
def out (c : Dev nD) : S50000x256.Idx → EReal := fun i => outAt V c (i 0) (i 1)

/-- What point `t` writes back is block `t` of `out`. -/
theorem flushed_eq (c : Dev nD) (t : Fin cfg3.N) :
    (dat3 V c).flushed 9 t = ((cfg3.win 9).blk t).view.read (Elt Ideal) (out V c) := by
  show (cfg3.win 9).cut (grid3.coords t) ((dat3 V c).after 9 t) = _
  rw [after3_9]
  unfold out3_9
  rw [View.canon_unit_zero hz]
  simp only [View.ld_unit_zero (S := S2000x256) hz, View.ld_unit_zero (S := S256x256) hz, View.ld_unit_zero (S := S1x256) hz,
    View.ld_unit_zero (S := S256x256) hz]
  funext y
  obtain ⟨p, q, rfl⟩ : ∃ (p : Fin 2000) (q : Fin 256), y = ix2 p q := ⟨y 0, y 1, eq_ix2 y⟩
  refine (pay_entry (iblk3 V c 0 t) (iblk3 V c 1 t) (iblk3 V c 2 t) (iblk3 V c 3 t) (iblk3 V c 4 t) (iblk3 V c 5 t)
    (iblk3 V c 6 t) (iblk3 V c 7 t) (iblk3 V c 8 t) p q).trans ?_
  have h0 : ∀ j : Fin 256, iblk3 V c 0 t (ix2 p j) = V c main_v136 (ix2 (row t p) j) := fun j => congrArg (V c main_v136) (emb0 t p j)
  have h1 : ∀ y, iblk3 V c 1 t y = V c main_v108 y := fun y => congrArg (V c main_v108) (emb1 t y)
  have h2 : ∀ y, iblk3 V c 2 t y = V c main_v137 y := fun y => congrArg (V c main_v137) (emb2 t y)
  have h3 : ∀ y, iblk3 V c 3 t y = V c main_v112 y := fun y => congrArg (V c main_v112) (emb3 t y)
  have h4 : ∀ y, iblk3 V c 4 t y = V c main_v138 y := fun y => congrArg (V c main_v138) (emb4 t y)
  have h5 : ∀ y, iblk3 V c 5 t y = V c main_v139 y := fun y => congrArg (V c main_v139) (emb5 t y)
  have h6 : ∀ y, iblk3 V c 6 t y = V c main_v140 y := fun y => congrArg (V c main_v140) (emb6 t y)
  have h7 : ∀ y, iblk3 V c 7 t y = V c main_v141 y := fun y => congrArg (V c main_v141) (emb7 t y)
  have h8 : ∀ y, iblk3 V c 8 t y = V c main_v142 y := fun y => congrArg (V c main_v142) (emb8 t y)
  have h9 : out V c (((cfg3.win 9).blk t).view.emb (ix2 p q)) = outAt V c (row t p) q := by rw [emb9]; rfl
  simp only [h0, h1, h2, h3, h4, h5, h6, h7, h8]
  exact h9.symm

/-- An index of the array is in point `t`'s block iff each coordinate is in the block's range on its axis. -/
theorem mem_blk (t : Fin cfg3.N) (i : S50000x256.Idx) :
    i ∈ ((cfg3.win 9).blk t).view.set ↔ ∀ a : Fin 2, win3_9.index t a * S2000x256.size a ≤ (i a).val ∧ (i a).val < win3_9.index t a * S2000x256.size a + S2000x256.size a := by
  show i ∈ ((View.whole main_v143).slice (win3_9.rect t)).set ↔ _
  rw [View.set_slice_whole, Rect.mem_set_unit]
  exact Iff.rfl

/-- Every row is in the block of the point `row / 2000`. -/
theorem cover (i : S50000x256.Idx) : ∃ t : Fin cfg3.N, (cfg3.win 9).flush t = true ∧ i ∈ ((cfg3.win 9).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_9 _, ?_⟩
  rw [mem_blk]
  intro a
  have e0 := (idx_facts ⟨(i 0).val / 2000, by rw [hN]; omega⟩).2.2.2.2.2.2.2.2.2.2.2.2.2.2.2.2.2.2.1
  have e1 := (idx_facts ⟨(i 0).val / 2000, by rw [hN]; omega⟩).2.2.2.2.2.2.2.2.2.2.2.2.2.2.2.2.2.2.2
  match a with
  | ⟨0, _⟩ =>
    show win3_9.index ⟨(i 0).val / 2000, _⟩ (0 : Fin 2) * 2000 ≤ (i 0).val ∧ (i 0).val < win3_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win3_9.index ⟨(i 0).val / 2000, _⟩ (1 : Fin 2) * 256 ≤ (i 1).val ∧ (i 1).val < win3_9.index ⟨(i 0).val / 2000, _⟩ (1 : Fin 2) * 256 + 256
    rw [e1]; omega

/-- The output array after the region. -/
theorem final (c : Dev nD) : (dat3 V c).arrAt 9 cfg3.N = out V c :=
  (dat3 V c).arrAt_eq_of_cover 9 (out V c) (fun t _ => flushed_eq V c t) cover

end

end Cert.KernelIdeal.Layer3

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KerHead.lean ====
/-
  Region 4: the array the classifier kernel leaves, as one function of the arrays it found.

  The kernel has one grid point and every window is its whole array. Entry `(i, j)` of what it stores is the
  log-softmax at `j` of graph `i`'s row of logits (`Cert.Gin.logSoftmax` of `Cert.Gin.logit`): the two products are
  sums over the contracted column, the row maximum is the fold of `max` from `−∞` over the row, compared once more
  with `−∞`, and the row sum of exponentials is a plain sum; the three keep-as-a-column steps read a row's one value.
-/
import proofs.«149134_j49194555408764_1_alg».proof.Proof.Gen.KernelIdeal.Frame
import proofs.«149134_j49194555408764_1_alg».proof.Proof.GinSpec
import proofs.«149134_j49194555408764_1_alg».proof.Proof.LibPlainDot
import proofs.«149134_j49194555408764_1_alg».proof.Proof.LibKeepdims
import Idealize.ShloMosaic.Lib.ValueLayout
import Idealize.ShloMosaic.Lib.Pipeline.Value

set_option maxRecDepth 16384

noncomputable section

open scoped BigOperators

namespace Cert.KernelIdeal.Head

open Cert.KernelIdeal Cert.KernelIdeal.Gen Cert.Gin
open Idealize.ShloMosaic Idealize.ShloMosaic.TcCoe Idealize.ShloMosaic.ValueIdx Idealize.ShloMosaic.ValueKeepdims Idealize.SL.Sem
open Idealize.ShloMosaic.Pipeline (Dat Cfg Window)

/-! ## The stored value at an entry -/

theorem dimsA : dot_S256x256_S256x256_S256x256_1_0_0_1_n_n = DotDims.plain 256 256 256 := rfl
theorem dimsB : dot_S256x256_S256x10_S256x10_1_0_0_1_n_n = DotDims.plain 256 256 10 := rfl

theorem exp_at {s : Shape} {φ : FTy} (x : FVec Ideal s φ) (i : s.Idx) : exp x i = Ideal.exp (x i) := rfl
theorem log_at {s : Shape} {φ : FTy} (x : FVec Ideal s φ) (i : s.Idx) : log x i = Ideal.log (x i) := rfl

/-- The log-softmax as the body computes it from a block of logits `Lg`, at `(i, j)`: the row maximum is the fold of
    `max` from `−∞` over the row, the row sum of exponentials a plain sum, each kept as a column and spread back. -/
theorem lsm_entry (Lg : FVec Ideal S256x10 .f32) (i : Fin 256) (j : Fin 10) :
    subf (subf Lg (broadcastTo S256x10 (shapeCast S256x1 (maximumf (broadcast S256 (Scalar.ofBits (F := Ideal) .f32 0xFF800000#32)) (multiReduction .maximumf [1] S256 Lg 0xFF800000#32 reduces_S256x10_S256 (.inl rfl) rfl)) shapeCasts_S256_S256x1) broadcasts_S256x1_S256x10))
      (broadcastTo S256x10 (log (shapeCast S256x1 (multiReduction .add [1] S256 (exp (subf Lg (broadcastTo S256x10 (shapeCast S256x1 (maximumf (broadcast S256 (Scalar.ofBits (F := Ideal) .f32 0xFF800000#32)) (multiReduction .maximumf [1] S256 Lg 0xFF800000#32 reduces_S256x10_S256 (.inl rfl) rfl)) shapeCasts_S256_S256x1) broadcasts_S256x1_S256x10))) 0x00000000#32 reduces_S256x10_S256 (.inl rfl) rfl)
        shapeCasts_S256_S256x1)) broadcasts_S256x1_S256x10) (ix2 i j)
      = logSoftmax (fun k => Lg (ix2 i k)) j := by
  have hmax : ∀ i : Fin 256, multiReduction .maximumf [1] S256 Lg 0xFF800000#32 reduces_S256x10_S256 (.inl rfl) rfl (ix1 i)
      = (Finset.univ : Finset (Fin 10)).fold max (Ideal.ofBits .f32 0xFF800000#32) (fun k => Lg (ix2 i k)) :=
    fun i => multiReduction_maximumf_row Lg _ _ _ _ i
  have hsum : ∀ (X : FVec Ideal S256x10 .f32) (i : Fin 256),
      multiReduction .add [1] S256 X 0x00000000#32 reduces_S256x10_S256 (.inl rfl) rfl (ix1 i) = ∑ k : Fin 10, X (ix2 i k) :=
    fun X i => multiReduction_add_row X _ _ _ _ i
  unfold logSoftmax shifted
  simp only [subf_apply, maximumf_apply, broadcast_apply, exp_at, log_at, broadcastTo_a1_ab_apply, shapeCast_a_a1_apply, hmax, hsum]
  rfl

/-- Entry `(i, j)` of what the body stores, from the blocks it loads. -/
theorem pay_entry (x0 x1 : Vec Ideal S256x256 .f32) (x2 : Vec Ideal S1x256 .f32) (x3 : Vec Ideal S256x10 .f32) (x4 : Vec Ideal S1x10 .f32)
    (i : Fin 256) (j : Fin 10) :
    k4_pay1 (F := Ideal) x0 x1 x2 x3 x4 (ix2 i j)
      = logSoftmax (logit (fun k => ∑ l : Fin 256, x0 (ix2 i l) * x1 (ix2 l k)) (fun k => x2 (ix2 (0 : Fin 1) k)) (fun k j' => x3 (ix2 k j'))
          (fun j' => x4 (ix2 (0 : Fin 1) j'))) j := by
  unfold k4_pay1
  refine (lsm_entry _ i j).trans ?_
  refine congrArg (fun L => logSoftmax L j) (funext fun k => ?_)
  unfold logit
  simp only [dimsA, dimsB, shapeCast_self]
  simp only [addf_apply, maximumf_apply, broadcast_apply, truncf_apply, broadcastTo_1b_ab_apply, Cert.Lib.PlainDot.matmul_zero_apply]
  rfl

/-! ## The one block -/

theorem hz : (![0, 0] : Fin 2 → Nat) = fun _ => 0 := funext fun a => by fin_cases a <;> rfl

/-- The printed index maps, decided over the one point: every window is on its block 0. -/
theorem idx_facts : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0 :=
  (by decide +kernel : ∀ t : Fin grid4.N, _)

theorem emb0 (t : Fin cfg4.N) (y : S256x256.Idx) : (((cfg4.win 0).blk t).view.emb y : S256x256.Idx) = y := by
  funext a; apply Fin.ext
  have e0 := (idx_facts t).1
  have e1 := (idx_facts t).2.1
  match a with
  | ⟨0, _⟩ => show win4_0.index t (0 : Fin 2) * 256 + 1 * (y 0).val = (y 0).val; rw [e0]; omega
  | ⟨1, _⟩ => show win4_0.index t (1 : Fin 2) * 256 + 1 * (y 1).val = (y 1).val; rw [e1]; omega

theorem emb1 (t : Fin cfg4.N) (y : S256x256.Idx) : (((cfg4.win 1).blk t).view.emb y : S256x256.Idx) = y := by
  funext a; apply Fin.ext
  have e0 := (idx_facts t).2.2.1
  have e1 := (idx_facts t).2.2.2.1
  match a with
  | ⟨0, _⟩ => show win4_1.index t (0 : Fin 2) * 256 + 1 * (y 0).val = (y 0).val; rw [e0]; omega
  | ⟨1, _⟩ => show win4_1.index t (1 : Fin 2) * 256 + 1 * (y 1).val = (y 1).val; rw [e1]; omega

theorem emb2 (t : Fin cfg4.N) (y : S1x256.Idx) : (((cfg4.win 2).blk t).view.emb y : S1x256.Idx) = y := by
  funext a; apply Fin.ext
  have e0 := (idx_facts t).2.2.2.2.1
  have e1 := (idx_facts t).2.2.2.2.2.1
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

theorem emb3 (t : Fin cfg4.N) (y : S256x10.Idx) : (((cfg4.win 3).blk t).view.emb y : S256x10.Idx) = y := by
  funext a; apply Fin.ext
  have e0 := (idx_facts t).2.2.2.2.2.2.1
  have e1 := (idx_facts t).2.2.2.2.2.2.2.1
  match a with
  | ⟨0, _⟩ => show win4_3.index t (0 : Fin 2) * 256 + 1 * (y 0).val = (y 0).val; rw [e0]; omega
  | ⟨1, _⟩ => show win4_3.index t (1 : Fin 2) * 10 + 1 * (y 1).val = (y 1).val; rw [e1]; omega

theorem emb4 (t : Fin cfg4.N) (y : S1x10.Idx) : (((cfg4.win 4).blk t).view.emb y : S1x10.Idx) = y := by
  funext a; apply Fin.ext
  have e0 := (idx_facts t).2.2.2.2.2.2.2.2.1
  have e1 := (idx_facts t).2.2.2.2.2.2.2.2.2.1
  match a with
  | ⟨0, _⟩ => show win4_4.index t (0 : Fin 2) * 1 + 1 * (y 0).val = (y 0).val; rw [e0]; omega
  | ⟨1, _⟩ => show win4_4.index t (1 : Fin 2) * 10 + 1 * (y 1).val = (y 1).val; rw [e1]; omega

theorem emb5 (t : Fin cfg4.N) (y : S256x10.Idx) : (((cfg4.win 5).blk t).view.emb y : S256x10.Idx) = y := by
  funext a; apply Fin.ext
  have e0 := (idx_facts t).2.2.2.2.2.2.2.2.2.2.1
  have e1 := (idx_facts t).2.2.2.2.2.2.2.2.2.2.2
  match a with
  | ⟨0, _⟩ => show win4_5.index t (0 : Fin 2) * 256 + 1 * (y 0).val = (y 0).val; rw [e0]; omega
  | ⟨1, _⟩ => show win4_5.index t (1 : Fin 2) * 10 + 1 * (y 1).val = (y 1).val; rw [e1]; omega

/-! ## The array -/

/-- Entry `(i, j)` of the classifier's output, from the pooled rows, the two weight matrices and the two bias rows. -/
def outOf (x : S256x256.Idx → EReal) (v1 : S256x256.Idx → EReal) (c1 : S1x256.Idx → EReal) (v2 : S256x10.Idx → EReal) (c2 : S1x10.Idx → EReal)
    (i : Fin 256) (j : Fin 10) : EReal :=
  logSoftmax (logit (fun k => ∑ l : Fin 256, x (ix2 i l) * v1 (ix2 l k)) (fun k => c1 (ix2 (0 : Fin 1) k)) (fun k j' => v2 (ix2 k j'))
    (fun j' => c2 (ix2 (0 : Fin 1) j'))) j

section
variable (V : (c : Dev nD) → (b : Ref sig .tc) → Buf (Elt Ideal) ((c : Thread nD τ).loc b))

/-- Entry `(i, j)` of the classifier's output, from the arrays the region finds. -/
def outAt (c : Dev nD) (i : Fin 256) (j : Fin 10) : EReal :=
  outOf (V c main_v155) (V c main_arg20) (V c main_v156) (V c main_arg22) (V c main_v157) i j

def out (c : Dev nD) : S256x10.Idx → EReal := fun i => outAt V c (i 0) (i 1)

/-- What the one point writes back is `out`, whole. -/
theorem flushed_eq (c : Dev nD) (t : Fin cfg4.N) :
    (dat4 V c).flushed 5 t = ((cfg4.win 5).blk t).view.read (Elt Ideal) (out V c) := by
  show (cfg4.win 5).cut (grid4.coords t) ((dat4 V c).after 5 t) = _
  rw [after4_5]
  unfold out4_5
  rw [View.canon_unit_zero hz]
  simp only [View.ld_unit_zero (S := S256x256) hz, View.ld_unit_zero (S := S1x256) hz, View.ld_unit_zero (S := S256x10) hz,
    View.ld_unit_zero (S := S1x10) hz]
  funext y
  obtain ⟨i, j, rfl⟩ : ∃ (i : Fin 256) (j : Fin 10), y = ix2 i j := ⟨y 0, y 1, eq_ix2 y⟩
  refine (pay_entry (iblk4 V c 0 t) (iblk4 V c 1 t) (iblk4 V c 2 t) (iblk4 V c 3 t) (iblk4 V c 4 t) i j).trans ?_
  have h0 : ∀ y, iblk4 V c 0 t y = V c main_v155 y := fun y => congrArg (V c main_v155) (emb0 t y)
  have h1 : ∀ y, iblk4 V c 1 t y = V c main_arg20 y := fun y => congrArg (V c main_arg20) (emb1 t y)
  have h2 : ∀ y, iblk4 V c 2 t y = V c main_v156 y := fun y => congrArg (V c main_v156) (emb2 t y)
  have h3 : ∀ y, iblk4 V c 3 t y = V c main_arg22 y := fun y => congrArg (V c main_arg22) (emb3 t y)
  have h4 : ∀ y, iblk4 V c 4 t y = V c main_v157 y := fun y => congrArg (V c main_v157) (emb4 t y)
  have h5 : out V c (((cfg4.win 5).blk t).view.emb (ix2 i j)) = outAt V c i j := by rw [emb5]; rfl
  simp only [h0, h1, h2, h3, h4]
  exact h5.symm

theorem mem_blk (t : Fin cfg4.N) (i : S256x10.Idx) :
    i ∈ ((cfg4.win 5).blk t).view.set ↔ ∀ a : Fin 2, win4_5.index t a * S256x10.size a ≤ (i a).val ∧ (i a).val < win4_5.index t a * S256x10.size a + S256x10.size a := by
  show i ∈ ((View.whole main_v158).slice (win4_5.rect t)).set ↔ _
  rw [View.set_slice_whole, Rect.mem_set_unit]
  exact Iff.rfl

theorem flush4_5' : ∀ t : Fin cfg4.N, (cfg4.win 5).flush t = true :=
  (by decide +kernel : ∀ t : Fin grid4.N, win4_5.flush t = true)

theorem cover (i : S256x10.Idx) : ∃ t : Fin cfg4.N, (cfg4.win 5).flush t = true ∧ i ∈ ((cfg4.win 5).blk t).view.set := by
  have hi0 : (i 0).val < 256 := (i 0).isLt
  have hi1 : (i 1).val < 10 := (i 1).isLt
  refine ⟨t4_0, flush4_5' _, ?_⟩
  rw [mem_blk]
  intro a
  have e0 := (idx_facts t4_0).2.2.2.2.2.2.2.2.2.2.1
  have e1 := (idx_facts t4_0).2.2.2.2.2.2.2.2.2.2.2
  match a with
  | ⟨0, _⟩ => show win4_5.index t4_0 (0 : Fin 2) * 256 ≤ (i 0).val ∧ (i 0).val < win4_5.index t4_0 (0 : Fin 2) * 256 + 256; rw [e0]; omega
  | ⟨1, _⟩ => show win4_5.index t4_0 (1 : Fin 2) * 10 ≤ (i 1).val ∧ (i 1).val < win4_5.index t4_0 (1 : Fin 2) * 10 + 10; rw [e1]; omega

/-- The output array after the region. -/
theorem final (c : Dev nD) : (dat4 V c).arrAt 5 cfg4.N = out V c :=
  (dat4 V c).arrAt_eq_of_cover 5 (out V c) (fun t _ => flushed_eq V c t) cover

end

end Cert.KernelIdeal.Head

end
-- ==== Proof.RefLayer1.lean ====
/-
  The reference's layer 1 at an entry.

  Its output stage, read at row `r` and column `q` one operation at a time, is `Cert.Gin.layerEntry` of row `r` of
  the first product: the two `dot_general`s are sums over the contracted column, every parameter vector is spread
  over the rows by two broadcasts that read it at `q`, the two `relu`s are maxima with the zero word, and the host's
  `rsqrt` is the one function `rsqrt` of the extended reals.
-/
import proofs.«149134_j49194555408764_1_alg».proof.Proof.RefRead
import proofs.«149134_j49194555408764_1_alg».proof.Proof.GinSpec

set_option maxRecDepth 16384

noncomputable section

open scoped BigOperators

namespace Cert.ReferenceIdeal.Layer1

open Cert.ReferenceIdeal Cert.ReferenceIdeal.Read Cert.Gin
open Idealize.ShloMosaic Idealize.ShloMosaic.ValueIdx

/-! ## Which element each layout step reads -/

theorem l_main_v20 (r : Fin 50000) (k : Fin 256) (j : Fin 128) : lidx_main_v20 (ix2 r k) j = ix2 r j := funext fun a => Fin.ext (by match a with | ⟨0, _⟩ => rfl | ⟨1, _⟩ => rfl)
theorem r_main_v20 (r : Fin 50000) (k : Fin 256) (j : Fin 128) : ridx_main_v20 (ix2 r k) j = ix2 j k := funext fun a => Fin.ext (by match a with | ⟨0, _⟩ => rfl | ⟨1, _⟩ => rfl)
theorem l_main_v25 (r : Fin 50000) (q : Fin 256) (k : Fin 256) : lidx_main_v25 (ix2 r q) k = ix2 r k := funext fun a => Fin.ext (by match a with | ⟨0, _⟩ => rfl | ⟨1, _⟩ => rfl)
theorem r_main_v25 (r : Fin 50000) (q : Fin 256) (k : Fin 256) : ridx_main_v25 (ix2 r q) k = ix2 k q := funext fun a => Fin.ext (by match a with | ⟨0, _⟩ => rfl | ⟨1, _⟩ => rfl)
theorem i_main_v21 (u : Fin 1) (q : Fin 256) : idx_main_v21 (ix2 u q) = ix1 q := funext fun a => Fin.ext (by match a with | ⟨0, _⟩ => rfl)
theorem i_main_v26 (u : Fin 1) (q : Fin 256) : idx_main_v26 (ix2 u q) = ix1 q := funext fun a => Fin.ext (by match a with | ⟨0, _⟩ => rfl)
theorem i_main_v30 (u : Fin 1) (q : Fin 256) : idx_main_v30 (ix2 u q) = ix1 q := funext fun a => Fin.ext (by match a with | ⟨0, _⟩ => rfl)
theorem i_main_v36 (u : Fin 1) (q : Fin 256) : idx_main_v36 (ix2 u q) = ix1 q := funext fun a => Fin.ext (by match a with | ⟨0, _⟩ => rfl)
theorem i_main_v39 (u : Fin 1) (q : Fin 256) : idx_main_v39 (ix2 u q) = ix1 q := funext fun a => Fin.ext (by match a with | ⟨0, _⟩ => rfl)
theorem i_main_v42 (u : Fin 1) (q : Fin 256) : idx_main_v42 (ix2 u q) = ix1 q := funext fun a => Fin.ext (by match a with | ⟨0, _⟩ => rfl)
theorem i_main_v22 (r : Fin 50000) (q : Fin 256) : idx_main_v22 (ix2 r q) = ix2 (0 : Fin 1) q := funext fun a => Fin.ext (by match a with | ⟨0, _⟩ => rfl | ⟨1, _⟩ => rfl)
theorem i_main_v27 (r : Fin 50000) (q : Fin 256) : idx_main_v27 (ix2 r q) = ix2 (0 : Fin 1) q := funext fun a => Fin.ext (by match a with | ⟨0, _⟩ => rfl | ⟨1, _⟩ => rfl)
theorem i_main_v31 (r : Fin 50000) (q : Fin 256) : idx_main_v31 (ix2 r q) = ix2 (0 : Fin 1) q := funext fun a => Fin.ext (by match a with | ⟨0, _⟩ => rfl | ⟨1, _⟩ => rfl)
theorem i_main_v37 (r : Fin 50000) (q : Fin 256) : idx_main_v37 (ix2 r q) = ix2 (0 : Fin 1) q := funext fun a => Fin.ext (by match a with | ⟨0, _⟩ => rfl | ⟨1, _⟩ => rfl)
theorem i_main_v40 (r : Fin 50000) (q : Fin 256) : idx_main_v40 (ix2 r q) = ix2 (0 : Fin 1) q := funext fun a => Fin.ext (by match a with | ⟨0, _⟩ => rfl | ⟨1, _⟩ => rfl)
theorem i_main_v43 (r : Fin 50000) (q : Fin 256) : idx_main_v43 (ix2 r q) = ix2 (0 : Fin 1) q := funext fun a => Fin.ext (by match a with | ⟨0, _⟩ => rfl | ⟨1, _⟩ => rfl)

/-! ## The stage at an entry -/

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S3x256x256, .f32⟩ : BufTy).Contents (Elt Ideal)) (x12 : (⟨S3x256, .f32⟩ : BufTy).Contents (Elt Ideal)) (x13 : (⟨S3x256x256, .f32⟩ : BufTy).Contents (Elt Ideal)) (x14 : (⟨S3x256, .f32⟩ : BufTy).Contents (Elt Ideal)) (x15 : (⟨S3x256, .f32⟩ : BufTy).Contents (Elt Ideal)) (x16 : (⟨S3x256, .f32⟩ : BufTy).Contents (Elt Ideal)) (x17 : (⟨S3x256, .f32⟩ : BufTy).Contents (Elt Ideal)) (x18 : (⟨S3x256, .f32⟩ : BufTy).Contents (Elt Ideal)) (x19 : (⟨S4, .f32⟩ : BufTy).Contents (Elt Ideal))

theorem entry (r : Fin 50000) (q : Fin 256) :
    (val_main_v44 (F := Ideal) x0 x1 x3 x4 x5 x6 x7 x8 x9 x10 x19) (ix2 r q)
      = layerEntry (fun k => ∑ j : Fin 128, (val_main_v19 (F := Ideal) x0 x1 x19) (ix2 r j) * x3 (ix2 j k)) (fun k => x4 (ix1 k)) (fun k q' => x5 (ix2 k q'))
          (fun k => x6 (ix1 k)) (fun k => x7 (ix1 k)) (fun k => x8 (ix1 k)) (fun k => x9 (ix1 k)) (fun k => x10 (ix1 k)) q := by
  unfold layerEntry
  simp only [val_main_v20_apply, val_main_v21_apply, val_main_v22_apply, val_main_v23_apply, val_main_call0_cst_apply, val_main_call0_v0_apply, val_main_v24_apply, val_main_v25_apply, val_main_v26_apply, val_main_v27_apply, val_main_v28_apply, val_main_call1_cst_apply, val_main_call1_v0_apply, val_main_v29_apply, val_main_v30_apply, val_main_v31_apply, val_main_v32_apply, val_main_cst_2_apply, val_main_v33_apply, val_main_v34_apply, val_main_v35_apply, val_main_v36_apply, val_main_v37_apply, val_main_v38_apply, val_main_v39_apply, val_main_v40_apply, val_main_v41_apply, val_main_v42_apply, val_main_v43_apply, val_main_v44_apply,
    l_main_v20, r_main_v20, l_main_v25, r_main_v25, i_main_v21, i_main_v26, i_main_v30, i_main_v36, i_main_v39, i_main_v42, i_main_v22, i_main_v27, i_main_v31, i_main_v37, i_main_v40, i_main_v43]
  rfl

end Cert.ReferenceIdeal.Layer1

end
-- ==== Proof.RefLayer2.lean ====
/-
  The reference's layer 2 at an entry.

  Its output stage, read at row `r` and column `q` one operation at a time, is `Cert.Gin.layerEntry` of row `r` of
  the first product: the two `dot_general`s are sums over the contracted column, every parameter vector is spread
  over the rows by two broadcasts that read it at `q`, the two `relu`s are maxima with the zero word, and the host's
  `rsqrt` is the one function `rsqrt` of the extended reals.
-/
import proofs.«149134_j49194555408764_1_alg».proof.Proof.RefRead
import proofs.«149134_j49194555408764_1_alg».proof.Proof.GinSpec

set_option maxRecDepth 16384

noncomputable section

open scoped BigOperators

namespace Cert.ReferenceIdeal.Layer2

open Cert.ReferenceIdeal Cert.ReferenceIdeal.Read Cert.Gin
open Idealize.ShloMosaic Idealize.ShloMosaic.ValueIdx

/-! ## Which element each layout step reads -/

theorem l_main_v77 (r : Fin 50000) (k : Fin 256) (j : Fin 256) : lidx_main_v77 (ix2 r k) j = ix2 r j := funext fun a => Fin.ext (by match a with | ⟨0, _⟩ => rfl | ⟨1, _⟩ => rfl)
theorem r_main_v77 (r : Fin 50000) (k : Fin 256) (j : Fin 256) : ridx_main_v77 (ix2 r k) j = ix2 j k := funext fun a => Fin.ext (by match a with | ⟨0, _⟩ => rfl | ⟨1, _⟩ => rfl)
theorem l_main_v82 (r : Fin 50000) (q : Fin 256) (k : Fin 256) : lidx_main_v82 (ix2 r q) k = ix2 r k := funext fun a => Fin.ext (by match a with | ⟨0, _⟩ => rfl | ⟨1, _⟩ => rfl)
theorem r_main_v82 (r : Fin 50000) (q : Fin 256) (k : Fin 256) : ridx_main_v82 (ix2 r q) k = ix2 k q := funext fun a => Fin.ext (by match a with | ⟨0, _⟩ => rfl | ⟨1, _⟩ => rfl)
theorem i_main_v78 (u : Fin 1) (q : Fin 256) : idx_main_v78 (ix2 u q) = ix1 q := funext fun a => Fin.ext (by match a with | ⟨0, _⟩ => rfl)
theorem i_main_v83 (u : Fin 1) (q : Fin 256) : idx_main_v83 (ix2 u q) = ix1 q := funext fun a => Fin.ext (by match a with | ⟨0, _⟩ => rfl)
theorem i_main_v87 (u : Fin 1) (q : Fin 256) : idx_main_v87 (ix2 u q) = ix1 q := funext fun a => Fin.ext (by match a with | ⟨0, _⟩ => rfl)
theorem i_main_v93 (u : Fin 1) (q : Fin 256) : idx_main_v93 (ix2 u q) = ix1 q := funext fun a => Fin.ext (by match a with | ⟨0, _⟩ => rfl)
theorem i_main_v96 (u : Fin 1) (q : Fin 256) : idx_main_v96 (ix2 u q) = ix1 q := funext fun a => Fin.ext (by match a with | ⟨0, _⟩ => rfl)
theorem i_main_v99 (u : Fin 1) (q : Fin 256) : idx_main_v99 (ix2 u q) = ix1 q := funext fun a => Fin.ext (by match a with | ⟨0, _⟩ => rfl)
theorem i_main_v79 (r : Fin 50000) (q : Fin 256) : idx_main_v79 (ix2 r q) = ix2 (0 : Fin 1) q := funext fun a => Fin.ext (by match a with | ⟨0, _⟩ => rfl | ⟨1, _⟩ => rfl)
theorem i_main_v84 (r : Fin 50000) (q : Fin 256) : idx_main_v84 (ix2 r q) = ix2 (0 : Fin 1) q := funext fun a => Fin.ext (by match a with | ⟨0, _⟩ => rfl | ⟨1, _⟩ => rfl)
theorem i_main_v88 (r : Fin 50000) (q : Fin 256) : idx_main_v88 (ix2 r q) = ix2 (0 : Fin 1) q := funext fun a => Fin.ext (by match a with | ⟨0, _⟩ => rfl | ⟨1, _⟩ => rfl)
theorem i_main_v94 (r : Fin 50000) (q : Fin 256) : idx_main_v94 (ix2 r q) = ix2 (0 : Fin 1) q := funext fun a => Fin.ext (by match a with | ⟨0, _⟩ => rfl | ⟨1, _⟩ => rfl)
theorem i_main_v97 (r : Fin 50000) (q : Fin 256) : idx_main_v97 (ix2 r q) = ix2 (0 : Fin 1) q := funext fun a => Fin.ext (by match a with | ⟨0, _⟩ => rfl | ⟨1, _⟩ => rfl)
theorem i_main_v100 (r : Fin 50000) (q : Fin 256) : idx_main_v100 (ix2 r q) = ix2 (0 : Fin 1) q := funext fun a => Fin.ext (by match a with | ⟨0, _⟩ => rfl | ⟨1, _⟩ => rfl)

/-! ## The stage at an entry -/

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S3x256x256, .f32⟩ : BufTy).Contents (Elt Ideal)) (x12 : (⟨S3x256, .f32⟩ : BufTy).Contents (Elt Ideal)) (x13 : (⟨S3x256x256, .f32⟩ : BufTy).Contents (Elt Ideal)) (x14 : (⟨S3x256, .f32⟩ : BufTy).Contents (Elt Ideal)) (x15 : (⟨S3x256, .f32⟩ : BufTy).Contents (Elt Ideal)) (x16 : (⟨S3x256, .f32⟩ : BufTy).Contents (Elt Ideal)) (x17 : (⟨S3x256, .f32⟩ : BufTy).Contents (Elt Ideal)) (x18 : (⟨S3x256, .f32⟩ : BufTy).Contents (Elt Ideal)) (x19 : (⟨S4, .f32⟩ : BufTy).Contents (Elt Ideal))

theorem entry (r : Fin 50000) (q : Fin 256) :
    (val_main_v101 (F := Ideal) x0 x1 x3 x4 x5 x6 x7 x8 x9 x10 x11 x12 x13 x14 x15 x16 x17 x18 x19) (ix2 r q)
      = layerEntry (fun k => ∑ j : Fin 256, (val_main_v76 (F := Ideal) x0 x1 x3 x4 x5 x6 x7 x8 x9 x10 x19) (ix2 r j) * (val_main_v48 (F := Ideal) x11) (ix2 j k)) (fun k => (val_main_v50 (F := Ideal) x12) (ix1 k)) (fun k q' => (val_main_v52 (F := Ideal) x13) (ix2 k q'))
          (fun k => (val_main_v54 (F := Ideal) x14) (ix1 k)) (fun k => (val_main_v56 (F := Ideal) x15) (ix1 k)) (fun k => (val_main_v58 (F := Ideal) x16) (ix1 k)) (fun k => (val_main_v60 (F := Ideal) x17) (ix1 k)) (fun k => (val_main_v62 (F := Ideal) x18) (ix1 k)) q := by
  unfold layerEntry
  simp only [val_main_v77_apply, val_main_v78_apply, val_main_v79_apply, val_main_v80_apply, val_main_call2_cst_apply, val_main_call2_v0_apply, val_main_v81_apply, val_main_v82_apply, val_main_v83_apply, val_main_v84_apply, val_main_v85_apply, val_main_call3_cst_apply, val_main_call3_v0_apply, val_main_v86_apply, val_main_v87_apply, val_main_v88_apply, val_main_v89_apply, val_main_cst_7_apply, val_main_v90_apply, val_main_v91_apply, val_main_v92_apply, val_main_v93_apply, val_main_v94_apply, val_main_v95_apply, val_main_v96_apply, val_main_v97_apply, val_main_v98_apply, val_main_v99_apply, val_main_v100_apply, val_main_v101_apply,
    l_main_v77, r_main_v77, l_main_v82, r_main_v82, i_main_v78, i_main_v83, i_main_v87, i_main_v93, i_main_v96, i_main_v99, i_main_v79, i_main_v84, i_main_v88, i_main_v94, i_main_v97, i_main_v100]
  rfl

end Cert.ReferenceIdeal.Layer2

end
-- ==== Proof.RefLayer3.lean ====
/-
  The reference's layer 3 at an entry.

  Its output stage, read at row `r` and column `q` one operation at a time, is `Cert.Gin.layerEntry` of row `r` of
  the first product: the two `dot_general`s are sums over the contracted column, every parameter vector is spread
  over the rows by two broadcasts that read it at `q`, the two `relu`s are maxima with the zero word, and the host's
  `rsqrt` is the one function `rsqrt` of the extended reals.
-/
import proofs.«149134_j49194555408764_1_alg».proof.Proof.RefRead
import proofs.«149134_j49194555408764_1_alg».proof.Proof.GinSpec

set_option maxRecDepth 16384

noncomputable section

open scoped BigOperators

namespace Cert.ReferenceIdeal.Layer3

open Cert.ReferenceIdeal Cert.ReferenceIdeal.Read Cert.Gin
open Idealize.ShloMosaic Idealize.ShloMosaic.ValueIdx

/-! ## Which element each layout step reads -/

theorem l_main_v134 (r : Fin 50000) (k : Fin 256) (j : Fin 256) : lidx_main_v134 (ix2 r k) j = ix2 r j := funext fun a => Fin.ext (by match a with | ⟨0, _⟩ => rfl | ⟨1, _⟩ => rfl)
theorem r_main_v134 (r : Fin 50000) (k : Fin 256) (j : Fin 256) : ridx_main_v134 (ix2 r k) j = ix2 j k := funext fun a => Fin.ext (by match a with | ⟨0, _⟩ => rfl | ⟨1, _⟩ => rfl)
theorem l_main_v139 (r : Fin 50000) (q : Fin 256) (k : Fin 256) : lidx_main_v139 (ix2 r q) k = ix2 r k := funext fun a => Fin.ext (by match a with | ⟨0, _⟩ => rfl | ⟨1, _⟩ => rfl)
theorem r_main_v139 (r : Fin 50000) (q : Fin 256) (k : Fin 256) : ridx_main_v139 (ix2 r q) k = ix2 k q := funext fun a => Fin.ext (by match a with | ⟨0, _⟩ => rfl | ⟨1, _⟩ => rfl)
theorem i_main_v135 (u : Fin 1) (q : Fin 256) : idx_main_v135 (ix2 u q) = ix1 q := funext fun a => Fin.ext (by match a with | ⟨0, _⟩ => rfl)
theorem i_main_v140 (u : Fin 1) (q : Fin 256) : idx_main_v140 (ix2 u q) = ix1 q := funext fun a => Fin.ext (by match a with | ⟨0, _⟩ => rfl)
theorem i_main_v144 (u : Fin 1) (q : Fin 256) : idx_main_v144 (ix2 u q) = ix1 q := funext fun a => Fin.ext (by match a with | ⟨0, _⟩ => rfl)
theorem i_main_v150 (u : Fin 1) (q : Fin 256) : idx_main_v150 (ix2 u q) = ix1 q := funext fun a => Fin.ext (by match a with | ⟨0, _⟩ => rfl)
theorem i_main_v153 (u : Fin 1) (q : Fin 256) : idx_main_v153 (ix2 u q) = ix1 q := funext fun a => Fin.ext (by match a with | ⟨0, _⟩ => rfl)
theorem i_main_v156 (u : Fin 1) (q : Fin 256) : idx_main_v156 (ix2 u q) = ix1 q := funext fun a => Fin.ext (by match a with | ⟨0, _⟩ => rfl)
theorem i_main_v136 (r : Fin 50000) (q : Fin 256) : idx_main_v136 (ix2 r q) = ix2 (0 : Fin 1) q := funext fun a => Fin.ext (by match a with | ⟨0, _⟩ => rfl | ⟨1, _⟩ => rfl)
theorem i_main_v141 (r : Fin 50000) (q : Fin 256) : idx_main_v141 (ix2 r q) = ix2 (0 : Fin 1) q := funext fun a => Fin.ext (by match a with | ⟨0, _⟩ => rfl | ⟨1, _⟩ => rfl)
theorem i_main_v145 (r : Fin 50000) (q : Fin 256) : idx_main_v145 (ix2 r q) = ix2 (0 : Fin 1) q := funext fun a => Fin.ext (by match a with | ⟨0, _⟩ => rfl | ⟨1, _⟩ => rfl)
theorem i_main_v151 (r : Fin 50000) (q : Fin 256) : idx_main_v151 (ix2 r q) = ix2 (0 : Fin 1) q := funext fun a => Fin.ext (by match a with | ⟨0, _⟩ => rfl | ⟨1, _⟩ => rfl)
theorem i_main_v154 (r : Fin 50000) (q : Fin 256) : idx_main_v154 (ix2 r q) = ix2 (0 : Fin 1) q := funext fun a => Fin.ext (by match a with | ⟨0, _⟩ => rfl | ⟨1, _⟩ => rfl)
theorem i_main_v157 (r : Fin 50000) (q : Fin 256) : idx_main_v157 (ix2 r q) = ix2 (0 : Fin 1) q := funext fun a => Fin.ext (by match a with | ⟨0, _⟩ => rfl | ⟨1, _⟩ => rfl)

/-! ## The stage at an entry -/

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S3x256x256, .f32⟩ : BufTy).Contents (Elt Ideal)) (x12 : (⟨S3x256, .f32⟩ : BufTy).Contents (Elt Ideal)) (x13 : (⟨S3x256x256, .f32⟩ : BufTy).Contents (Elt Ideal)) (x14 : (⟨S3x256, .f32⟩ : BufTy).Contents (Elt Ideal)) (x15 : (⟨S3x256, .f32⟩ : BufTy).Contents (Elt Ideal)) (x16 : (⟨S3x256, .f32⟩ : BufTy).Contents (Elt Ideal)) (x17 : (⟨S3x256, .f32⟩ : BufTy).Contents (Elt Ideal)) (x18 : (⟨S3x256, .f32⟩ : BufTy).Contents (Elt Ideal)) (x19 : (⟨S4, .f32⟩ : BufTy).Contents (Elt Ideal))

theorem entry (r : Fin 50000) (q : Fin 256) :
    (val_main_v158 (F := Ideal) x0 x1 x3 x4 x5 x6 x7 x8 x9 x10 x11 x12 x13 x14 x15 x16 x17 x18 x19) (ix2 r q)
      = layerEntry (fun k => ∑ j : Fin 256, (val_main_v133 (F := Ideal) x0 x1 x3 x4 x5 x6 x7 x8 x9 x10 x11 x12 x13 x14 x15 x16 x17 x18 x19) (ix2 r j) * (val_main_v105 (F := Ideal) x11) (ix2 j k)) (fun k => (val_main_v107 (F := Ideal) x12) (ix1 k)) (fun k q' => (val_main_v109 (F := Ideal) x13) (ix2 k q'))
          (fun k => (val_main_v111 (F := Ideal) x14) (ix1 k)) (fun k => (val_main_v113 (F := Ideal) x15) (ix1 k)) (fun k => (val_main_v115 (F := Ideal) x16) (ix1 k)) (fun k => (val_main_v117 (F := Ideal) x17) (ix1 k)) (fun k => (val_main_v119 (F := Ideal) x18) (ix1 k)) q := by
  unfold layerEntry
  simp only [val_main_v134_apply, val_main_v135_apply, val_main_v136_apply, val_main_v137_apply, val_main_call4_cst_apply, val_main_call4_v0_apply, val_main_v138_apply, val_main_v139_apply, val_main_v140_apply, val_main_v141_apply, val_main_v142_apply, val_main_call5_cst_apply, val_main_call5_v0_apply, val_main_v143_apply, val_main_v144_apply, val_main_v145_apply, val_main_v146_apply, val_main_cst_12_apply, val_main_v147_apply, val_main_v148_apply, val_main_v149_apply, val_main_v150_apply, val_main_v151_apply, val_main_v152_apply, val_main_v153_apply, val_main_v154_apply, val_main_v155_apply, val_main_v156_apply, val_main_v157_apply, val_main_v158_apply,
    l_main_v134, r_main_v134, l_main_v139, r_main_v139, i_main_v135, i_main_v140, i_main_v144, i_main_v150, i_main_v153, i_main_v156, i_main_v136, i_main_v141, i_main_v145, i_main_v151, i_main_v154, i_main_v157]
  rfl

end Cert.ReferenceIdeal.Layer3

end
-- ==== Proof.RefLayer4.lean ====
/-
  The reference's layer 4 at an entry.

  Its output stage, read at row `r` and column `q` one operation at a time, is `Cert.Gin.layerEntry` of row `r` of
  the first product: the two `dot_general`s are sums over the contracted column, every parameter vector is spread
  over the rows by two broadcasts that read it at `q`, the two `relu`s are maxima with the zero word, and the host's
  `rsqrt` is the one function `rsqrt` of the extended reals.
-/
import proofs.«149134_j49194555408764_1_alg».proof.Proof.RefRead
import proofs.«149134_j49194555408764_1_alg».proof.Proof.GinSpec

set_option maxRecDepth 16384

noncomputable section

open scoped BigOperators

namespace Cert.ReferenceIdeal.Layer4

open Cert.ReferenceIdeal Cert.ReferenceIdeal.Read Cert.Gin
open Idealize.ShloMosaic Idealize.ShloMosaic.ValueIdx

/-! ## Which element each layout step reads -/

theorem l_main_v191 (r : Fin 50000) (k : Fin 256) (j : Fin 256) : lidx_main_v191 (ix2 r k) j = ix2 r j := funext fun a => Fin.ext (by match a with | ⟨0, _⟩ => rfl | ⟨1, _⟩ => rfl)
theorem r_main_v191 (r : Fin 50000) (k : Fin 256) (j : Fin 256) : ridx_main_v191 (ix2 r k) j = ix2 j k := funext fun a => Fin.ext (by match a with | ⟨0, _⟩ => rfl | ⟨1, _⟩ => rfl)
theorem l_main_v196 (r : Fin 50000) (q : Fin 256) (k : Fin 256) : lidx_main_v196 (ix2 r q) k = ix2 r k := funext fun a => Fin.ext (by match a with | ⟨0, _⟩ => rfl | ⟨1, _⟩ => rfl)
theorem r_main_v196 (r : Fin 50000) (q : Fin 256) (k : Fin 256) : ridx_main_v196 (ix2 r q) k = ix2 k q := funext fun a => Fin.ext (by match a with | ⟨0, _⟩ => rfl | ⟨1, _⟩ => rfl)
theorem i_main_v192 (u : Fin 1) (q : Fin 256) : idx_main_v192 (ix2 u q) = ix1 q := funext fun a => Fin.ext (by match a with | ⟨0, _⟩ => rfl)
theorem i_main_v197 (u : Fin 1) (q : Fin 256) : idx_main_v197 (ix2 u q) = ix1 q := funext fun a => Fin.ext (by match a with | ⟨0, _⟩ => rfl)
theorem i_main_v201 (u : Fin 1) (q : Fin 256) : idx_main_v201 (ix2 u q) = ix1 q := funext fun a => Fin.ext (by match a with | ⟨0, _⟩ => rfl)
theorem i_main_v207 (u : Fin 1) (q : Fin 256) : idx_main_v207 (ix2 u q) = ix1 q := funext fun a => Fin.ext (by match a with | ⟨0, _⟩ => rfl)
theorem i_main_v210 (u : Fin 1) (q : Fin 256) : idx_main_v210 (ix2 u q) = ix1 q := funext fun a => Fin.ext (by match a with | ⟨0, _⟩ => rfl)
theorem i_main_v213 (u : Fin 1) (q : Fin 256) : idx_main_v213 (ix2 u q) = ix1 q := funext fun a => Fin.ext (by match a with | ⟨0, _⟩ => rfl)
theorem i_main_v193 (r : Fin 50000) (q : Fin 256) : idx_main_v193 (ix2 r q) = ix2 (0 : Fin 1) q := funext fun a => Fin.ext (by match a with | ⟨0, _⟩ => rfl | ⟨1, _⟩ => rfl)
theorem i_main_v198 (r : Fin 50000) (q : Fin 256) : idx_main_v198 (ix2 r q) = ix2 (0 : Fin 1) q := funext fun a => Fin.ext (by match a with | ⟨0, _⟩ => rfl | ⟨1, _⟩ => rfl)
theorem i_main_v202 (r : Fin 50000) (q : Fin 256) : idx_main_v202 (ix2 r q) = ix2 (0 : Fin 1) q := funext fun a => Fin.ext (by match a with | ⟨0, _⟩ => rfl | ⟨1, _⟩ => rfl)
theorem i_main_v208 (r : Fin 50000) (q : Fin 256) : idx_main_v208 (ix2 r q) = ix2 (0 : Fin 1) q := funext fun a => Fin.ext (by match a with | ⟨0, _⟩ => rfl | ⟨1, _⟩ => rfl)
theorem i_main_v211 (r : Fin 50000) (q : Fin 256) : idx_main_v211 (ix2 r q) = ix2 (0 : Fin 1) q := funext fun a => Fin.ext (by match a with | ⟨0, _⟩ => rfl | ⟨1, _⟩ => rfl)
theorem i_main_v214 (r : Fin 50000) (q : Fin 256) : idx_main_v214 (ix2 r q) = ix2 (0 : Fin 1) q := funext fun a => Fin.ext (by match a with | ⟨0, _⟩ => rfl | ⟨1, _⟩ => rfl)

/-! ## The stage at an entry -/

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S3x256x256, .f32⟩ : BufTy).Contents (Elt Ideal)) (x12 : (⟨S3x256, .f32⟩ : BufTy).Contents (Elt Ideal)) (x13 : (⟨S3x256x256, .f32⟩ : BufTy).Contents (Elt Ideal)) (x14 : (⟨S3x256, .f32⟩ : BufTy).Contents (Elt Ideal)) (x15 : (⟨S3x256, .f32⟩ : BufTy).Contents (Elt Ideal)) (x16 : (⟨S3x256, .f32⟩ : BufTy).Contents (Elt Ideal)) (x17 : (⟨S3x256, .f32⟩ : BufTy).Contents (Elt Ideal)) (x18 : (⟨S3x256, .f32⟩ : BufTy).Contents (Elt Ideal)) (x19 : (⟨S4, .f32⟩ : BufTy).Contents (Elt Ideal))

theorem entry (r : Fin 50000) (q : Fin 256) :
    (val_main_v215 (F := Ideal) x0 x1 x3 x4 x5 x6 x7 x8 x9 x10 x11 x12 x13 x14 x15 x16 x17 x18 x19) (ix2 r q)
      = layerEntry (fun k => ∑ j : Fin 256, (val_main_v190 (F := Ideal) x0 x1 x3 x4 x5 x6 x7 x8 x9 x10 x11 x12 x13 x14 x15 x16 x17 x18 x19) (ix2 r j) * (val_main_v162 (F := Ideal) x11) (ix2 j k)) (fun k => (val_main_v164 (F := Ideal) x12) (ix1 k)) (fun k q' => (val_main_v166 (F := Ideal) x13) (ix2 k q'))
          (fun k => (val_main_v168 (F := Ideal) x14) (ix1 k)) (fun k => (val_main_v170 (F := Ideal) x15) (ix1 k)) (fun k => (val_main_v172 (F := Ideal) x16) (ix1 k)) (fun k => (val_main_v174 (F := Ideal) x17) (ix1 k)) (fun k => (val_main_v176 (F := Ideal) x18) (ix1 k)) q := by
  unfold layerEntry
  simp only [val_main_v191_apply, val_main_v192_apply, val_main_v193_apply, val_main_v194_apply, val_main_call6_cst_apply, val_main_call6_v0_apply, val_main_v195_apply, val_main_v196_apply, val_main_v197_apply, val_main_v198_apply, val_main_v199_apply, val_main_call7_cst_apply, val_main_call7_v0_apply, val_main_v200_apply, val_main_v201_apply, val_main_v202_apply, val_main_v203_apply, val_main_cst_17_apply, val_main_v204_apply, val_main_v205_apply, val_main_v206_apply, val_main_v207_apply, val_main_v208_apply, val_main_v209_apply, val_main_v210_apply, val_main_v211_apply, val_main_v212_apply, val_main_v213_apply, val_main_v214_apply, val_main_v215_apply,
    l_main_v191, r_main_v191, l_main_v196, r_main_v196, i_main_v192, i_main_v197, i_main_v201, i_main_v207, i_main_v210, i_main_v213, i_main_v193, i_main_v198, i_main_v202, i_main_v208, i_main_v211, i_main_v214]
  rfl

end Cert.ReferenceIdeal.Layer4

end
-- ==== Proof.RefHead.lean ====
/-
  The reference's classifier at an entry.

  From the pooled rows on, the reference's last stage read at graph `i` and class `j` one operation at a time is the
  log-softmax at `j` of graph `i`'s row of logits (`Cert.Gin.logSoftmax` of `Cert.Gin.logit`). The row maximum is a
  `reduce` with `max` over the class axis: the fold of `max` from its initial value `−∞` over the row. The row sum of
  exponentials is a `reduce` with `add` from the zero word, and the zero word is the real `0`.
-/
import proofs.«149134_j49194555408764_1_alg».proof.Proof.RefRead
import proofs.«149134_j49194555408764_1_alg».proof.Proof.GinSpec
import proofs.«149134_j49194555408764_1_alg».proof.Proof.LibKeepdims

set_option maxRecDepth 16384

noncomputable section

open scoped BigOperators

namespace Cert.ReferenceIdeal.Head

open Cert.ReferenceIdeal Cert.ReferenceIdeal.Gen Cert.ReferenceIdeal.Read Cert.Gin
open Idealize.ShloMosaic Idealize.ShloMosaic.ValueIdx Idealize.ShloMosaic.ValueKeepdims

/-! ## Which element each layout step reads -/

theorem l_main_v228 (i k l : Fin 256) : lidx_main_v228 (ix2 i k) l = ix2 i l := funext fun a => Fin.ext (by match a with | ⟨0, _⟩ => rfl | ⟨1, _⟩ => rfl)
theorem r_main_v228 (i k l : Fin 256) : ridx_main_v228 (ix2 i k) l = ix2 l k := funext fun a => Fin.ext (by match a with | ⟨0, _⟩ => rfl | ⟨1, _⟩ => rfl)
theorem l_main_v233 (i : Fin 256) (j : Fin 10) (k : Fin 256) : lidx_main_v233 (ix2 i j) k = ix2 i k := funext fun a => Fin.ext (by match a with | ⟨0, _⟩ => rfl | ⟨1, _⟩ => rfl)
theorem r_main_v233 (i : Fin 256) (j : Fin 10) (k : Fin 256) : ridx_main_v233 (ix2 i j) k = ix2 k j := funext fun a => Fin.ext (by match a with | ⟨0, _⟩ => rfl | ⟨1, _⟩ => rfl)
theorem i_main_v229 (u : Fin 1) (k : Fin 256) : idx_main_v229 (ix2 u k) = ix1 k := funext fun a => Fin.ext (by match a with | ⟨0, _⟩ => rfl)
theorem i_main_v230 (i k : Fin 256) : idx_main_v230 (ix2 i k) = ix2 (0 : Fin 1) k := funext fun a => Fin.ext (by match a with | ⟨0, _⟩ => rfl | ⟨1, _⟩ => rfl)
theorem i_main_v234 (u : Fin 1) (j : Fin 10) : idx_main_v234 (ix2 u j) = ix1 j := funext fun a => Fin.ext (by match a with | ⟨0, _⟩ => rfl)
theorem i_main_v235 (i : Fin 256) (j : Fin 10) : idx_main_v235 (ix2 i j) = ix2 (0 : Fin 1) j := funext fun a => Fin.ext (by match a with | ⟨0, _⟩ => rfl | ⟨1, _⟩ => rfl)
theorem i_main_call9_v3 (i : Fin 256) (u : Fin 1) : idx_main_call9_v3 (ix2 i u) = ix1 i := funext fun a => Fin.ext (by match a with | ⟨0, _⟩ => rfl)
theorem i_main_call9_v4 (i : Fin 256) (j : Fin 10) : idx_main_call9_v4 (ix2 i j) = ix2 i (0 : Fin 1) := funext fun a => Fin.ext (by match a with | ⟨0, _⟩ => rfl | ⟨1, _⟩ => rfl)
theorem i_main_call9_v7 (i : Fin 256) (k : Fin 10) : idx_main_call9_v7 (ix1 i) k = ix2 i k := funext fun a => Fin.ext (by match a with | ⟨0, _⟩ => rfl | ⟨1, _⟩ => rfl)
theorem i_main_call9_v8 (i : Fin 256) (u : Fin 1) : idx_main_call9_v8 (ix2 i u) = ix1 i := funext fun a => Fin.ext (by match a with | ⟨0, _⟩ => rfl)
theorem i_main_call9_v10 (i : Fin 256) (j : Fin 10) : idx_main_call9_v10 (ix2 i j) = ix2 i (0 : Fin 1) := funext fun a => Fin.ext (by match a with | ⟨0, _⟩ => rfl | ⟨1, _⟩ => rfl)

/-! ## The two row reductions -/

/-- A `reduce` with `max` of a `[256, 10]` array over its second axis, at row `i`: the fold of `max`, from the initial
    value, over the row. -/
theorem rowmax (X : (⟨S256x10, .f32⟩ : BufTy).Contents (Elt Ideal)) (init : (⟨S_, .f32⟩ : BufTy).Contents (Elt Ideal)) (i : Fin 256) :
    Host.reduce (FloatOps.maximumf (F := Ideal) (φ := .f32)) X init reducesTo_S256x10_S256_d1 h_S_ (ix1 i)
      = (Finset.univ : Finset (Fin 10)).fold max (init (Shape.Idx.first h_S_)) (fun k => X (ix2 i k)) := by
  have h : (⟨2, ![256, 10]⟩ : Shape).Reduces [1] (⟨1, ![256]⟩ : Shape) := by decide
  rw [Host.reduce_eq_fold_single (FloatOps.maximumf (F := Ideal) (φ := .f32)) X init reducesTo_S256x10_S256_d1 h h_S_ (ix1 i)]
  have hf : (X ∘ h.lift (ix1 i)) = fun k : Fin 10 => X (ix2 i k) := funext fun k => congrArg X (lift_axis1_ix2 h i k)
  exact congrArg (fun f => Finset.fold max (init (Shape.Idx.first h_S_)) f (Finset.univ : Finset (Fin 10))) hf

/-- The zero word added to a sum is the sum. -/
theorem zero_word_add (s : EReal) : FloatOps.ofBits (F := Ideal) .f32 0x00000000#32 + s = s := by
  rw [Ideal.ofBits_def, Ideal.ofBits_zero_f32, zero_add]

/-! ## The last stage at an entry -/

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S3x256x256, .f32⟩ : BufTy).Contents (Elt Ideal)) (x12 : (⟨S3x256, .f32⟩ : BufTy).Contents (Elt Ideal)) (x13 : (⟨S3x256x256, .f32⟩ : BufTy).Contents (Elt Ideal)) (x14 : (⟨S3x256, .f32⟩ : BufTy).Contents (Elt Ideal)) (x15 : (⟨S3x256, .f32⟩ : BufTy).Contents (Elt Ideal)) (x16 : (⟨S3x256, .f32⟩ : BufTy).Contents (Elt Ideal)) (x17 : (⟨S3x256, .f32⟩ : BufTy).Contents (Elt Ideal)) (x18 : (⟨S3x256, .f32⟩ : BufTy).Contents (Elt Ideal)) (x19 : (⟨S4, .f32⟩ : BufTy).Contents (Elt Ideal)) (x20 : (⟨S256x256, .f32⟩ : BufTy).Contents (Elt Ideal)) (x21 : (⟨S256, .f32⟩ : BufTy).Contents (Elt Ideal)) (x22 : (⟨S256x10, .f32⟩ : BufTy).Contents (Elt Ideal)) (x23 : (⟨S10, .f32⟩ : BufTy).Contents (Elt Ideal))

/-- The row maximum the log-softmax subtracts, at graph `i`. -/
theorem rowmax_stage (i : Fin 256) :
    (val_main_call9_v0 (F := Ideal) x0 x1 x2 x3 x4 x5 x6 x7 x8 x9 x10 x11 x12 x13 x14 x15 x16 x17 x18 x19 x20 x21 x22 x23) (ix1 i)
      = (Finset.univ : Finset (Fin 10)).fold max (FloatOps.ofBits (F := Ideal) .f32 0xFF800000#32) (fun k => (val_main_v236 (F := Ideal) x0 x1 x2 x3 x4 x5 x6 x7 x8 x9 x10 x11 x12 x13 x14 x15 x16 x17 x18 x19 x20 x21 x22 x23) (ix2 i k)) := by
  unfold val_main_call9_v0
  exact rowmax _ _ i

theorem entry (i : Fin 256) (j : Fin 10) :
    (val_main_v237 (F := Ideal) x0 x1 x2 x3 x4 x5 x6 x7 x8 x9 x10 x11 x12 x13 x14 x15 x16 x17 x18 x19 x20 x21 x22 x23) (ix2 i j)
      = logSoftmax (logit (fun k => ∑ l : Fin 256, (val_main_v227 (F := Ideal) x0 x1 x2 x3 x4 x5 x6 x7 x8 x9 x10 x11 x12 x13 x14 x15 x16 x17 x18 x19) (ix2 i l) * x20 (ix2 l k)) (fun k => x21 (ix1 k)) (fun k j' => x22 (ix2 k j'))
          (fun j' => x23 (ix1 j'))) j := by
  unfold logSoftmax shifted logit
  simp only [val_main_v237_apply, val_main_call9_v5_apply, val_main_call9_v10_apply, val_main_call9_v9_apply, val_main_call9_v8_apply, val_main_call9_v4_apply, val_main_call9_v3_apply, val_main_call9_v2_apply, val_main_call9_v1_apply, val_main_call9_cst_0_apply,
    i_main_call9_v3, i_main_call9_v4, i_main_call9_v8, i_main_call9_v10]
  rw [rowmax_stage]
  rw [val_main_call9_v7_apply]
  simp only [val_main_call9_cst_1_apply, val_main_call9_v6_apply, val_main_call9_v5_apply, val_main_call9_v4_apply, val_main_call9_v3_apply, val_main_call9_v2_apply, val_main_call9_v1_apply, val_main_call9_cst_0_apply,
    i_main_call9_v3, i_main_call9_v4, i_main_call9_v7]
  rw [rowmax_stage, zero_word_add]
  simp only [val_main_v236_apply, val_main_v235_apply, val_main_v234_apply, val_main_v233_apply, val_main_v232_apply, val_main_call8_v0_apply, val_main_call8_cst_apply, val_main_v231_apply, val_main_v230_apply, val_main_v229_apply, val_main_v228_apply,
    l_main_v228, r_main_v228, l_main_v233, r_main_v233, i_main_v229, i_main_v230, i_main_v234, i_main_v235]
  simp only [Ideal.subf_def, Ideal.addf_def, Ideal.maximumf_def, Ideal.ofBits_def, Ideal.hostUnary_log_def, Ideal.hostUnary_exp_def]

end Cert.ReferenceIdeal.Head

end
-- ==== Proof.KerBoundary.lean ====
/-
  The idealized kernel's buffers at each boundary between its host stretches and its five kernel regions: what is
  carried, and what each region finds.

  A buffer no stretch writes and no region uses keeps its contents across a boundary: the two index vectors and the
  argument arrays are carried that way from the launch. Each stretch computes, by the same host operations as the
  reference, the next layer's aggregated features `(1 + ε)·h + scatter-add of gathered rows` from the previous
  layer's output `h`, and the layer's parameters as slices of the stacked arguments; so, given that `h` is the
  reference's stage, every array the next region finds is a stage of the reference (a bias row up to its reshape).
-/
import proofs.«149134_j49194555408764_1_alg».proof.Proof.KerLayer0
import proofs.«149134_j49194555408764_1_alg».proof.Proof.KerLayer1
import proofs.«149134_j49194555408764_1_alg».proof.Proof.KerLayer2
import proofs.«149134_j49194555408764_1_alg».proof.Proof.KerLayer3
import proofs.«149134_j49194555408764_1_alg».proof.Proof.KerHead
import proofs.«149134_j49194555408764_1_alg».proof.Proof.RefLayer1
import proofs.«149134_j49194555408764_1_alg».proof.Proof.RefLayer2
import proofs.«149134_j49194555408764_1_alg».proof.Proof.RefLayer3
import proofs.«149134_j49194555408764_1_alg».proof.Proof.RefLayer4
import proofs.«149134_j49194555408764_1_alg».proof.Proof.RefHead
import Idealize.ShloMosaic.Lib.StableHlo.Run

set_option maxRecDepth 16384

noncomputable section

open scoped BigOperators

namespace Cert.KernelIdeal.Boundary

open Cert.KernelIdeal Cert.KernelIdeal.Gen Cert.Gin
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## What is carried across every boundary: the index vectors and the arguments -/

/-- The source-index vector, computed by the first stretch. -/
theorem W1_main_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp <;> rfl
/-- The destination-index vector, computed by the first stretch. -/
theorem W1_main_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp <;> rfl
theorem W1_main_arg2 : W1 m ρ c (Proc.devRef .tc main_arg2) = m ((c : Thread nD τ).loc main_arg2) := by
  show StableHlo.after hostOps0 (W0 m ρ c) (Proc.devRef .tc main_arg2) = _
  after_results_simp <;> rfl
theorem W1_main_arg11 : W1 m ρ c (Proc.devRef .tc main_arg11) = m ((c : Thread nD τ).loc main_arg11) := by
  show StableHlo.after hostOps0 (W0 m ρ c) (Proc.devRef .tc main_arg11) = _
  after_results_simp <;> rfl
theorem W1_main_arg12 : W1 m ρ c (Proc.devRef .tc main_arg12) = m ((c : Thread nD τ).loc main_arg12) := by
  show StableHlo.after hostOps0 (W0 m ρ c) (Proc.devRef .tc main_arg12) = _
  after_results_simp <;> rfl
theorem W1_main_arg13 : W1 m ρ c (Proc.devRef .tc main_arg13) = m ((c : Thread nD τ).loc main_arg13) := by
  show StableHlo.after hostOps0 (W0 m ρ c) (Proc.devRef .tc main_arg13) = _
  after_results_simp <;> rfl
theorem W1_main_arg14 : W1 m ρ c (Proc.devRef .tc main_arg14) = m ((c : Thread nD τ).loc main_arg14) := by
  show StableHlo.after hostOps0 (W0 m ρ c) (Proc.devRef .tc main_arg14) = _
  after_results_simp <;> rfl
theorem W1_main_arg15 : W1 m ρ c (Proc.devRef .tc main_arg15) = m ((c : Thread nD τ).loc main_arg15) := by
  show StableHlo.after hostOps0 (W0 m ρ c) (Proc.devRef .tc main_arg15) = _
  after_results_simp <;> rfl
theorem W1_main_arg16 : W1 m ρ c (Proc.devRef .tc main_arg16) = m ((c : Thread nD τ).loc main_arg16) := by
  show StableHlo.after hostOps0 (W0 m ρ c) (Proc.devRef .tc main_arg16) = _
  after_results_simp <;> rfl
theorem W1_main_arg17 : W1 m ρ c (Proc.devRef .tc main_arg17) = m ((c : Thread nD τ).loc main_arg17) := by
  show StableHlo.after hostOps0 (W0 m ρ c) (Proc.devRef .tc main_arg17) = _
  after_results_simp <;> rfl
theorem W1_main_arg18 : W1 m ρ c (Proc.devRef .tc main_arg18) = m ((c : Thread nD τ).loc main_arg18) := by
  show StableHlo.after hostOps0 (W0 m ρ c) (Proc.devRef .tc main_arg18) = _
  after_results_simp <;> rfl
theorem W1_main_arg19 : W1 m ρ c (Proc.devRef .tc main_arg19) = m ((c : Thread nD τ).loc main_arg19) := by
  show StableHlo.after hostOps0 (W0 m ρ c) (Proc.devRef .tc main_arg19) = _
  after_results_simp <;> rfl
theorem W1_main_arg20 : W1 m ρ c (Proc.devRef .tc main_arg20) = m ((c : Thread nD τ).loc main_arg20) := by
  show StableHlo.after hostOps0 (W0 m ρ c) (Proc.devRef .tc main_arg20) = _
  after_results_simp <;> rfl
theorem W1_main_arg21 : W1 m ρ c (Proc.devRef .tc main_arg21) = m ((c : Thread nD τ).loc main_arg21) := by
  show StableHlo.after hostOps0 (W0 m ρ c) (Proc.devRef .tc main_arg21) = _
  after_results_simp <;> rfl
theorem W1_main_arg22 : W1 m ρ c (Proc.devRef .tc main_arg22) = m ((c : Thread nD τ).loc main_arg22) := by
  show StableHlo.after hostOps0 (W0 m ρ c) (Proc.devRef .tc main_arg22) = _
  after_results_simp <;> rfl
theorem W1_main_arg23 : W1 m ρ c (Proc.devRef .tc main_arg23) = m ((c : Thread nD τ).loc main_arg23) := by
  show StableHlo.after hostOps0 (W0 m ρ c) (Proc.devRef .tc main_arg23) = _
  after_results_simp <;> rfl

/-! ### Through region 0 -/
theorem W2_main_v1 : W2 m ρ c (Proc.devRef .tc main_v1) = (Cert.ReferenceIdeal.Read.val_main_v1 (F := Ideal) (m ((c : Thread nD τ).loc main_arg1))) :=
  (W2_of_ne m ρ c main_v1 (by decide)).trans (W1_main_v1 m ρ c)
theorem W2_main_v3 : W2 m ρ c (Proc.devRef .tc main_v3) = (Cert.ReferenceIdeal.Read.val_main_v3 (F := Ideal) (m ((c : Thread nD τ).loc main_arg1))) :=
  (W2_of_ne m ρ c main_v3 (by decide)).trans (W1_main_v3 m ρ c)
theorem W2_main_arg2 : W2 m ρ c (Proc.devRef .tc main_arg2) = m ((c : Thread nD τ).loc main_arg2) :=
  (W2_of_ne m ρ c main_arg2 (by decide)).trans (W1_main_arg2 m ρ c)
theorem W2_main_arg11 : W2 m ρ c (Proc.devRef .tc main_arg11) = m ((c : Thread nD τ).loc main_arg11) :=
  (W2_of_ne m ρ c main_arg11 (by decide)).trans (W1_main_arg11 m ρ c)
theorem W2_main_arg12 : W2 m ρ c (Proc.devRef .tc main_arg12) = m ((c : Thread nD τ).loc main_arg12) :=
  (W2_of_ne m ρ c main_arg12 (by decide)).trans (W1_main_arg12 m ρ c)
theorem W2_main_arg13 : W2 m ρ c (Proc.devRef .tc main_arg13) = m ((c : Thread nD τ).loc main_arg13) :=
  (W2_of_ne m ρ c main_arg13 (by decide)).trans (W1_main_arg13 m ρ c)
theorem W2_main_arg14 : W2 m ρ c (Proc.devRef .tc main_arg14) = m ((c : Thread nD τ).loc main_arg14) :=
  (W2_of_ne m ρ c main_arg14 (by decide)).trans (W1_main_arg14 m ρ c)
theorem W2_main_arg15 : W2 m ρ c (Proc.devRef .tc main_arg15) = m ((c : Thread nD τ).loc main_arg15) :=
  (W2_of_ne m ρ c main_arg15 (by decide)).trans (W1_main_arg15 m ρ c)
theorem W2_main_arg16 : W2 m ρ c (Proc.devRef .tc main_arg16) = m ((c : Thread nD τ).loc main_arg16) :=
  (W2_of_ne m ρ c main_arg16 (by decide)).trans (W1_main_arg16 m ρ c)
theorem W2_main_arg17 : W2 m ρ c (Proc.devRef .tc main_arg17) = m ((c : Thread nD τ).loc main_arg17) :=
  (W2_of_ne m ρ c main_arg17 (by decide)).trans (W1_main_arg17 m ρ c)
theorem W2_main_arg18 : W2 m ρ c (Proc.devRef .tc main_arg18) = m ((c : Thread nD τ).loc main_arg18) :=
  (W2_of_ne m ρ c main_arg18 (by decide)).trans (W1_main_arg18 m ρ c)
theorem W2_main_arg19 : W2 m ρ c (Proc.devRef .tc main_arg19) = m ((c : Thread nD τ).loc main_arg19) :=
  (W2_of_ne m ρ c main_arg19 (by decide)).trans (W1_main_arg19 m ρ c)
theorem W2_main_arg20 : W2 m ρ c (Proc.devRef .tc main_arg20) = m ((c : Thread nD τ).loc main_arg20) :=
  (W2_of_ne m ρ c main_arg20 (by decide)).trans (W1_main_arg20 m ρ c)
theorem W2_main_arg21 : W2 m ρ c (Proc.devRef .tc main_arg21) = m ((c : Thread nD τ).loc main_arg21) :=
  (W2_of_ne m ρ c main_arg21 (by decide)).trans (W1_main_arg21 m ρ c)
theorem W2_main_arg22 : W2 m ρ c (Proc.devRef .tc main_arg22) = m ((c : Thread nD τ).loc main_arg22) :=
  (W2_of_ne m ρ c main_arg22 (by decide)).trans (W1_main_arg22 m ρ c)
theorem W2_main_arg23 : W2 m ρ c (Proc.devRef .tc main_arg23) = m ((c : Thread nD τ).loc main_arg23) :=
  (W2_of_ne m ρ c main_arg23 (by decide)).trans (W1_main_arg23 m ρ c)

/-! ### Through region 1 and the stretch before it -/
theorem W4_main_v1 : W4 m ρ c (Proc.devRef .tc main_v1) = (Cert.ReferenceIdeal.Read.val_main_v1 (F := Ideal) (m ((c : Thread nD τ).loc main_arg1))) :=
  (W4_of_ne m ρ c main_v1 (by decide)).trans (by
    show StableHlo.after hostOps1 (W2 m ρ c) (Proc.devRef .tc main_v1) = _
    after_results_simp
    exact W2_main_v1 m ρ c)
theorem W4_main_v3 : W4 m ρ c (Proc.devRef .tc main_v3) = (Cert.ReferenceIdeal.Read.val_main_v3 (F := Ideal) (m ((c : Thread nD τ).loc main_arg1))) :=
  (W4_of_ne m ρ c main_v3 (by decide)).trans (by
    show StableHlo.after hostOps1 (W2 m ρ c) (Proc.devRef .tc main_v3) = _
    after_results_simp
    exact W2_main_v3 m ρ c)
theorem W4_main_arg2 : W4 m ρ c (Proc.devRef .tc main_arg2) = m ((c : Thread nD τ).loc main_arg2) :=
  (W4_of_ne m ρ c main_arg2 (by decide)).trans (by
    show StableHlo.after hostOps1 (W2 m ρ c) (Proc.devRef .tc main_arg2) = _
    after_results_simp
    exact W2_main_arg2 m ρ c)
theorem W4_main_arg11 : W4 m ρ c (Proc.devRef .tc main_arg11) = m ((c : Thread nD τ).loc main_arg11) :=
  (W4_of_ne m ρ c main_arg11 (by decide)).trans (by
    show StableHlo.after hostOps1 (W2 m ρ c) (Proc.devRef .tc main_arg11) = _
    after_results_simp
    exact W2_main_arg11 m ρ c)
theorem W4_main_arg12 : W4 m ρ c (Proc.devRef .tc main_arg12) = m ((c : Thread nD τ).loc main_arg12) :=
  (W4_of_ne m ρ c main_arg12 (by decide)).trans (by
    show StableHlo.after hostOps1 (W2 m ρ c) (Proc.devRef .tc main_arg12) = _
    after_results_simp
    exact W2_main_arg12 m ρ c)
theorem W4_main_arg13 : W4 m ρ c (Proc.devRef .tc main_arg13) = m ((c : Thread nD τ).loc main_arg13) :=
  (W4_of_ne m ρ c main_arg13 (by decide)).trans (by
    show StableHlo.after hostOps1 (W2 m ρ c) (Proc.devRef .tc main_arg13) = _
    after_results_simp
    exact W2_main_arg13 m ρ c)
theorem W4_main_arg14 : W4 m ρ c (Proc.devRef .tc main_arg14) = m ((c : Thread nD τ).loc main_arg14) :=
  (W4_of_ne m ρ c main_arg14 (by decide)).trans (by
    show StableHlo.after hostOps1 (W2 m ρ c) (Proc.devRef .tc main_arg14) = _
    after_results_simp
    exact W2_main_arg14 m ρ c)
theorem W4_main_arg15 : W4 m ρ c (Proc.devRef .tc main_arg15) = m ((c : Thread nD τ).loc main_arg15) :=
  (W4_of_ne m ρ c main_arg15 (by decide)).trans (by
    show StableHlo.after hostOps1 (W2 m ρ c) (Proc.devRef .tc main_arg15) = _
    after_results_simp
    exact W2_main_arg15 m ρ c)
theorem W4_main_arg16 : W4 m ρ c (Proc.devRef .tc main_arg16) = m ((c : Thread nD τ).loc main_arg16) :=
  (W4_of_ne m ρ c main_arg16 (by decide)).trans (by
    show StableHlo.after hostOps1 (W2 m ρ c) (Proc.devRef .tc main_arg16) = _
    after_results_simp
    exact W2_main_arg16 m ρ c)
theorem W4_main_arg17 : W4 m ρ c (Proc.devRef .tc main_arg17) = m ((c : Thread nD τ).loc main_arg17) :=
  (W4_of_ne m ρ c main_arg17 (by decide)).trans (by
    show StableHlo.after hostOps1 (W2 m ρ c) (Proc.devRef .tc main_arg17) = _
    after_results_simp
    exact W2_main_arg17 m ρ c)
theorem W4_main_arg18 : W4 m ρ c (Proc.devRef .tc main_arg18) = m ((c : Thread nD τ).loc main_arg18) :=
  (W4_of_ne m ρ c main_arg18 (by decide)).trans (by
    show StableHlo.after hostOps1 (W2 m ρ c) (Proc.devRef .tc main_arg18) = _
    after_results_simp
    exact W2_main_arg18 m ρ c)
theorem W4_main_arg19 : W4 m ρ c (Proc.devRef .tc main_arg19) = m ((c : Thread nD τ).loc main_arg19) :=
  (W4_of_ne m ρ c main_arg19 (by decide)).trans (by
    show StableHlo.after hostOps1 (W2 m ρ c) (Proc.devRef .tc main_arg19) = _
    after_results_simp
    exact W2_main_arg19 m ρ c)
theorem W4_main_arg20 : W4 m ρ c (Proc.devRef .tc main_arg20) = m ((c : Thread nD τ).loc main_arg20) :=
  (W4_of_ne m ρ c main_arg20 (by decide)).trans (by
    show StableHlo.after hostOps1 (W2 m ρ c) (Proc.devRef .tc main_arg20) = _
    after_results_simp
    exact W2_main_arg20 m ρ c)
theorem W4_main_arg21 : W4 m ρ c (Proc.devRef .tc main_arg21) = m ((c : Thread nD τ).loc main_arg21) :=
  (W4_of_ne m ρ c main_arg21 (by decide)).trans (by
    show StableHlo.after hostOps1 (W2 m ρ c) (Proc.devRef .tc main_arg21) = _
    after_results_simp
    exact W2_main_arg21 m ρ c)
theorem W4_main_arg22 : W4 m ρ c (Proc.devRef .tc main_arg22) = m ((c : Thread nD τ).loc main_arg22) :=
  (W4_of_ne m ρ c main_arg22 (by decide)).trans (by
    show StableHlo.after hostOps1 (W2 m ρ c) (Proc.devRef .tc main_arg22) = _
    after_results_simp
    exact W2_main_arg22 m ρ c)
theorem W4_main_arg23 : W4 m ρ c (Proc.devRef .tc main_arg23) = m ((c : Thread nD τ).loc main_arg23) :=
  (W4_of_ne m ρ c main_arg23 (by decide)).trans (by
    show StableHlo.after hostOps1 (W2 m ρ c) (Proc.devRef .tc main_arg23) = _
    after_results_simp
    exact W2_main_arg23 m ρ c)

/-! ### Through region 2 and the stretch before it -/
theorem W6_main_v1 : W6 m ρ c (Proc.devRef .tc main_v1) = (Cert.ReferenceIdeal.Read.val_main_v1 (F := Ideal) (m ((c : Thread nD τ).loc main_arg1))) :=
  (W6_of_ne m ρ c main_v1 (by decide)).trans (by
    show StableHlo.after hostOps2 (W4 m ρ c) (Proc.devRef .tc main_v1) = _
    after_results_simp
    exact W4_main_v1 m ρ c)
theorem W6_main_v3 : W6 m ρ c (Proc.devRef .tc main_v3) = (Cert.ReferenceIdeal.Read.val_main_v3 (F := Ideal) (m ((c : Thread nD τ).loc main_arg1))) :=
  (W6_of_ne m ρ c main_v3 (by decide)).trans (by
    show StableHlo.after hostOps2 (W4 m ρ c) (Proc.devRef .tc main_v3) = _
    after_results_simp
    exact W4_main_v3 m ρ c)
theorem W6_main_arg2 : W6 m ρ c (Proc.devRef .tc main_arg2) = m ((c : Thread nD τ).loc main_arg2) :=
  (W6_of_ne m ρ c main_arg2 (by decide)).trans (by
    show StableHlo.after hostOps2 (W4 m ρ c) (Proc.devRef .tc main_arg2) = _
    after_results_simp
    exact W4_main_arg2 m ρ c)
theorem W6_main_arg11 : W6 m ρ c (Proc.devRef .tc main_arg11) = m ((c : Thread nD τ).loc main_arg11) :=
  (W6_of_ne m ρ c main_arg11 (by decide)).trans (by
    show StableHlo.after hostOps2 (W4 m ρ c) (Proc.devRef .tc main_arg11) = _
    after_results_simp
    exact W4_main_arg11 m ρ c)
theorem W6_main_arg12 : W6 m ρ c (Proc.devRef .tc main_arg12) = m ((c : Thread nD τ).loc main_arg12) :=
  (W6_of_ne m ρ c main_arg12 (by decide)).trans (by
    show StableHlo.after hostOps2 (W4 m ρ c) (Proc.devRef .tc main_arg12) = _
    after_results_simp
    exact W4_main_arg12 m ρ c)
theorem W6_main_arg13 : W6 m ρ c (Proc.devRef .tc main_arg13) = m ((c : Thread nD τ).loc main_arg13) :=
  (W6_of_ne m ρ c main_arg13 (by decide)).trans (by
    show StableHlo.after hostOps2 (W4 m ρ c) (Proc.devRef .tc main_arg13) = _
    after_results_simp
    exact W4_main_arg13 m ρ c)
theorem W6_main_arg14 : W6 m ρ c (Proc.devRef .tc main_arg14) = m ((c : Thread nD τ).loc main_arg14) :=
  (W6_of_ne m ρ c main_arg14 (by decide)).trans (by
    show StableHlo.after hostOps2 (W4 m ρ c) (Proc.devRef .tc main_arg14) = _
    after_results_simp
    exact W4_main_arg14 m ρ c)
theorem W6_main_arg15 : W6 m ρ c (Proc.devRef .tc main_arg15) = m ((c : Thread nD τ).loc main_arg15) :=
  (W6_of_ne m ρ c main_arg15 (by decide)).trans (by
    show StableHlo.after hostOps2 (W4 m ρ c) (Proc.devRef .tc main_arg15) = _
    after_results_simp
    exact W4_main_arg15 m ρ c)
theorem W6_main_arg16 : W6 m ρ c (Proc.devRef .tc main_arg16) = m ((c : Thread nD τ).loc main_arg16) :=
  (W6_of_ne m ρ c main_arg16 (by decide)).trans (by
    show StableHlo.after hostOps2 (W4 m ρ c) (Proc.devRef .tc main_arg16) = _
    after_results_simp
    exact W4_main_arg16 m ρ c)
theorem W6_main_arg17 : W6 m ρ c (Proc.devRef .tc main_arg17) = m ((c : Thread nD τ).loc main_arg17) :=
  (W6_of_ne m ρ c main_arg17 (by decide)).trans (by
    show StableHlo.after hostOps2 (W4 m ρ c) (Proc.devRef .tc main_arg17) = _
    after_results_simp
    exact W4_main_arg17 m ρ c)
theorem W6_main_arg18 : W6 m ρ c (Proc.devRef .tc main_arg18) = m ((c : Thread nD τ).loc main_arg18) :=
  (W6_of_ne m ρ c main_arg18 (by decide)).trans (by
    show StableHlo.after hostOps2 (W4 m ρ c) (Proc.devRef .tc main_arg18) = _
    after_results_simp
    exact W4_main_arg18 m ρ c)
theorem W6_main_arg19 : W6 m ρ c (Proc.devRef .tc main_arg19) = m ((c : Thread nD τ).loc main_arg19) :=
  (W6_of_ne m ρ c main_arg19 (by decide)).trans (by
    show StableHlo.after hostOps2 (W4 m ρ c) (Proc.devRef .tc main_arg19) = _
    after_results_simp
    exact W4_main_arg19 m ρ c)
theorem W6_main_arg20 : W6 m ρ c (Proc.devRef .tc main_arg20) = m ((c : Thread nD τ).loc main_arg20) :=
  (W6_of_ne m ρ c main_arg20 (by decide)).trans (by
    show StableHlo.after hostOps2 (W4 m ρ c) (Proc.devRef .tc main_arg20) = _
    after_results_simp
    exact W4_main_arg20 m ρ c)
theorem W6_main_arg21 : W6 m ρ c (Proc.devRef .tc main_arg21) = m ((c : Thread nD τ).loc main_arg21) :=
  (W6_of_ne m ρ c main_arg21 (by decide)).trans (by
    show StableHlo.after hostOps2 (W4 m ρ c) (Proc.devRef .tc main_arg21) = _
    after_results_simp
    exact W4_main_arg21 m ρ c)
theorem W6_main_arg22 : W6 m ρ c (Proc.devRef .tc main_arg22) = m ((c : Thread nD τ).loc main_arg22) :=
  (W6_of_ne m ρ c main_arg22 (by decide)).trans (by
    show StableHlo.after hostOps2 (W4 m ρ c) (Proc.devRef .tc main_arg22) = _
    after_results_simp
    exact W4_main_arg22 m ρ c)
theorem W6_main_arg23 : W6 m ρ c (Proc.devRef .tc main_arg23) = m ((c : Thread nD τ).loc main_arg23) :=
  (W6_of_ne m ρ c main_arg23 (by decide)).trans (by
    show StableHlo.after hostOps2 (W4 m ρ c) (Proc.devRef .tc main_arg23) = _
    after_results_simp
    exact W4_main_arg23 m ρ c)

/-! ### Through region 3 and the stretch before it -/
theorem W8_main_arg2 : W8 m ρ c (Proc.devRef .tc main_arg2) = m ((c : Thread nD τ).loc main_arg2) :=
  (W8_of_ne m ρ c main_arg2 (by decide)).trans (by
    show StableHlo.after hostOps3 (W6 m ρ c) (Proc.devRef .tc main_arg2) = _
    after_results_simp
    exact W6_main_arg2 m ρ c)
theorem W8_main_arg11 : W8 m ρ c (Proc.devRef .tc main_arg11) = m ((c : Thread nD τ).loc main_arg11) :=
  (W8_of_ne m ρ c main_arg11 (by decide)).trans (by
    show StableHlo.after hostOps3 (W6 m ρ c) (Proc.devRef .tc main_arg11) = _
    after_results_simp
    exact W6_main_arg11 m ρ c)
theorem W8_main_arg12 : W8 m ρ c (Proc.devRef .tc main_arg12) = m ((c : Thread nD τ).loc main_arg12) :=
  (W8_of_ne m ρ c main_arg12 (by decide)).trans (by
    show StableHlo.after hostOps3 (W6 m ρ c) (Proc.devRef .tc main_arg12) = _
    after_results_simp
    exact W6_main_arg12 m ρ c)
theorem W8_main_arg13 : W8 m ρ c (Proc.devRef .tc main_arg13) = m ((c : Thread nD τ).loc main_arg13) :=
  (W8_of_ne m ρ c main_arg13 (by decide)).trans (by
    show StableHlo.after hostOps3 (W6 m ρ c) (Proc.devRef .tc main_arg13) = _
    after_results_simp
    exact W6_main_arg13 m ρ c)
theorem W8_main_arg14 : W8 m ρ c (Proc.devRef .tc main_arg14) = m ((c : Thread nD τ).loc main_arg14) :=
  (W8_of_ne m ρ c main_arg14 (by decide)).trans (by
    show StableHlo.after hostOps3 (W6 m ρ c) (Proc.devRef .tc main_arg14) = _
    after_results_simp
    exact W6_main_arg14 m ρ c)
theorem W8_main_arg15 : W8 m ρ c (Proc.devRef .tc main_arg15) = m ((c : Thread nD τ).loc main_arg15) :=
  (W8_of_ne m ρ c main_arg15 (by decide)).trans (by
    show StableHlo.after hostOps3 (W6 m ρ c) (Proc.devRef .tc main_arg15) = _
    after_results_simp
    exact W6_main_arg15 m ρ c)
theorem W8_main_arg16 : W8 m ρ c (Proc.devRef .tc main_arg16) = m ((c : Thread nD τ).loc main_arg16) :=
  (W8_of_ne m ρ c main_arg16 (by decide)).trans (by
    show StableHlo.after hostOps3 (W6 m ρ c) (Proc.devRef .tc main_arg16) = _
    after_results_simp
    exact W6_main_arg16 m ρ c)
theorem W8_main_arg17 : W8 m ρ c (Proc.devRef .tc main_arg17) = m ((c : Thread nD τ).loc main_arg17) :=
  (W8_of_ne m ρ c main_arg17 (by decide)).trans (by
    show StableHlo.after hostOps3 (W6 m ρ c) (Proc.devRef .tc main_arg17) = _
    after_results_simp
    exact W6_main_arg17 m ρ c)
theorem W8_main_arg18 : W8 m ρ c (Proc.devRef .tc main_arg18) = m ((c : Thread nD τ).loc main_arg18) :=
  (W8_of_ne m ρ c main_arg18 (by decide)).trans (by
    show StableHlo.after hostOps3 (W6 m ρ c) (Proc.devRef .tc main_arg18) = _
    after_results_simp
    exact W6_main_arg18 m ρ c)
theorem W8_main_arg19 : W8 m ρ c (Proc.devRef .tc main_arg19) = m ((c : Thread nD τ).loc main_arg19) :=
  (W8_of_ne m ρ c main_arg19 (by decide)).trans (by
    show StableHlo.after hostOps3 (W6 m ρ c) (Proc.devRef .tc main_arg19) = _
    after_results_simp
    exact W6_main_arg19 m ρ c)
theorem W8_main_arg20 : W8 m ρ c (Proc.devRef .tc main_arg20) = m ((c : Thread nD τ).loc main_arg20) :=
  (W8_of_ne m ρ c main_arg20 (by decide)).trans (by
    show StableHlo.after hostOps3 (W6 m ρ c) (Proc.devRef .tc main_arg20) = _
    after_results_simp
    exact W6_main_arg20 m ρ c)
theorem W8_main_arg21 : W8 m ρ c (Proc.devRef .tc main_arg21) = m ((c : Thread nD τ).loc main_arg21) :=
  (W8_of_ne m ρ c main_arg21 (by decide)).trans (by
    show StableHlo.after hostOps3 (W6 m ρ c) (Proc.devRef .tc main_arg21) = _
    after_results_simp
    exact W6_main_arg21 m ρ c)
theorem W8_main_arg22 : W8 m ρ c (Proc.devRef .tc main_arg22) = m ((c : Thread nD τ).loc main_arg22) :=
  (W8_of_ne m ρ c main_arg22 (by decide)).trans (by
    show StableHlo.after hostOps3 (W6 m ρ c) (Proc.devRef .tc main_arg22) = _
    after_results_simp
    exact W6_main_arg22 m ρ c)
theorem W8_main_arg23 : W8 m ρ c (Proc.devRef .tc main_arg23) = m ((c : Thread nD τ).loc main_arg23) :=
  (W8_of_ne m ρ c main_arg23 (by decide)).trans (by
    show StableHlo.after hostOps3 (W6 m ρ c) (Proc.devRef .tc main_arg23) = _
    after_results_simp
    exact W6_main_arg23 m ρ c)

/-! ## Layer 1: what region 0 finds, and what it leaves -/
theorem V1_main_v19 : V1 m ρ c main_v19 = (Cert.ReferenceIdeal.Read.val_main_v19 (F := Ideal) (m ((c : Thread nD τ).loc main_arg0)) (m ((c : Thread nD τ).loc main_arg1)) (m ((c : Thread nD τ).loc main_arg19))) := by
  show StableHlo.after hostOps0 (W0 m ρ c) (Proc.devRef .tc main_v19) = _
  after_results_simp
  all_goals rfl
theorem V1_main_arg3 : V1 m ρ c main_arg3 = (m ((c : Thread nD τ).loc main_arg3)) := by
  show StableHlo.after hostOps0 (W0 m ρ c) (Proc.devRef .tc main_arg3) = _
  after_results_simp
  all_goals rfl
theorem V1_main_v20 : V1 m ρ c main_v20 = (shapeCast S1x256 (m ((c : Thread nD τ).loc main_arg4)) shapeCasts_S256_S1x256) := by
  show StableHlo.after hostOps0 (W0 m ρ c) (Proc.devRef .tc main_v20) = _
  after_results_simp
  all_goals rfl
theorem V1_main_arg5 : V1 m ρ c main_arg5 = (m ((c : Thread nD τ).loc main_arg5)) := by
  show StableHlo.after hostOps0 (W0 m ρ c) (Proc.devRef .tc main_arg5) = _
  after_results_simp
  all_goals rfl
theorem V1_main_v21 : V1 m ρ c main_v21 = (shapeCast S1x256 (m ((c : Thread nD τ).loc main_arg6)) shapeCasts_S256_S1x256) := by
  show StableHlo.after hostOps0 (W0 m ρ c) (Proc.devRef .tc main_v21) = _
  after_results_simp
  all_goals rfl
theorem V1_main_v22 : V1 m ρ c main_v22 = (shapeCast S1x256 (m ((c : Thread nD τ).loc main_arg7)) shapeCasts_S256_S1x256) := by
  show StableHlo.after hostOps0 (W0 m ρ c) (Proc.devRef .tc main_v22) = _
  after_results_simp
  all_goals rfl
theorem V1_main_v23 : V1 m ρ c main_v23 = (shapeCast S1x256 (m ((c : Thread nD τ).loc main_arg8)) shapeCasts_S256_S1x256) := by
  show StableHlo.after hostOps0 (W0 m ρ c) (Proc.devRef .tc main_v23) = _
  after_results_simp
  all_goals rfl
theorem V1_main_v24 : V1 m ρ c main_v24 = (shapeCast S1x256 (m ((c : Thread nD τ).loc main_arg9)) shapeCasts_S256_S1x256) := by
  show StableHlo.after hostOps0 (W0 m ρ c) (Proc.devRef .tc main_v24) = _
  after_results_simp
  all_goals rfl
theorem V1_main_v25 : V1 m ρ c main_v25 = (shapeCast S1x256 (m ((c : Thread nD τ).loc main_arg10)) shapeCasts_S256_S1x256) := by
  show StableHlo.after hostOps0 (W0 m ρ c) (Proc.devRef .tc main_v25) = _
  after_results_simp
  all_goals rfl

/-! ## Layer 2: what region 1 finds, and what it leaves -/

section
variable (hprev : W2 m ρ c (Proc.devRef .tc main_v26) = (Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19))))
include hprev
theorem V3_main_v58 : V3 m ρ c main_v58 = (Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19))) := by
  show StableHlo.after hostOps1 (W2 m ρ c) (Proc.devRef .tc main_v58) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v30 : V3 m ρ c main_v30 = (Cert.ReferenceIdeal.Read.val_main_v48 (F := Ideal) (m ((c : Thread nD τ).loc main_arg11))) := by
  show StableHlo.after hostOps1 (W2 m ρ c) (Proc.devRef .tc main_v30) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v59 : V3 m ρ c main_v59 = (shapeCast S1x256 (Cert.ReferenceIdeal.Read.val_main_v50 (F := Ideal) (m ((c : Thread nD τ).loc main_arg12))) shapeCasts_S256_S1x256) := by
  show StableHlo.after hostOps1 (W2 m ρ c) (Proc.devRef .tc main_v59) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v34 : V3 m ρ c main_v34 = (Cert.ReferenceIdeal.Read.val_main_v52 (F := Ideal) (m ((c : Thread nD τ).loc main_arg13))) := by
  show StableHlo.after hostOps1 (W2 m ρ c) (Proc.devRef .tc main_v34) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v60 : V3 m ρ c main_v60 = (shapeCast S1x256 (Cert.ReferenceIdeal.Read.val_main_v54 (F := Ideal) (m ((c : Thread nD τ).loc main_arg14))) shapeCasts_S256_S1x256) := by
  show StableHlo.after hostOps1 (W2 m ρ c) (Proc.devRef .tc main_v60) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v61 : V3 m ρ c main_v61 = (shapeCast S1x256 (Cert.ReferenceIdeal.Read.val_main_v56 (F := Ideal) (m ((c : Thread nD τ).loc main_arg15))) shapeCasts_S256_S1x256) := by
  show StableHlo.after hostOps1 (W2 m ρ c) (Proc.devRef .tc main_v61) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v62 : V3 m ρ c main_v62 = (shapeCast S1x256 (Cert.ReferenceIdeal.Read.val_main_v58 (F := Ideal) (m ((c : Thread nD τ).loc main_arg16))) shapeCasts_S256_S1x256) := by
  show StableHlo.after hostOps1 (W2 m ρ c) (Proc.devRef .tc main_v62) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v63 : V3 m ρ c main_v63 = (shapeCast S1x256 (Cert.ReferenceIdeal.Read.val_main_v60 (F := Ideal) (m ((c : Thread nD τ).loc main_arg17))) shapeCasts_S256_S1x256) := by
  show StableHlo.after hostOps1 (W2 m ρ c) (Proc.devRef .tc main_v63) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
theorem V3_main_v64 : V3 m ρ c main_v64 = (shapeCast S1x256 (Cert.ReferenceIdeal.Read.val_main_v62 (F := Ideal) (m ((c : Thread nD τ).loc main_arg18))) shapeCasts_S256_S1x256) := by
  show StableHlo.after hostOps1 (W2 m ρ c) (Proc.devRef .tc main_v64) = _
  after_results_simp
  simp only [W2_main_v1 m ρ c, W2_main_v3 m ρ c, W2_main_arg2 m ρ c, W2_main_arg11 m ρ c, W2_main_arg12 m ρ c, W2_main_arg13 m ρ c, W2_main_arg14 m ρ c, W2_main_arg15 m ρ c, W2_main_arg16 m ρ c, W2_main_arg17 m ρ c, W2_main_arg18 m ρ c, W2_main_arg19 m ρ c, W2_main_arg20 m ρ c, W2_main_arg21 m ρ c, W2_main_arg22 m ρ c, W2_main_arg23 m ρ c, hprev]
  all_goals rfl
end

/-! ## Layer 3: what region 2 finds, and what it leaves -/

section
variable (hprev : W4 m ρ c (Proc.devRef .tc main_v65) = (Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))))
include hprev
theorem V5_main_v97 : V5 m ρ c main_v97 = (Cert.ReferenceIdeal.Read.val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps2 (W4 m ρ c) (Proc.devRef .tc main_v97) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v69 : V5 m ρ c main_v69 = (Cert.ReferenceIdeal.Read.val_main_v105 (F := Ideal) (m ((c : Thread nD τ).loc main_arg11))) := by
  show StableHlo.after hostOps2 (W4 m ρ c) (Proc.devRef .tc main_v69) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v98 : V5 m ρ c main_v98 = (shapeCast S1x256 (Cert.ReferenceIdeal.Read.val_main_v107 (F := Ideal) (m ((c : Thread nD τ).loc main_arg12))) shapeCasts_S256_S1x256) := by
  show StableHlo.after hostOps2 (W4 m ρ c) (Proc.devRef .tc main_v98) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v73 : V5 m ρ c main_v73 = (Cert.ReferenceIdeal.Read.val_main_v109 (F := Ideal) (m ((c : Thread nD τ).loc main_arg13))) := by
  show StableHlo.after hostOps2 (W4 m ρ c) (Proc.devRef .tc main_v73) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v99 : V5 m ρ c main_v99 = (shapeCast S1x256 (Cert.ReferenceIdeal.Read.val_main_v111 (F := Ideal) (m ((c : Thread nD τ).loc main_arg14))) shapeCasts_S256_S1x256) := by
  show StableHlo.after hostOps2 (W4 m ρ c) (Proc.devRef .tc main_v99) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v100 : V5 m ρ c main_v100 = (shapeCast S1x256 (Cert.ReferenceIdeal.Read.val_main_v113 (F := Ideal) (m ((c : Thread nD τ).loc main_arg15))) shapeCasts_S256_S1x256) := by
  show StableHlo.after hostOps2 (W4 m ρ c) (Proc.devRef .tc main_v100) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v101 : V5 m ρ c main_v101 = (shapeCast S1x256 (Cert.ReferenceIdeal.Read.val_main_v115 (F := Ideal) (m ((c : Thread nD τ).loc main_arg16))) shapeCasts_S256_S1x256) := by
  show StableHlo.after hostOps2 (W4 m ρ c) (Proc.devRef .tc main_v101) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v102 : V5 m ρ c main_v102 = (shapeCast S1x256 (Cert.ReferenceIdeal.Read.val_main_v117 (F := Ideal) (m ((c : Thread nD τ).loc main_arg17))) shapeCasts_S256_S1x256) := by
  show StableHlo.after hostOps2 (W4 m ρ c) (Proc.devRef .tc main_v102) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
theorem V5_main_v103 : V5 m ρ c main_v103 = (shapeCast S1x256 (Cert.ReferenceIdeal.Read.val_main_v119 (F := Ideal) (m ((c : Thread nD τ).loc main_arg18))) shapeCasts_S256_S1x256) := by
  show StableHlo.after hostOps2 (W4 m ρ c) (Proc.devRef .tc main_v103) = _
  after_results_simp
  simp only [W4_main_v1 m ρ c, W4_main_v3 m ρ c, W4_main_arg2 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c, W4_main_arg23 m ρ c, hprev]
  all_goals rfl
end

/-! ## Layer 4: what region 3 finds, and what it leaves -/

section
variable (hprev : W6 m ρ c (Proc.devRef .tc main_v104) = (Cert.ReferenceIdeal.Read.val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))))
include hprev
theorem V7_main_v136 : V7 m ρ c main_v136 = (Cert.ReferenceIdeal.Read.val_main_v190 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps3 (W6 m ρ c) (Proc.devRef .tc main_v136) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v108 : V7 m ρ c main_v108 = (Cert.ReferenceIdeal.Read.val_main_v162 (F := Ideal) (m ((c : Thread nD τ).loc main_arg11))) := by
  show StableHlo.after hostOps3 (W6 m ρ c) (Proc.devRef .tc main_v108) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v137 : V7 m ρ c main_v137 = (shapeCast S1x256 (Cert.ReferenceIdeal.Read.val_main_v164 (F := Ideal) (m ((c : Thread nD τ).loc main_arg12))) shapeCasts_S256_S1x256) := by
  show StableHlo.after hostOps3 (W6 m ρ c) (Proc.devRef .tc main_v137) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v112 : V7 m ρ c main_v112 = (Cert.ReferenceIdeal.Read.val_main_v166 (F := Ideal) (m ((c : Thread nD τ).loc main_arg13))) := by
  show StableHlo.after hostOps3 (W6 m ρ c) (Proc.devRef .tc main_v112) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v138 : V7 m ρ c main_v138 = (shapeCast S1x256 (Cert.ReferenceIdeal.Read.val_main_v168 (F := Ideal) (m ((c : Thread nD τ).loc main_arg14))) shapeCasts_S256_S1x256) := by
  show StableHlo.after hostOps3 (W6 m ρ c) (Proc.devRef .tc main_v138) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v139 : V7 m ρ c main_v139 = (shapeCast S1x256 (Cert.ReferenceIdeal.Read.val_main_v170 (F := Ideal) (m ((c : Thread nD τ).loc main_arg15))) shapeCasts_S256_S1x256) := by
  show StableHlo.after hostOps3 (W6 m ρ c) (Proc.devRef .tc main_v139) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v140 : V7 m ρ c main_v140 = (shapeCast S1x256 (Cert.ReferenceIdeal.Read.val_main_v172 (F := Ideal) (m ((c : Thread nD τ).loc main_arg16))) shapeCasts_S256_S1x256) := by
  show StableHlo.after hostOps3 (W6 m ρ c) (Proc.devRef .tc main_v140) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v141 : V7 m ρ c main_v141 = (shapeCast S1x256 (Cert.ReferenceIdeal.Read.val_main_v174 (F := Ideal) (m ((c : Thread nD τ).loc main_arg17))) shapeCasts_S256_S1x256) := by
  show StableHlo.after hostOps3 (W6 m ρ c) (Proc.devRef .tc main_v141) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
theorem V7_main_v142 : V7 m ρ c main_v142 = (shapeCast S1x256 (Cert.ReferenceIdeal.Read.val_main_v176 (F := Ideal) (m ((c : Thread nD τ).loc main_arg18))) shapeCasts_S256_S1x256) := by
  show StableHlo.after hostOps3 (W6 m ρ c) (Proc.devRef .tc main_v142) = _
  after_results_simp
  simp only [W6_main_v1 m ρ c, W6_main_v3 m ρ c, W6_main_arg2 m ρ c, W6_main_arg11 m ρ c, W6_main_arg12 m ρ c, W6_main_arg13 m ρ c, W6_main_arg14 m ρ c, W6_main_arg15 m ρ c, W6_main_arg16 m ρ c, W6_main_arg17 m ρ c, W6_main_arg18 m ρ c, W6_main_arg19 m ρ c, W6_main_arg20 m ρ c, W6_main_arg21 m ρ c, W6_main_arg22 m ρ c, W6_main_arg23 m ρ c, hprev]
  all_goals rfl
end

/-! ## The classifier: what region 4 finds, and what it leaves -/

section
variable (hprev : W8 m ρ c (Proc.devRef .tc main_v143) = (Cert.ReferenceIdeal.Read.val_main_v215 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))))
include hprev
theorem V9_main_v155 : V9 m ρ c main_v155 = (Cert.ReferenceIdeal.Read.val_main_v227 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps4 (W8 m ρ c) (Proc.devRef .tc main_v155) = _
  after_results_simp
  simp only [W8_main_arg2 m ρ c, W8_main_arg11 m ρ c, W8_main_arg12 m ρ c, W8_main_arg13 m ρ c, W8_main_arg14 m ρ c, W8_main_arg15 m ρ c, W8_main_arg16 m ρ c, W8_main_arg17 m ρ c, W8_main_arg18 m ρ c, W8_main_arg19 m ρ c, W8_main_arg20 m ρ c, W8_main_arg21 m ρ c, W8_main_arg22 m ρ c, W8_main_arg23 m ρ c, hprev]
  all_goals rfl
theorem V9_main_arg20 : V9 m ρ c main_arg20 = (m ((c : Thread nD τ).loc main_arg20)) := by
  show StableHlo.after hostOps4 (W8 m ρ c) (Proc.devRef .tc main_arg20) = _
  after_results_simp
  simp only [W8_main_arg2 m ρ c, W8_main_arg11 m ρ c, W8_main_arg12 m ρ c, W8_main_arg13 m ρ c, W8_main_arg14 m ρ c, W8_main_arg15 m ρ c, W8_main_arg16 m ρ c, W8_main_arg17 m ρ c, W8_main_arg18 m ρ c, W8_main_arg19 m ρ c, W8_main_arg20 m ρ c, W8_main_arg21 m ρ c, W8_main_arg22 m ρ c, W8_main_arg23 m ρ c, hprev]
  all_goals rfl
theorem V9_main_v156 : V9 m ρ c main_v156 = (shapeCast S1x256 (m ((c : Thread nD τ).loc main_arg21)) shapeCasts_S256_S1x256) := by
  show StableHlo.after hostOps4 (W8 m ρ c) (Proc.devRef .tc main_v156) = _
  after_results_simp
  simp only [W8_main_arg2 m ρ c, W8_main_arg11 m ρ c, W8_main_arg12 m ρ c, W8_main_arg13 m ρ c, W8_main_arg14 m ρ c, W8_main_arg15 m ρ c, W8_main_arg16 m ρ c, W8_main_arg17 m ρ c, W8_main_arg18 m ρ c, W8_main_arg19 m ρ c, W8_main_arg20 m ρ c, W8_main_arg21 m ρ c, W8_main_arg22 m ρ c, W8_main_arg23 m ρ c, hprev]
  all_goals rfl
theorem V9_main_arg22 : V9 m ρ c main_arg22 = (m ((c : Thread nD τ).loc main_arg22)) := by
  show StableHlo.after hostOps4 (W8 m ρ c) (Proc.devRef .tc main_arg22) = _
  after_results_simp
  simp only [W8_main_arg2 m ρ c, W8_main_arg11 m ρ c, W8_main_arg12 m ρ c, W8_main_arg13 m ρ c, W8_main_arg14 m ρ c, W8_main_arg15 m ρ c, W8_main_arg16 m ρ c, W8_main_arg17 m ρ c, W8_main_arg18 m ρ c, W8_main_arg19 m ρ c, W8_main_arg20 m ρ c, W8_main_arg21 m ρ c, W8_main_arg22 m ρ c, W8_main_arg23 m ρ c, hprev]
  all_goals rfl
theorem V9_main_v157 : V9 m ρ c main_v157 = (shapeCast S1x10 (m ((c : Thread nD τ).loc main_arg23)) shapeCasts_S10_S1x10) := by
  show StableHlo.after hostOps4 (W8 m ρ c) (Proc.devRef .tc main_v157) = _
  after_results_simp
  simp only [W8_main_arg2 m ρ c, W8_main_arg11 m ρ c, W8_main_arg12 m ρ c, W8_main_arg13 m ρ c, W8_main_arg14 m ρ c, W8_main_arg15 m ρ c, W8_main_arg16 m ρ c, W8_main_arg17 m ρ c, W8_main_arg18 m ρ c, W8_main_arg19 m ρ c, W8_main_arg20 m ρ c, W8_main_arg21 m ρ c, W8_main_arg22 m ρ c, W8_main_arg23 m ρ c, hprev]
  all_goals rfl
end

end Cert.KernelIdeal.Boundary

end
-- ==== Proof.KerChain.lean ====
/-
  The idealized kernel's result is the reference's.

  By induction over the four layers: a region leaves `Cert.Gin.layerEntry` of the arrays it finds, those arrays are
  the reference's stages when the previous layer's output is, and the reference's layer stage is the same
  `layerEntry` at every entry; so after each region the hidden features are the reference's stage. The pooled rows
  are then the reference's, and the classifier region leaves the reference's last stage.
-/
import proofs.«149134_j49194555408764_1_alg».proof.Proof.KerBoundary
import Idealize.ShloMosaic.Lib.StableHlo.Run

set_option maxRecDepth 16384

noncomputable section

open scoped BigOperators

namespace Cert.KernelIdeal.Chain

open Cert.KernelIdeal Cert.KernelIdeal.Gen Cert.KernelIdeal.Boundary Cert.Gin
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- After region 0 the hidden features are the reference's layer-1 stage. -/
theorem hidden1 :
    W2 m ρ c (Proc.devRef .tc main_v26) = (Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19))) := by
  refine ((W2_arr m ρ c 9).trans (Layer0.final (V1 m ρ) c)).trans ?_
  funext i
  obtain ⟨r, q, rfl⟩ : ∃ (r : Fin 50000) (q : Fin 256), i = ix2 r q := ⟨i 0, i 1, eq_ix2 i⟩
  refine Eq.trans ?_ (Cert.ReferenceIdeal.Layer1.entry (x0 := (m ((c : Thread nD τ).loc main_arg0))) (x1 := (m ((c : Thread nD τ).loc main_arg1))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x19 := (m ((c : Thread nD τ).loc main_arg19))) r q).symm
  show Layer0.outAt (V1 m ρ) c r q = _
  unfold Layer0.outAt
  rw [V1_main_v19 m ρ c, V1_main_arg3 m ρ c, V1_main_v20 m ρ c, V1_main_arg5 m ρ c, V1_main_v21 m ρ c, V1_main_v22 m ρ c, V1_main_v23 m ρ c, V1_main_v24 m ρ c, V1_main_v25 m ρ c]
  unfold Layer0.outOf
  simp only [shapeCast_a_1a_apply]

set_option maxHeartbeats 4000000 in
/-- After region 1 the hidden features are the reference's layer-2 stage. -/
theorem hidden2 (hprev : W2 m ρ c (Proc.devRef .tc main_v26) = (Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)))) :
    W4 m ρ c (Proc.devRef .tc main_v65) = (Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine ((W4_arr m ρ c 9).trans (Layer1.final (V3 m ρ) c)).trans ?_
  funext i
  obtain ⟨r, q, rfl⟩ : ∃ (r : Fin 50000) (q : Fin 256), i = ix2 r q := ⟨i 0, i 1, eq_ix2 i⟩
  refine Eq.trans ?_ (Cert.ReferenceIdeal.Layer2.entry (x0 := (m ((c : Thread nD τ).loc main_arg0))) (x1 := (m ((c : Thread nD τ).loc main_arg1))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x11 := (m ((c : Thread nD τ).loc main_arg11))) (x12 := (m ((c : Thread nD τ).loc main_arg12))) (x13 := (m ((c : Thread nD τ).loc main_arg13))) (x14 := (m ((c : Thread nD τ).loc main_arg14))) (x15 := (m ((c : Thread nD τ).loc main_arg15))) (x16 := (m ((c : Thread nD τ).loc main_arg16))) (x17 := (m ((c : Thread nD τ).loc main_arg17))) (x18 := (m ((c : Thread nD τ).loc main_arg18))) (x19 := (m ((c : Thread nD τ).loc main_arg19))) r q).symm
  show Layer1.outAt (V3 m ρ) c r q = _
  unfold Layer1.outAt
  rw [V3_main_v58 m ρ c hprev, V3_main_v30 m ρ c hprev, V3_main_v59 m ρ c hprev, V3_main_v34 m ρ c hprev, V3_main_v60 m ρ c hprev, V3_main_v61 m ρ c hprev, V3_main_v62 m ρ c hprev, V3_main_v63 m ρ c hprev, V3_main_v64 m ρ c hprev]
  unfold Layer1.outOf
  simp only [shapeCast_a_1a_apply]

set_option maxHeartbeats 4000000 in
/-- After region 2 the hidden features are the reference's layer-3 stage. -/
theorem hidden3 (hprev : W4 m ρ c (Proc.devRef .tc main_v65) = (Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) :
    W6 m ρ c (Proc.devRef .tc main_v104) = (Cert.ReferenceIdeal.Read.val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine ((W6_arr m ρ c 9).trans (Layer2.final (V5 m ρ) c)).trans ?_
  funext i
  obtain ⟨r, q, rfl⟩ : ∃ (r : Fin 50000) (q : Fin 256), i = ix2 r q := ⟨i 0, i 1, eq_ix2 i⟩
  refine Eq.trans ?_ (Cert.ReferenceIdeal.Layer3.entry (x0 := (m ((c : Thread nD τ).loc main_arg0))) (x1 := (m ((c : Thread nD τ).loc main_arg1))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x11 := (m ((c : Thread nD τ).loc main_arg11))) (x12 := (m ((c : Thread nD τ).loc main_arg12))) (x13 := (m ((c : Thread nD τ).loc main_arg13))) (x14 := (m ((c : Thread nD τ).loc main_arg14))) (x15 := (m ((c : Thread nD τ).loc main_arg15))) (x16 := (m ((c : Thread nD τ).loc main_arg16))) (x17 := (m ((c : Thread nD τ).loc main_arg17))) (x18 := (m ((c : Thread nD τ).loc main_arg18))) (x19 := (m ((c : Thread nD τ).loc main_arg19))) r q).symm
  show Layer2.outAt (V5 m ρ) c r q = _
  unfold Layer2.outAt
  rw [V5_main_v97 m ρ c hprev, V5_main_v69 m ρ c hprev, V5_main_v98 m ρ c hprev, V5_main_v73 m ρ c hprev, V5_main_v99 m ρ c hprev, V5_main_v100 m ρ c hprev, V5_main_v101 m ρ c hprev, V5_main_v102 m ρ c hprev, V5_main_v103 m ρ c hprev]
  unfold Layer2.outOf
  simp only [shapeCast_a_1a_apply]

set_option maxHeartbeats 4000000 in
/-- After region 3 the hidden features are the reference's layer-4 stage. -/
theorem hidden4 (hprev : W6 m ρ c (Proc.devRef .tc main_v104) = (Cert.ReferenceIdeal.Read.val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) :
    W8 m ρ c (Proc.devRef .tc main_v143) = (Cert.ReferenceIdeal.Read.val_main_v215 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine ((W8_arr m ρ c 9).trans (Layer3.final (V7 m ρ) c)).trans ?_
  funext i
  obtain ⟨r, q, rfl⟩ : ∃ (r : Fin 50000) (q : Fin 256), i = ix2 r q := ⟨i 0, i 1, eq_ix2 i⟩
  refine Eq.trans ?_ (Cert.ReferenceIdeal.Layer4.entry (x0 := (m ((c : Thread nD τ).loc main_arg0))) (x1 := (m ((c : Thread nD τ).loc main_arg1))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x11 := (m ((c : Thread nD τ).loc main_arg11))) (x12 := (m ((c : Thread nD τ).loc main_arg12))) (x13 := (m ((c : Thread nD τ).loc main_arg13))) (x14 := (m ((c : Thread nD τ).loc main_arg14))) (x15 := (m ((c : Thread nD τ).loc main_arg15))) (x16 := (m ((c : Thread nD τ).loc main_arg16))) (x17 := (m ((c : Thread nD τ).loc main_arg17))) (x18 := (m ((c : Thread nD τ).loc main_arg18))) (x19 := (m ((c : Thread nD τ).loc main_arg19))) r q).symm
  show Layer3.outAt (V7 m ρ) c r q = _
  unfold Layer3.outAt
  rw [V7_main_v136 m ρ c hprev, V7_main_v108 m ρ c hprev, V7_main_v137 m ρ c hprev, V7_main_v112 m ρ c hprev, V7_main_v138 m ρ c hprev, V7_main_v139 m ρ c hprev, V7_main_v140 m ρ c hprev, V7_main_v141 m ρ c hprev, V7_main_v142 m ρ c hprev]
  unfold Layer3.outOf
  simp only [shapeCast_a_1a_apply]

set_option maxHeartbeats 4000000 in
/-- After region 4 the result array is the reference's last stage. -/
theorem result_of (hprev : W8 m ρ c (Proc.devRef .tc main_v143) = (Cert.ReferenceIdeal.Read.val_main_v215 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) :
    W10 m ρ c (Proc.devRef .tc main_v158) = (Cert.ReferenceIdeal.Read.val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine ((W10_arr m ρ c 5).trans (Head.final (V9 m ρ) c)).trans ?_
  funext i
  obtain ⟨g, j, rfl⟩ : ∃ (g : Fin 256) (j : Fin 10), i = ix2 g j := ⟨i 0, i 1, eq_ix2 i⟩
  refine Eq.trans ?_ (Cert.ReferenceIdeal.Head.entry (x0 := (m ((c : Thread nD τ).loc main_arg0))) (x1 := (m ((c : Thread nD τ).loc main_arg1))) (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) (x9 := (m ((c : Thread nD τ).loc main_arg9))) (x10 := (m ((c : Thread nD τ).loc main_arg10))) (x11 := (m ((c : Thread nD τ).loc main_arg11))) (x12 := (m ((c : Thread nD τ).loc main_arg12))) (x13 := (m ((c : Thread nD τ).loc main_arg13))) (x14 := (m ((c : Thread nD τ).loc main_arg14))) (x15 := (m ((c : Thread nD τ).loc main_arg15))) (x16 := (m ((c : Thread nD τ).loc main_arg16))) (x17 := (m ((c : Thread nD τ).loc main_arg17))) (x18 := (m ((c : Thread nD τ).loc main_arg18))) (x19 := (m ((c : Thread nD τ).loc main_arg19))) (x20 := (m ((c : Thread nD τ).loc main_arg20))) (x21 := (m ((c : Thread nD τ).loc main_arg21))) (x22 := (m ((c : Thread nD τ).loc main_arg22))) (x23 := (m ((c : Thread nD τ).loc main_arg23))) g j).symm
  show Head.outAt (V9 m ρ) c g j = _
  unfold Head.outAt
  rw [V9_main_v155 m ρ c hprev, V9_main_arg20 m ρ c hprev, V9_main_v156 m ρ c hprev, V9_main_arg22 m ρ c hprev, V9_main_v157 m ρ c hprev]
  unfold Head.outOf
  simp only [shapeCast_a_1a_apply]

/-- The idealized kernel's result array after the run is the reference's result of the same arguments. -/
theorem result : W10 m ρ c (Proc.devRef .tc main_v158) = (Cert.ReferenceIdeal.Read.val_main_v237 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :=
  result_of m ρ c (hidden4 m ρ c (hidden3 m ρ c (hidden2 m ρ c (hidden1 m ρ c))))

end Cert.KernelIdeal.Chain

end
-- ==== Proof.lean ====
/-
  A graph isomorphism network — four layers `h ↦ BN (relu (relu (((1 + ε)·h + Σ_{edges into a node} h[source])·W₀ + b₀)·W₁ + b₁))`,
  mean pooling of the nodes of each graph, and a two-layer classifier with a log-softmax — computed with the dense
  pieces as five kernels (one per layer over 25 blocks of 2000 nodes, one for the classifier), against the same
  network written with plain array operations.

  On the extended reals the two are the same function of the arguments, with no condition on the data: a block of
  rows of a matrix product is those rows of the whole product, term by term; everything after a layer's first product
  acts on one node's row; the gathers, scatter-adds, the pooling quotient and the parameter slices are the same host
  operations on both sides and are never opened; rounding to a shorter float format is the identity; and the host's
  and the vector unit's `rsqrt`, `exp`, `log` are one function each. The kernel's buffers are followed boundary by
  boundary (Proof/KerChain.lean) down to the result array, which is the reference's last stage of the same arguments.
  The frames are the generated ones; the idealization rewrote nothing.
-/
import proofs.«149134_j49194555408764_1_alg».proof.Defs
import proofs.«149134_j49194555408764_1_alg».proof.Proof.Gen.Kernel
import proofs.«149134_j49194555408764_1_alg».proof.Proof.Gen.Kernel.Skeleton
import proofs.«149134_j49194555408764_1_alg».proof.Proof.Gen.Kernel.Launch
import proofs.«149134_j49194555408764_1_alg».proof.Proof.Gen.Kernel.Points
import proofs.«149134_j49194555408764_1_alg».proof.Proof.Gen.Kernel.Frame
import proofs.«149134_j49194555408764_1_alg».proof.Proof.Gen.KernelIdeal
import proofs.«149134_j49194555408764_1_alg».proof.Proof.Gen.KernelIdeal.Skeleton
import proofs.«149134_j49194555408764_1_alg».proof.Proof.Gen.KernelIdeal.Launch
import proofs.«149134_j49194555408764_1_alg».proof.Proof.Gen.KernelIdeal.Points
import proofs.«149134_j49194555408764_1_alg».proof.Proof.Gen.KernelIdeal.Frame
import proofs.«149134_j49194555408764_1_alg».proof.Proof.Gen.ReferenceIdeal
import proofs.«149134_j49194555408764_1_alg».proof.Proof.Gen.Pre_finite_inputs
import proofs.«149134_j49194555408764_1_alg».proof.Proof.KernelRun
import proofs.«149134_j49194555408764_1_alg».proof.Proof.RefRun
import proofs.«149134_j49194555408764_1_alg».proof.Proof.KerChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run (Proof/RefRun.lean) with the result dropped. -/
theorem frame_referenceIdeal : Cert.frame_ReferenceIdeal := fun m ρ _ =>
  (θ_run Cert.ReferenceIdeal.defs _ _).mono (fun _ h c => (h c).2) (Cert.ReferenceIdeal.Staged.run m ρ)

theorem preserves : Cert.preserves_Kernel_KernelIdeal := trivial

/-- Both programs end with the reference's last stage of the (agreeing) argument arrays in their result array. -/
theorem algebraic : Cert.algebraic_KernelIdeal_ReferenceIdeal := by
  intro m ρ m' ρ' _ hagree
  refine ⟨fun c => Cert.ReferenceIdeal.Read.val_main_v237 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c _ (Cert.KernelIdeal.Gen.mem_uc Cert.KernelIdeal.main_v158 (by decide))).trans (Cert.KernelIdeal.Chain.result m ρ c),
        (h c _ (Cert.KernelIdeal.Gen.mem_uc Cert.KernelIdeal.main_arg0 (by decide))).trans (Cert.KernelIdeal.Gen.W10_main_arg0 m ρ c),
        (h c _ (Cert.KernelIdeal.Gen.mem_uc Cert.KernelIdeal.main_arg1 (by decide))).trans (Cert.KernelIdeal.Gen.W10_main_arg1 m ρ c),
        (h c _ (Cert.KernelIdeal.Gen.mem_uc Cert.KernelIdeal.main_arg2 (by decide))).trans (Cert.KernelIdeal.Gen.W10_main_arg2 m ρ c),
        (h c _ (Cert.KernelIdeal.Gen.mem_uc Cert.KernelIdeal.main_arg3 (by decide))).trans (Cert.KernelIdeal.Gen.W10_main_arg3 m ρ c),
        (h c _ (Cert.KernelIdeal.Gen.mem_uc Cert.KernelIdeal.main_arg4 (by decide))).trans (Cert.KernelIdeal.Gen.W10_main_arg4 m ρ c),
        (h c _ (Cert.KernelIdeal.Gen.mem_uc Cert.KernelIdeal.main_arg5 (by decide))).trans (Cert.KernelIdeal.Gen.W10_main_arg5 m ρ c),
        (h c _ (Cert.KernelIdeal.Gen.mem_uc Cert.KernelIdeal.main_arg6 (by decide))).trans (Cert.KernelIdeal.Gen.W10_main_arg6 m ρ c),
        (h c _ (Cert.KernelIdeal.Gen.mem_uc Cert.KernelIdeal.main_arg7 (by decide))).trans (Cert.KernelIdeal.Gen.W10_main_arg7 m ρ c),
        (h c _ (Cert.KernelIdeal.Gen.mem_uc Cert.KernelIdeal.main_arg8 (by decide))).trans (Cert.KernelIdeal.Gen.W10_main_arg8 m ρ c),
        (h c _ (Cert.KernelIdeal.Gen.mem_uc Cert.KernelIdeal.main_arg9 (by decide))).trans (Cert.KernelIdeal.Gen.W10_main_arg9 m ρ c),
        (h c _ (Cert.KernelIdeal.Gen.mem_uc Cert.KernelIdeal.main_arg10 (by decide))).trans (Cert.KernelIdeal.Gen.W10_main_arg10 m ρ c),
        (h c _ (Cert.KernelIdeal.Gen.mem_uc Cert.KernelIdeal.main_arg11 (by decide))).trans (Cert.KernelIdeal.Gen.W10_main_arg11 m ρ c),
        (h c _ (Cert.KernelIdeal.Gen.mem_uc Cert.KernelIdeal.main_arg12 (by decide))).trans (Cert.KernelIdeal.Gen.W10_main_arg12 m ρ c),
        (h c _ (Cert.KernelIdeal.Gen.mem_uc Cert.KernelIdeal.main_arg13 (by decide))).trans (Cert.KernelIdeal.Gen.W10_main_arg13 m ρ c),
        (h c _ (Cert.KernelIdeal.Gen.mem_uc Cert.KernelIdeal.main_arg14 (by decide))).trans (Cert.KernelIdeal.Gen.W10_main_arg14 m ρ c),
        (h c _ (Cert.KernelIdeal.Gen.mem_uc Cert.KernelIdeal.main_arg15 (by decide))).trans (Cert.KernelIdeal.Gen.W10_main_arg15 m ρ c),
        (h c _ (Cert.KernelIdeal.Gen.mem_uc Cert.KernelIdeal.main_arg16 (by decide))).trans (Cert.KernelIdeal.Gen.W10_main_arg16 m ρ c),
        (h c _ (Cert.KernelIdeal.Gen.mem_uc Cert.KernelIdeal.main_arg17 (by decide))).trans (Cert.KernelIdeal.Gen.W10_main_arg17 m ρ c),
        (h c _ (Cert.KernelIdeal.Gen.mem_uc Cert.KernelIdeal.main_arg18 (by decide))).trans (Cert.KernelIdeal.Gen.W10_main_arg18 m ρ c),
        (h c _ (Cert.KernelIdeal.Gen.mem_uc Cert.KernelIdeal.main_arg19 (by decide))).trans (Cert.KernelIdeal.Gen.W10_main_arg19 m ρ c),
        (h c _ (Cert.KernelIdeal.Gen.mem_uc Cert.KernelIdeal.main_arg20 (by decide))).trans (Cert.KernelIdeal.Gen.W10_main_arg20 m ρ c),
        (h c _ (Cert.KernelIdeal.Gen.mem_uc Cert.KernelIdeal.main_arg21 (by decide))).trans (Cert.KernelIdeal.Gen.W10_main_arg21 m ρ c),
        (h c _ (Cert.KernelIdeal.Gen.mem_uc Cert.KernelIdeal.main_arg22 (by decide))).trans (Cert.KernelIdeal.Gen.W10_main_arg22 m ρ c),
        (h c _ (Cert.KernelIdeal.Gen.mem_uc Cert.KernelIdeal.main_arg23 (by decide))).trans (Cert.KernelIdeal.Gen.W10_main_arg23 m ρ c)⟩)
      (Cert.KernelIdeal.Whole.run m ρ)
  · refine (θ_run Cert.ReferenceIdeal.defs _ _).mono (fun r h c => ⟨?_, (h c).2⟩) (Cert.ReferenceIdeal.Staged.run m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
